-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S1000000 : Shape := ⟨1, ![1000000]⟩
abbrev S1000000x1 : Shape := ⟨2, ![1000000, 1]⟩
abbrev S64x64 : Shape := ⟨2, ![64, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S64x64 .f32) (main_arg14 : FVec F S64 .f32) (main_arg15 : FVec F S128x1 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S128x1 .f32) (main_arg10 : FVec F S1 .f32) (main_arg11 : FVec F S64x64 .f32) (main_arg12 : FVec F S64 .f32) (main_arg13 : FVec F S64x64 .f32) (main_arg14 : FVec F S64 .f32) (main_arg15 : FVec F S128x1 .f32) (main_arg16 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x64 .f32) (main_arg8 : FVec F S64 .f32) (main_arg9 : FVec F S128x1 .f32) (main_arg10 : FVec F S1 .f32) (main_arg11 : FVec F S64x64 .f32) (main_arg12 : FVec F S64 .f32) (main_arg13 : FVec F S64x64 .f32) (main_arg14 : FVec F S64 .f32) (main_arg15 : FVec F S128x1 .f32) (main_arg16 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S150000x64 .f32) (main_arg1 : IVec S1000000 32) (main_arg2 : IVec S1000000 32) (main_arg3 : FVec F S1000000x1 .f32) (main_arg4 : FVec F S1000000x1 .f32) (main_arg5 : FVec F S64x64 .f32) (main_arg6 : FVec F S64 .f32) (main_arg7 : FVec F S64x64 .f32) (main_arg8 : FVec F S64 .f32) (main_arg9 : FVec F S128x1 .f32) (main_arg10 : FVec F S1 .f32) (main_arg11 : FVec F S64x64 .f32) (main_arg12 : FVec F S64 .f32) (main_arg13 : FVec F S64x64 .f32) (main_arg14 : FVec F S64 .f32) (main_arg15 : FVec F S128x1 .f32) (main_arg16 : FVec F S1 .f32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S1000000x1 .f32 := Host.absf main_arg3
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S1000000x1 .f32 := Host.absf main_arg4
  let main_cst_2 : FVec F S_ .f32 := constant S_ .f32 0x7F800000#32
  let main_v10 : FVec F S1000000x1 .f32 := broadcastInDim S1000000x1 ![] bcast_S_S1000000x1 main_cst_2
  let main_v11 : IVec S1000000x1 1 := cmpf .olt main_v9 main_v10
  let main_c_3 : IVec S_ 1 := constantI S_ 1 1#1
  let main_v12 : IVec S_ 1 := (fun x v => Host.reduce IntOp.andi x v reducesTo_S1000000x1_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S150000x64 : Shape := ⟨2, ![150000, 64]⟩
abbrev S1000000 : Shape := ⟨1, ![1000000]⟩
abbrev S1000000x1 : Shape := ⟨2, ![1000000, 1]⟩
abbrev S64x64 : Shape := ⟨2, ![64, 64]⟩
abbrev S64 : Shape := ⟨1, ![64]⟩
abbrev S128x1 : Shape := ⟨2, ![128, 1]⟩
abbrev S1 : Shape := ⟨1, ![1]⟩
abbrev S64x1 : Shape := ⟨2, ![64, 1]⟩
abbrev S1x64 : Shape := ⟨2, ![1, 64]⟩
abbrev S1x1 : Shape := ⟨2, ![1, 1]⟩
abbrev S150000x1 : Shape := ⟨2, ![150000, 1]⟩
abbrev S1200x64 : Shape := ⟨2, ![1200, 64]⟩
abbrev S1200x1 : Shape := ⟨2, ![1200, 1]⟩
abbrev S_ : Shape := ⟨0, ![]⟩
abbrev S1048576 : Shape := ⟨1, ![1048576]⟩
abbrev S128x8192 : Shape := ⟨2, ![128, 8192]⟩
abbrev S16x8192 : Shape := ⟨2, ![16, 8192]⟩
abbrev S150000 : Shape := ⟨1, ![150000]⟩
abbrev S1000000x64 : Shape := ⟨2, ![1000000, 64]⟩

abbrev nBuf : Space → Nat
  | .hbm => 213
  | .vmem => 42
  | .smem => 0
  | _ => 0

abbrev hbmTy0_0 (i : Nat) : BufTy := match i % 128 with
  | 0 => ⟨S150000x64, .f32⟩
  | 1 => ⟨S1000000, .i32⟩
  | 2 => ⟨S1000000, .i32⟩
  | 3 => ⟨S1000000x1, .f32⟩
  | 4 => ⟨S1000000x1, .f32⟩
  | 5 => ⟨S64x64, .f32⟩
  | 6 => ⟨S64, .f32⟩
  | 7 => ⟨S64x64, .f32⟩
  | 8 => ⟨S64, .f32⟩
  | 9 => ⟨S128x1, .f32⟩
  | 10 => ⟨S1, .f32⟩
  | 11 => ⟨S64x64, .f32⟩
  | 12 => ⟨S64, .f32⟩
  | 13 => ⟨S64x64, .f32⟩
  | 14 => ⟨S64, .f32⟩
  | 15 => ⟨S128x1, .f32⟩
  | 16 => ⟨S1, .f32⟩
  | 17 => ⟨S64x1, .f32⟩
  | 18 => ⟨S64x1, .f32⟩
  | 19 => ⟨S1x64, .f32⟩
  | 20 => ⟨S1x64, .f32⟩
  | 21 => ⟨S1x1, .f32⟩
  | 22 => ⟨S150000x1, .f32⟩
  | 23 => ⟨S150000x1, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x1, .f32⟩
  | 33 => ⟨S1000000, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x1, .f32⟩
  | 43 => ⟨S1000000, .f32⟩
  | 44 => ⟨S1000000, .f32⟩
  | 45 => ⟨S_, .i32⟩
  | 46 => ⟨S_, .f32⟩
  | 47 => ⟨S1048576, .f32⟩
  | 48 => ⟨S128x8192, .f32⟩
  | 49 => ⟨S_, .i32⟩
  | 50 => ⟨S_, .f32⟩
  | 51 => ⟨S1048576, .f32⟩
  | 52 => ⟨S128x8192, .f32⟩
  | 53 => ⟨S_, .i32⟩
  | 54 => ⟨S_, .f32⟩
  | 55 => ⟨S1048576, .f32⟩
  | 56 => ⟨S128x8192, .f32⟩
  | 57 => ⟨S128x8192, .f32⟩
  | 58 => ⟨S1048576, .f32⟩
  | 59 => ⟨S1000000, .f32⟩
  | 60 => ⟨S_, .f32⟩
  | 61 => ⟨S150000, .f32⟩
  | 62 => ⟨S1000000x1, .i32⟩
  | 63 => ⟨S150000, .f32⟩
  | 64 => ⟨S_, .f32⟩
  | 65 => ⟨S150000, .f32⟩
  | 66 => ⟨S150000, .f32⟩
  | 67 => ⟨S_, .f32⟩
  | 68 => ⟨S150000, .f32⟩
  | 69 => ⟨S150000, .f32⟩
  | 70 => ⟨S_, .f32⟩
  | 71 => ⟨S_, .f32⟩
  | 72 => ⟨S_, .f32⟩
  | 73 => ⟨S150000, .f32⟩
  | 74 => ⟨S150000, .f32⟩
  | 75 => ⟨S_, .f32⟩
  | 76 => ⟨S150000, .f32⟩
  | 77 => ⟨S150000, .f32⟩
  | 78 => ⟨S_, .i32⟩
  | 79 => ⟨S1000000, .i32⟩
  | 80 => ⟨S1000000, .i1⟩
  | 81 => ⟨S_, .i32⟩
  | 82 => ⟨S1000000, .i32⟩
  | 83 => ⟨S1000000, .i32⟩
  | 84 => ⟨S1000000, .i32⟩
  | 85 => ⟨S1000000x1, .i32⟩
  | 86 => ⟨S1000000, .f32⟩
  | 87 => ⟨S1000000, .f32⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1000000, .f32⟩
  | 97 => ⟨S1000000, .f32⟩
  | 98 => ⟨S1000000x1, .f32⟩
  | 99 => ⟨S_, .i32⟩
  | 100 => ⟨S1000000, .i32⟩
  | 101 => ⟨S1000000, .i1⟩
  | 102 => ⟨S_, .i32⟩
  | 103 => ⟨S1000000, .i32⟩
  | 104 => ⟨S1000000, .i32⟩
  | 105 => ⟨S1000000, .i32⟩
  | 106 => ⟨S1000000x1, .i32⟩
  | 107 => ⟨S1000000x64, .f32⟩
  | 108 => ⟨S1000000x64, .f32⟩
  | 109 => ⟨S1000000x64, .f32⟩
  | 110 => ⟨S_, .f32⟩
  | 111 => ⟨S150000x64, .f32⟩
  | 112 => ⟨S1000000x1, .i32⟩
  | 113 => ⟨S150000x64, .f32⟩
  | 114 => ⟨S64x1, .f32⟩
  | 115 => ⟨S64x1, .f32⟩
  | 116 => ⟨S1x64, .f32⟩
  | 117 => ⟨S1x64, .f32⟩
  | 118 => ⟨S1x1, .f32⟩
  | 119 => ⟨S150000x1, .f32⟩
  | 120 => ⟨S150000x1, .f32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S150000x64, .f32⟩

abbrev hbmTy0_1 (i : Nat) : BufTy := match i % 128 with
  | 0 => ⟨S1000000x1, .i32⟩
  | 1 => ⟨S1000000x1, .f32⟩
  | 2 => ⟨S1000000, .f32⟩
  | 3 => ⟨S_, .i32⟩
  | 4 => ⟨S1000000, .i32⟩
  | 5 => ⟨S1000000, .i1⟩
  | 6 => ⟨S_, .i32⟩
  | 7 => ⟨S1000000, .i32⟩
  | 8 => ⟨S1000000, .i32⟩
  | 9 => ⟨S1000000, .i32⟩
  | 10 => ⟨S1000000x1, .i32⟩
  | 11 => ⟨S1000000x1, .f32⟩
  | 12 => ⟨S1000000, .f32⟩
  | 13 => ⟨S1000000, .f32⟩
  | 14 => ⟨S_, .i32⟩
  | 15 => ⟨S_, .f32⟩
  | 16 => ⟨S1048576, .f32⟩
  | 17 => ⟨S128x8192, .f32⟩
  | 18 => ⟨S_, .i32⟩
  | 19 => ⟨S_, .f32⟩
  | 20 => ⟨S1048576, .f32⟩
  | 21 => ⟨S128x8192, .f32⟩
  | 22 => ⟨S_, .i32⟩
  | 23 => ⟨S_, .f32⟩
  | 24 => ⟨S1048576, .f32⟩
  | 25 => ⟨S128x8192, .f32⟩
  | 26 => ⟨S128x8192, .f32⟩
  | 27 => ⟨S1048576, .f32⟩
  | 28 => ⟨S1000000, .f32⟩
  | 29 => ⟨S_, .f32⟩
  | 30 => ⟨S150000, .f32⟩
  | 31 => ⟨S1000000x1, .i32⟩
  | 32 => ⟨S150000, .f32⟩
  | 33 => ⟨S_, .f32⟩
  | 34 => ⟨S150000, .f32⟩
  | 35 => ⟨S150000, .f32⟩
  | 36 => ⟨S_, .f32⟩
  | 37 => ⟨S150000, .f32⟩
  | 38 => ⟨S150000, .f32⟩
  | 39 => ⟨S_, .f32⟩
  | 40 => ⟨S_, .f32⟩
  | 41 => ⟨S_, .f32⟩
  | 42 => ⟨S150000, .f32⟩
  | 43 => ⟨S150000, .f32⟩
  | 44 => ⟨S_, .f32⟩
  | 45 => ⟨S150000, .f32⟩
  | 46 => ⟨S150000, .f32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000, .f32⟩
  | 56 => ⟨S1000000, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000, .f32⟩
  | 66 => ⟨S1000000, .f32⟩
  | 67 => ⟨S1000000x1, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x64, .f32⟩
  | 77 => ⟨S1000000x64, .f32⟩
  | 78 => ⟨S1000000x64, .f32⟩
  | 79 => ⟨S_, .f32⟩
  | 80 => ⟨S150000x64, .f32⟩
  | 81 => ⟨S1000000x1, .i32⟩
  | 82 => ⟨S150000x64, .f32⟩
  | 83 => ⟨S150000x64, .f32⟩
  | 84 => ⟨S150000x64, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | .local _ .vmem, ⟨0, _⟩ => ⟨S1200x64, .f32⟩
  | .local _ .vmem, ⟨1, _⟩ => ⟨S1200x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x1, .f32⟩
  | .local _ .vmem, ⟨7, _⟩ => ⟨S64x1, .f32⟩
  | .local _ .vmem, ⟨8, _⟩ => ⟨S1x1, .f32⟩
  | .local _ .vmem, ⟨9, _⟩ => ⟨S1200x1, .f32⟩
  | .local _ .vmem, ⟨10, _⟩ => ⟨S1200x1, .f32⟩
  | .local _ .vmem, ⟨11, _⟩ => ⟨S1200x1, .f32⟩
  | .local _ .vmem, ⟨12, _⟩ => ⟨S1200x1, .f32⟩
  | .local _ .vmem, ⟨13, _⟩ => ⟨S16x8192, .f32⟩
  | .local _ .vmem, ⟨14, _⟩ => ⟨S16x8192, .f32⟩
  | .local _ .vmem, ⟨15, _⟩ => ⟨S16x8192, .f32⟩
  | .local _ .vmem, ⟨16, _⟩ => ⟨S16x8192, .f32⟩
  | .local _ .vmem, ⟨17, _⟩ => ⟨S16x8192, .f32⟩
  | .local _ .vmem, ⟨18, _⟩ => ⟨S16x8192, .f32⟩
  | .local _ .vmem, ⟨19, _⟩ => ⟨S16x8192, .f32⟩
  | .local _ .vmem, ⟨20, _⟩ => ⟨S16x8192, .f32⟩
  | .local _ .vmem, ⟨21, _⟩ => ⟨S1200x64, .f32⟩
  | .local _ .vmem, ⟨22, _⟩ => ⟨S1200x64, .f32⟩
  | .local _ .vmem, ⟨23, _⟩ => ⟨S64x64, .f32⟩
  | .local _ .vmem, ⟨24, _⟩ => ⟨S1x64, .f32⟩
  | .local _ .vmem, ⟨25, _⟩ => ⟨S64x64, .f32⟩
  | .local _ .vmem, ⟨26, _⟩ => ⟨S1x64, .f32⟩
  | .local _ .vmem, ⟨27, _⟩ => ⟨S64x1, .f32⟩
  | .local _ .vmem, ⟨28, _⟩ => ⟨S64x1, .f32⟩
  | .local _ .vmem, ⟨29, _⟩ => ⟨S1x1, .f32⟩
  | .local _ .vmem, ⟨30, _⟩ => ⟨S1200x1, .f32⟩
  | .local _ .vmem, ⟨31, _⟩ => ⟨S1200x1, .f32⟩
  | .local _ .vmem, ⟨32, _⟩ => ⟨S1200x1, .f32⟩
  | .local _ .vmem, ⟨33, _⟩ => ⟨S1200x1, .f32⟩
  | .local _ .vmem, ⟨34, _⟩ => ⟨S16x8192, .f32⟩
  | .local _ .vmem, ⟨35, _⟩ => ⟨S16x8192, .f32⟩
  | .local _ .vmem, ⟨36, _⟩ => ⟨S16x8192, .f32⟩
  | .local _ .vmem, ⟨37, _⟩ => ⟨S16x8192, .f32⟩
  | .local _ .vmem, ⟨38, _⟩ => ⟨S16x8192, .f32⟩
  | .local _ .vmem, ⟨39, _⟩ => ⟨S16x8192, .f32⟩
  | .local _ .vmem, ⟨40, _⟩ => ⟨S16x8192, .f32⟩
  | .local _ .vmem, ⟨41, _⟩ => ⟨S16x8192, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_3 : Ref sig .tc := ⟨.hbm, 45, rfl⟩
abbrev main_call0_v0 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_call1_v0 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_call2_v0 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_v38 : Ref sig .tc := ⟨.hbm, 69, rfl⟩
abbrev main_cst_8 : Ref sig .tc := ⟨.hbm, 70, rfl⟩
abbrev main_cst_9 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v39 : Ref sig .tc := ⟨.hbm, 77, rfl⟩
abbrev main_c_10 : Ref sig .tc := ⟨.hbm, 78, rfl⟩
abbrev main_v40 : Ref sig .tc := ⟨.hbm, 79, rfl⟩
abbrev main_v41 : Ref sig .tc := ⟨.hbm, 80, rfl⟩
abbrev main_c_11 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_c_12 : Ref sig .tc := ⟨.hbm, 88, rfl⟩
abbrev main_v48 : Ref sig .tc := ⟨.hbm, 89, rfl⟩
abbrev main_v49 : Ref sig .tc := ⟨.hbm, 90, rfl⟩
abbrev main_c_13 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_14 : Ref sig .tc := ⟨.hbm, 99, rfl⟩
abbrev main_v57 : Ref sig .tc := ⟨.hbm, 100, rfl⟩
abbrev main_v58 : Ref sig .tc := ⟨.hbm, 101, rfl⟩
abbrev main_c_15 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_16 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74_0 : Ref sig .tc := ⟨.hbm, 119, rfl⟩
abbrev main_v74_1 : Ref sig .tc := ⟨.hbm, 120, rfl⟩
abbrev main_c_17 : Ref sig .tc := ⟨.hbm, 121, rfl⟩
abbrev main_v75 : Ref sig .tc := ⟨.hbm, 122, rfl⟩
abbrev main_v76 : Ref sig .tc := ⟨.hbm, 123, rfl⟩
abbrev main_c_18 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_c_19 : Ref sig .tc := ⟨.hbm, 131, rfl⟩
abbrev main_v83 : Ref sig .tc := ⟨.hbm, 132, rfl⟩
abbrev main_v84 : Ref sig .tc := ⟨.hbm, 133, rfl⟩
abbrev main_c_20 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_c_21 : Ref sig .tc := ⟨.hbm, 142, rfl⟩
abbrev main_call4_v0 : Ref sig .tc := ⟨.hbm, 143, rfl⟩
abbrev main_v92 : Ref sig .tc := ⟨.hbm, 144, rfl⟩
abbrev main_v93 : Ref sig .tc := ⟨.hbm, 145, rfl⟩
abbrev main_c_22 : Ref sig .tc := ⟨.hbm, 146, rfl⟩
abbrev main_call5_v0 : Ref sig .tc := ⟨.hbm, 147, rfl⟩
abbrev main_v94 : Ref sig .tc := ⟨.hbm, 148, rfl⟩
abbrev main_v95 : Ref sig .tc := ⟨.hbm, 149, rfl⟩
abbrev main_c_23 : Ref sig .tc := ⟨.hbm, 150, rfl⟩
abbrev main_call6_v0 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_24 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_25 : Ref sig .tc := ⟨.hbm, 161, rfl⟩
abbrev main_v104 : Ref sig .tc := ⟨.hbm, 162, rfl⟩
abbrev main_v105 : Ref sig .tc := ⟨.hbm, 163, rfl⟩
abbrev main_cst_26 : Ref sig .tc := ⟨.hbm, 164, rfl⟩
abbrev main_v106 : Ref sig .tc := ⟨.hbm, 165, rfl⟩
abbrev main_v107 : Ref sig .tc := ⟨.hbm, 166, rfl⟩
abbrev main_cst_27 : Ref sig .tc := ⟨.hbm, 167, rfl⟩
abbrev main_cst_28 : Ref sig .tc := ⟨.hbm, 168, rfl⟩
abbrev main_call7_v0 : Ref sig .tc := ⟨.hbm, 169, rfl⟩
abbrev main_call7_v1 : Ref sig .tc := ⟨.hbm, 170, rfl⟩
abbrev main_call7_v2 : Ref sig .tc := ⟨.hbm, 171, rfl⟩
abbrev main_call7_v3 : Ref sig .tc := ⟨.hbm, 172, rfl⟩
abbrev main_call7_v4 : Ref sig .tc := ⟨.hbm, 173, rfl⟩
abbrev main_v108 : Ref sig .tc := ⟨.hbm, 174, rfl⟩
abbrev main_c_29 : Ref sig .tc := ⟨.hbm, 175, rfl⟩
abbrev main_v109 : Ref sig .tc := ⟨.hbm, 176, rfl⟩
abbrev main_v110 : Ref sig .tc := ⟨.hbm, 177, rfl⟩
abbrev main_c_30 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_c_31 : Ref sig .tc := ⟨.hbm, 185, rfl⟩
abbrev main_v117 : Ref sig .tc := ⟨.hbm, 186, rfl⟩
abbrev main_v118 : Ref sig .tc := ⟨.hbm, 187, rfl⟩
abbrev main_c_32 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_c_33 : Ref sig .tc := ⟨.hbm, 196, rfl⟩
abbrev main_v126 : Ref sig .tc := ⟨.hbm, 197, rfl⟩
abbrev main_v127 : Ref sig .tc := ⟨.hbm, 198, rfl⟩
abbrev main_c_34 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_cst_35 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc2_stg9_0 : Ref sig .tc := ⟨.vmem, 32, rfl⟩
abbrev cc2_stg9_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31
abbrev cc2_sem9_0 : DmaSem sig := 32
abbrev cc2_sem9_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1200x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1200x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1200x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1200x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1200x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16x8192 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S16x8192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S16x8192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S128x1_S64x1_0_0 : S128x1.Slices ![0, 0] S64x1
  slices_S128x1_S64x1_64_0 : S128x1.Slices ![64, 0] S64x1
  shapeCasts_S64_S1x64 : S64.ShapeCasts S1x64
  shapeCasts_S1_S1x1 : S1.ShapeCasts S1x1
  inb_S1200x64_S1200x64_0_0 : ∀ a, (![0, 0] : Fin 2 → Nat) a + S1200x64.size a ≤ S1200x64.size a
  h_S1200x64 : 0 < S1200x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1200x64 : S1x64.Broadcasts S1200x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1200x1 : S1x1.Broadcasts S1200x1
  inb_S1200x1_S1200x1_0_0 : ∀ a, (![0, 0] : Fin 2 → Nat) a + S1200x1.size a ≤ S1200x1.size a
  h_S1200x1 : 0 < S1200x1.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000x1_S1000000 : S1000000x1.ShapeCasts S1000000
  pads_S1000000_S1048576_0485760 : S1000000.Pads (![0] : Fin 1 → Nat) ![48576] ![0] S1048576
  h_S_ : 0 < S_.numel
  shapeCasts_S1048576_S128x8192 : S1048576.ShapeCasts S128x8192
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  shapeCasts_S128x8192_S1048576 : S128x8192.ShapeCasts S1048576
  slices_S1048576_S1000000_0 : S1048576.Slices ![0] S1000000
  bcast_S_S150000 : S_.BroadcastsInDim S150000 (![] : Fin 0 → Fin S150000.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  shapeCasts_S1200x64_S1200x64 : S1200x64.ShapeCasts S1200x64
  dot_S1200x64_S64x64_S1200x64_1_0_0_1_n_n_wf : DotDims.WF S1200x64 S64x64 S1200x64 [1] [0] [0] [1] [] []
  dot_S1200x64_S64x1_S1200x1_1_0_0_1_n_n_wf : DotDims.WF S1200x64 S64x1 S1200x1 [1] [0] [0] [1] [] []
  gather_S150000x1_S1000000x1_S1000000x1_1_0_n_n_0_1_11_wf : GatherDims.WF S150000x1 S1000000x1 S1000000x1 [1] [0] [] [0] [] 1 ![1, 1]
  scatter_S150000_S1000000x1_S1000000_n_0_0_1_wf : ScatterDims.WF S150000 S1000000x1 S1000000 [] [0] [0] 1
  gather_S150000_S1000000x1_S1000000_n_0_n_n_0_1_1_wf : GatherDims.WF S150000 S1000000x1 S1000000 [] [0] [] [0] [] 1 ![1]
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x64.size a ≤ S150000x64.size a
  hwx0_0 : ∀ i : grid0.Coords, EltTy.bits .f32 = 32 ∨ (Rect.block (s := S150000x64) S1200x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1200x1.size a ≤ S150000x1.size a
  hwx0_8 : ∀ i : grid0.Coords, EltTy.bits .f32 = 32 ∨ (Rect.block (s := S150000x1) S1200x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1200x1.size a ≤ S150000x1.size a
  hwx0_9 : ∀ i : grid0.Coords, EltTy.bits .f32 = 32 ∨ (Rect.block (s := S150000x1) S1200x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x8192.size a ≤ S128x8192.size a
  hwx1_0 : ∀ i : grid1.Coords, EltTy.bits .f32 = 32 ∨ (Rect.block (s := S128x8192) S16x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x8192.size a ≤ S128x8192.size a
  hwx1_1 : ∀ i : grid1.Coords, EltTy.bits .f32 = 32 ∨ (Rect.block (s := S128x8192) S16x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x8192.size a ≤ S128x8192.size a
  hwx1_2 : ∀ i : grid1.Coords, EltTy.bits .f32 = 32 ∨ (Rect.block (s := S128x8192) S16x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x8192.size a ≤ S128x8192.size a
  hwx1_3 : ∀ i : grid1.Coords, EltTy.bits .f32 = 32 ∨ (Rect.block (s := S128x8192) S16x8192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1200x64.size a ≤ S150000x64.size a
  hwx2_0 : ∀ i : grid2.Coords, EltTy.bits .f32 = 32 ∨ (Rect.block (s := S150000x64) S1200x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x1.size a ≤ S64x1.size a
  hwx2_6 : ∀ i : grid2.Coords, EltTy.bits .f32 = 32 ∨ (Rect.block (s := S64x1) S64x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1200x1.size a ≤ S150000x1.size a
  hwx2_8 : ∀ i : grid2.Coords, EltTy.bits .f32 = 32 ∨ (Rect.block (s := S150000x1) S1200x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1200x1.size a ≤ S150000x1.size a
  hwx2_9 : ∀ i : grid2.Coords, EltTy.bits .f32 = 32 ∨ (Rect.block (s := S150000x1) S1200x1.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16x8192.size a ≤ S128x8192.size a
  hwx3_0 : ∀ i : grid3.Coords, EltTy.bits .f32 = 32 ∨ (Rect.block (s := S128x8192) S16x8192.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16x8192.size a ≤ S128x8192.size a
  hwx3_1 : ∀ i : grid3.Coords, EltTy.bits .f32 = 32 ∨ (Rect.block (s := S128x8192) S16x8192.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16x8192.size a ≤ S128x8192.size a
  hwx3_2 : ∀ i : grid3.Coords, EltTy.bits .f32 = 32 ∨ (Rect.block (s := S128x8192) S16x8192.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S16x8192.size a ≤ S128x8192.size a
  hwx3_3 : ∀ i : grid3.Coords, EltTy.bits .f32 = 32 ∨ (Rect.block (s := S128x8192) S16x8192.size (cc3_transform_3 i) (hinb3_3 i)).WholeWords (EltTy.packing .f32)

variable [Facts₀]

def dot_S1200x64_S64x64_S1200x64_1_0_0_1_n_n : DotDims S1200x64 S64x64 S1200x64 where
  lhsContracting := [1]
  rhsContracting := [0]
  lhsNonContracting := [0]
  rhsNonContracting := [1]
  lhsBatch := []
  rhsBatch := []
  wf := dot_S1200x64_S64x64_S1200x64_1_0_0_1_n_n_wf
def dot_S1200x64_S64x1_S1200x1_1_0_0_1_n_n : DotDims S1200x64 S64x1 S1200x1 where
  lhsContracting := [1]
  rhsContracting := [0]
  lhsNonContracting := [0]
  rhsNonContracting := [1]
  lhsBatch := []
  rhsBatch := []
  wf := dot_S1200x64_S64x1_S1200x1_1_0_0_1_n_n_wf
def gather_S150000x1_S1000000x1_S1000000x1_1_0_n_n_0_1_11 : GatherDims S150000x1 S1000000x1 S1000000x1 where
  offsetDims := [1]
  collapsedSliceDims := [0]
  operandBatchingDims := []
  startIndicesBatchingDims := []
  startIndexMap := [0]
  indexVectorDim := 1
  sliceSizes := ![1, 1]
  wf := gather_S150000x1_S1000000x1_S1000000x1_1_0_n_n_0_1_11_wf
def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def gather_S150000_S1000000x1_S1000000_n_0_n_n_0_1_1 : GatherDims S150000 S1000000x1 S1000000 where
  offsetDims := []
  collapsedSliceDims := [0]
  operandBatchingDims := []
  startIndicesBatchingDims := []
  startIndexMap := [0]
  indexVectorDim := 1
  sliceSizes := ![1]
  wf := gather_S150000_S1000000x1_S1000000_n_0_n_n_0_1_1_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf

abbrev win0_0 : Pipeline.Window sig grid0 :=
  Pipeline.Window.ofSpec (Memref.whole main_arg0) S1200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S1200x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S1200x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v24) S16x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S16x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S16x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S16x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v68) S1200x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70) S64x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v73) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v74_0) S1200x1.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v74_1) S1200x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v93) S16x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v95) S16x8192.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v97) S16x8192.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v98) S16x8192.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S150000x64 : Shape := ⟨2, ![150000, 64]⟩
abbrev S1000000 : Shape := ⟨1, ![1000000]⟩
abbrev S1000000x1 : Shape := ⟨2, ![1000000, 1]⟩
abbrev S64x64 : Shape := ⟨2, ![64, 64]⟩
abbrev S64 : Shape := ⟨1, ![64]⟩
abbrev S128x1 : Shape := ⟨2, ![128, 1]⟩
abbrev S1 : Shape := ⟨1, ![1]⟩
abbrev S_ : Shape := ⟨0, ![]⟩
abbrev S1000000x64 : Shape := ⟨2, ![1000000, 64]⟩
abbrev S1x64 : Shape := ⟨2, ![1, 64]⟩
abbrev S1000000x128 : Shape := ⟨2, ![1000000, 128]⟩
abbrev S1x1 : Shape := ⟨2, ![1, 1]⟩
abbrev S150000 : Shape := ⟨1, ![150000]⟩

abbrev nBuf : Space → Nat
  | .hbm => 255
  | .vmem => 0
  | .smem => 0
  | _ => 0

abbrev hbmTy0_0 (i : Nat) : BufTy := match i % 128 with
  | 0 => ⟨S150000x64, .f32⟩
  | 1 => ⟨S1000000, .i32⟩
  | 2 => ⟨S1000000, .i32⟩
  | 3 => ⟨S1000000x1, .f32⟩
  | 4 => ⟨S1000000x1, .f32⟩
  | 5 => ⟨S64x64, .f32⟩
  | 6 => ⟨S64, .f32⟩
  | 7 => ⟨S64x64, .f32⟩
  | 8 => ⟨S64, .f32⟩
  | 9 => ⟨S128x1, .f32⟩
  | 10 => ⟨S1, .f32⟩
  | 11 => ⟨S64x64, .f32⟩
  | 12 => ⟨S64, .f32⟩
  | 13 => ⟨S64x64, .f32⟩
  | 14 => ⟨S64, .f32⟩
  | 15 => ⟨S128x1, .f32⟩
  | 16 => ⟨S1, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x64, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S1000000x64, .f32⟩
  | 36 => ⟨S1x64, .f32⟩
  | 37 => ⟨S1000000x64, .f32⟩
  | 38 => ⟨S1000000x64, .f32⟩
  | 39 => ⟨S_, .f32⟩
  | 40 => ⟨S1000000x64, .f32⟩
  | 41 => ⟨S1000000x64, .f32⟩
  | 42 => ⟨S1000000x64, .f32⟩
  | 43 => ⟨S1x64, .f32⟩
  | 44 => ⟨S1000000x64, .f32⟩
  | 45 => ⟨S1000000x64, .f32⟩
  | 46 => ⟨S_, .f32⟩
  | 47 => ⟨S1000000x64, .f32⟩
  | 48 => ⟨S1000000x64, .f32⟩
  | 49 => ⟨S1000000x128, .f32⟩
  | 50 => ⟨S1000000x1, .f32⟩
  | 51 => ⟨S1x1, .f32⟩
  | 52 => ⟨S1000000x1, .f32⟩
  | 53 => ⟨S1000000x1, .f32⟩
  | 54 => ⟨S_, .f32⟩
  | 55 => ⟨S_, .f32⟩
  | 56 => ⟨S_, .f32⟩
  | 57 => ⟨S1000000x1, .f32⟩
  | 58 => ⟨S1000000x1, .f32⟩
  | 59 => ⟨S_, .f32⟩
  | 60 => ⟨S1000000x1, .f32⟩
  | 61 => ⟨S1000000x1, .f32⟩
  | 62 => ⟨S1000000x1, .f32⟩
  | 63 => ⟨S1000000x1, .f32⟩
  | 64 => ⟨S1000000x1, .f32⟩
  | 65 => ⟨S1000000x1, .f32⟩
  | 66 => ⟨S1000000x1, .f32⟩
  | 67 => ⟨S1000000x1, .f32⟩
  | 68 => ⟨S1000000x1, .f32⟩
  | 69 => ⟨S_, .f32⟩
  | 70 => ⟨S1000000x1, .f32⟩
  | 71 => ⟨S1000000x1, .f32⟩
  | 72 => ⟨S_, .f32⟩
  | 73 => ⟨S1000000x1, .f32⟩
  | 74 => ⟨S1000000x1, .f32⟩
  | 75 => ⟨S_, .f32⟩
  | 76 => ⟨S1000000x1, .f32⟩
  | 77 => ⟨S1000000x1, .f32⟩
  | 78 => ⟨S_, .f32⟩
  | 79 => ⟨S1000000x1, .f32⟩
  | 80 => ⟨S1000000x1, .f32⟩
  | 81 => ⟨S_, .f32⟩
  | 82 => ⟨S_, .f32⟩
  | 83 => ⟨S_, .f32⟩
  | 84 => ⟨S1000000x1, .f32⟩
  | 85 => ⟨S1000000x1, .f32⟩
  | 86 => ⟨S_, .f32⟩
  | 87 => ⟨S1000000x1, .f32⟩
  | 88 => ⟨S1000000x1, .f32⟩
  | 89 => ⟨S1000000, .f32⟩
  | 90 => ⟨S_, .f32⟩
  | 91 => ⟨S150000, .f32⟩
  | 92 => ⟨S1000000x1, .i32⟩
  | 93 => ⟨S150000, .f32⟩
  | 94 => ⟨S_, .f32⟩
  | 95 => ⟨S150000, .f32⟩
  | 96 => ⟨S150000, .f32⟩
  | 97 => ⟨S_, .f32⟩
  | 98 => ⟨S150000, .f32⟩
  | 99 => ⟨S150000, .f32⟩
  | 100 => ⟨S_, .f32⟩
  | 101 => ⟨S_, .f32⟩
  | 102 => ⟨S_, .f32⟩
  | 103 => ⟨S150000, .f32⟩
  | 104 => ⟨S150000, .f32⟩
  | 105 => ⟨S_, .f32⟩
  | 106 => ⟨S150000, .f32⟩
  | 107 => ⟨S150000, .f32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000, .f32⟩
  | 117 => ⟨S1000000, .f32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000, .f32⟩
  | 127 => ⟨S1000000, .f32⟩
  | _ => ⟨S150000x64, .f32⟩

abbrev hbmTy0_1 (i : Nat) : BufTy := match i % 128 with
  | 0 => ⟨S1000000x1, .f32⟩
  | 1 => ⟨S1000000x64, .f32⟩
  | 2 => ⟨S1000000x64, .f32⟩
  | 3 => ⟨S_, .f32⟩
  | 4 => ⟨S150000x64, .f32⟩
  | 5 => ⟨S1000000x1, .i32⟩
  | 6 => ⟨S150000x64, .f32⟩
  | 7 => ⟨S_, .i32⟩
  | 8 => ⟨S1000000, .i32⟩
  | 9 => ⟨S1000000, .i1⟩
  | 10 => ⟨S_, .i32⟩
  | 11 => ⟨S1000000, .i32⟩
  | 12 => ⟨S1000000, .i32⟩
  | 13 => ⟨S1000000, .i32⟩
  | 14 => ⟨S1000000x1, .i32⟩
  | 15 => ⟨S1000000x64, .f32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x64, .f32⟩
  | 25 => ⟨S1000000x64, .f32⟩
  | 26 => ⟨S1x64, .f32⟩
  | 27 => ⟨S1000000x64, .f32⟩
  | 28 => ⟨S1000000x64, .f32⟩
  | 29 => ⟨S_, .f32⟩
  | 30 => ⟨S1000000x64, .f32⟩
  | 31 => ⟨S1000000x64, .f32⟩
  | 32 => ⟨S1000000x64, .f32⟩
  | 33 => ⟨S1x64, .f32⟩
  | 34 => ⟨S1000000x64, .f32⟩
  | 35 => ⟨S1000000x64, .f32⟩
  | 36 => ⟨S_, .f32⟩
  | 37 => ⟨S1000000x64, .f32⟩
  | 38 => ⟨S1000000x64, .f32⟩
  | 39 => ⟨S1000000x128, .f32⟩
  | 40 => ⟨S1000000x1, .f32⟩
  | 41 => ⟨S1x1, .f32⟩
  | 42 => ⟨S1000000x1, .f32⟩
  | 43 => ⟨S1000000x1, .f32⟩
  | 44 => ⟨S_, .f32⟩
  | 45 => ⟨S_, .f32⟩
  | 46 => ⟨S_, .f32⟩
  | 47 => ⟨S1000000x1, .f32⟩
  | 48 => ⟨S1000000x1, .f32⟩
  | 49 => ⟨S_, .f32⟩
  | 50 => ⟨S1000000x1, .f32⟩
  | 51 => ⟨S1000000x1, .f32⟩
  | 52 => ⟨S1000000x1, .f32⟩
  | 53 => ⟨S1000000x1, .f32⟩
  | 54 => ⟨S1000000x1, .f32⟩
  | 55 => ⟨S1000000x1, .f32⟩
  | 56 => ⟨S1000000x1, .f32⟩
  | 57 => ⟨S1000000x1, .f32⟩
  | 58 => ⟨S1000000x1, .f32⟩
  | 59 => ⟨S_, .f32⟩
  | 60 => ⟨S1000000x1, .f32⟩
  | 61 => ⟨S1000000x1, .f32⟩
  | 62 => ⟨S_, .f32⟩
  | 63 => ⟨S1000000x1, .f32⟩
  | 64 => ⟨S1000000x1, .f32⟩
  | 65 => ⟨S_, .f32⟩
  | 66 => ⟨S1000000x1, .f32⟩
  | 67 => ⟨S1000000x1, .f32⟩
  | 68 => ⟨S_, .f32⟩
  | 69 => ⟨S1000000x1, .f32⟩
  | 70 => ⟨S1000000x1, .f32⟩
  | 71 => ⟨S_, .f32⟩
  | 72 => ⟨S_, .f32⟩
  | 73 => ⟨S_, .f32⟩
  | 74 => ⟨S1000000x1, .f32⟩
  | 75 => ⟨S1000000x1, .f32⟩
  | 76 => ⟨S_, .f32⟩
  | 77 => ⟨S1000000x1, .f32⟩
  | 78 => ⟨S1000000x1, .f32⟩
  | 79 => ⟨S1000000, .f32⟩
  | 80 => ⟨S_, .f32⟩
  | 81 => ⟨S150000, .f32⟩
  | 82 => ⟨S1000000x1, .i32⟩
  | 83 => ⟨S150000, .f32⟩
  | 84 => ⟨S_, .f32⟩
  | 85 => ⟨S150000, .f32⟩
  | 86 => ⟨S150000, .f32⟩
  | 87 => ⟨S_, .f32⟩
  | 88 => ⟨S150000, .f32⟩
  | 89 => ⟨S150000, .f32⟩
  | 90 => ⟨S_, .f32⟩
  | 91 => ⟨S_, .f32⟩
  | 92 => ⟨S_, .f32⟩
  | 93 => ⟨S150000, .f32⟩
  | 94 => ⟨S150000, .f32⟩
  | 95 => ⟨S_, .f32⟩
  | 96 => ⟨S150000, .f32⟩
  | 97 => ⟨S150000, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000, .f32⟩
  | 107 => ⟨S1000000, .f32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000, .f32⟩
  | 117 => ⟨S1000000, .f32⟩
  | 118 => ⟨S1000000x1, .f32⟩
  | 119 => ⟨S1000000x64, .f32⟩
  | 120 => ⟨S1000000x64, .f32⟩
  | 121 => ⟨S_, .f32⟩
  | 122 => ⟨S150000x64, .f32⟩
  | 123 => ⟨S1000000x1, .i32⟩
  | 124 => ⟨S150000x64, .f32⟩
  | 125 => ⟨S150000x64, .f32⟩
  | 126 => ⟨S150000x64, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call0_cst : Ref sig .tc := ⟨.hbm, 39, rfl⟩
abbrev main_call0_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call1_cst : Ref sig .tc := ⟨.hbm, 46, rfl⟩
abbrev main_call1_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst : Ref sig .tc := ⟨.hbm, 54, rfl⟩
abbrev main_cst_3 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_4 : Ref sig .tc := ⟨.hbm, 69, rfl⟩
abbrev main_v37 : Ref sig .tc := ⟨.hbm, 70, rfl⟩
abbrev main_v38 : Ref sig .tc := ⟨.hbm, 71, rfl⟩
abbrev main_cst_5 : Ref sig .tc := ⟨.hbm, 72, rfl⟩
abbrev main_v39 : Ref sig .tc := ⟨.hbm, 73, rfl⟩
abbrev main_v40 : Ref sig .tc := ⟨.hbm, 74, rfl⟩
abbrev main_cst_6 : Ref sig .tc := ⟨.hbm, 75, rfl⟩
abbrev main_v41 : Ref sig .tc := ⟨.hbm, 76, rfl⟩
abbrev main_v42 : Ref sig .tc := ⟨.hbm, 77, rfl⟩
abbrev main_cst_7 : Ref sig .tc := ⟨.hbm, 78, rfl⟩
abbrev main_v43 : Ref sig .tc := ⟨.hbm, 79, rfl⟩
abbrev main_v44 : Ref sig .tc := ⟨.hbm, 80, rfl⟩
abbrev main_cst_8 : Ref sig .tc := ⟨.hbm, 81, rfl⟩
abbrev main_cst_9 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v45 : Ref sig .tc := ⟨.hbm, 88, rfl⟩
abbrev main_v46 : Ref sig .tc := ⟨.hbm, 89, rfl⟩
abbrev main_cst_10 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_11 : Ref sig .tc := ⟨.hbm, 94, rfl⟩
abbrev main_v50 : Ref sig .tc := ⟨.hbm, 95, rfl⟩
abbrev main_v51 : Ref sig .tc := ⟨.hbm, 96, rfl⟩
abbrev main_cst_12 : Ref sig .tc := ⟨.hbm, 97, rfl⟩
abbrev main_v52 : Ref sig .tc := ⟨.hbm, 98, rfl⟩
abbrev main_v53 : Ref sig .tc := ⟨.hbm, 99, rfl⟩
abbrev main_cst_13 : Ref sig .tc := ⟨.hbm, 100, rfl⟩
abbrev main_cst_14 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_v54 : Ref sig .tc := ⟨.hbm, 107, rfl⟩
abbrev main_c_15 : Ref sig .tc := ⟨.hbm, 108, rfl⟩
abbrev main_v55 : Ref sig .tc := ⟨.hbm, 109, rfl⟩
abbrev main_v56 : Ref sig .tc := ⟨.hbm, 110, rfl⟩
abbrev main_c_16 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_c_17 : Ref sig .tc := ⟨.hbm, 118, rfl⟩
abbrev main_v63 : Ref sig .tc := ⟨.hbm, 119, rfl⟩
abbrev main_v64 : Ref sig .tc := ⟨.hbm, 120, rfl⟩
abbrev main_c_18 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_cst_19 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_c_20 : Ref sig .tc := ⟨.hbm, 135, rfl⟩
abbrev main_v77 : Ref sig .tc := ⟨.hbm, 136, rfl⟩
abbrev main_v78 : Ref sig .tc := ⟨.hbm, 137, rfl⟩
abbrev main_c_21 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_c_22 : Ref sig .tc := ⟨.hbm, 144, rfl⟩
abbrev main_v84 : Ref sig .tc := ⟨.hbm, 145, rfl⟩
abbrev main_v85 : Ref sig .tc := ⟨.hbm, 146, rfl⟩
abbrev main_c_23 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_call5_cst : Ref sig .tc := ⟨.hbm, 157, rfl⟩
abbrev main_call5_v0 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_call6_cst : Ref sig .tc := ⟨.hbm, 164, rfl⟩
abbrev main_call6_v0 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_cst_24 : Ref sig .tc := ⟨.hbm, 172, rfl⟩
abbrev main_cst_25 : Ref sig .tc := ⟨.hbm, 173, rfl⟩
abbrev main_call7_v0 : Ref sig .tc := ⟨.hbm, 174, rfl⟩
abbrev main_call7_v1 : Ref sig .tc := ⟨.hbm, 175, rfl⟩
abbrev main_call7_v2 : Ref sig .tc := ⟨.hbm, 176, rfl⟩
abbrev main_call7_v3 : Ref sig .tc := ⟨.hbm, 177, rfl⟩
abbrev main_call7_v4 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_cst_26 : Ref sig .tc := ⟨.hbm, 187, rfl⟩
abbrev main_v114 : Ref sig .tc := ⟨.hbm, 188, rfl⟩
abbrev main_v115 : Ref sig .tc := ⟨.hbm, 189, rfl⟩
abbrev main_cst_27 : Ref sig .tc := ⟨.hbm, 190, rfl⟩
abbrev main_v116 : Ref sig .tc := ⟨.hbm, 191, rfl⟩
abbrev main_v117 : Ref sig .tc := ⟨.hbm, 192, rfl⟩
abbrev main_cst_28 : Ref sig .tc := ⟨.hbm, 193, rfl⟩
abbrev main_v118 : Ref sig .tc := ⟨.hbm, 194, rfl⟩
abbrev main_v119 : Ref sig .tc := ⟨.hbm, 195, rfl⟩
abbrev main_cst_29 : Ref sig .tc := ⟨.hbm, 196, rfl⟩
abbrev main_v120 : Ref sig .tc := ⟨.hbm, 197, rfl⟩
abbrev main_v121 : Ref sig .tc := ⟨.hbm, 198, rfl⟩
abbrev main_cst_30 : Ref sig .tc := ⟨.hbm, 199, rfl⟩
abbrev main_cst_31 : Ref sig .tc := ⟨.hbm, 200, rfl⟩
abbrev main_call8_v0 : Ref sig .tc := ⟨.hbm, 201, rfl⟩
abbrev main_call8_v1 : Ref sig .tc := ⟨.hbm, 202, rfl⟩
abbrev main_call8_v2 : Ref sig .tc := ⟨.hbm, 203, rfl⟩
abbrev main_call8_v3 : Ref sig .tc := ⟨.hbm, 204, rfl⟩
abbrev main_call8_v4 : Ref sig .tc := ⟨.hbm, 205, rfl⟩
abbrev main_v122 : Ref sig .tc := ⟨.hbm, 206, rfl⟩
abbrev main_v123 : Ref sig .tc := ⟨.hbm, 207, rfl⟩
abbrev main_cst_32 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_cst_33 : Ref sig .tc := ⟨.hbm, 212, rfl⟩
abbrev main_v127 : Ref sig .tc := ⟨.hbm, 213, rfl⟩
abbrev main_v128 : Ref sig .tc := ⟨.hbm, 214, rfl⟩
abbrev main_cst_34 : Ref sig .tc := ⟨.hbm, 215, rfl⟩
abbrev main_v129 : Ref sig .tc := ⟨.hbm, 216, rfl⟩
abbrev main_v130 : Ref sig .tc := ⟨.hbm, 217, rfl⟩
abbrev main_cst_35 : Ref sig .tc := ⟨.hbm, 218, rfl⟩
abbrev main_cst_36 : Ref sig .tc := ⟨.hbm, 219, rfl⟩
abbrev main_call9_v0 : Ref sig .tc := ⟨.hbm, 220, rfl⟩
abbrev main_call9_v1 : Ref sig .tc := ⟨.hbm, 221, rfl⟩
abbrev main_call9_v2 : Ref sig .tc := ⟨.hbm, 222, rfl⟩
abbrev main_call9_v3 : Ref sig .tc := ⟨.hbm, 223, rfl⟩
abbrev main_call9_v4 : Ref sig .tc := ⟨.hbm, 224, rfl⟩
abbrev main_v131 : Ref sig .tc := ⟨.hbm, 225, rfl⟩
abbrev main_c_37 : Ref sig .tc := ⟨.hbm, 226, rfl⟩
abbrev main_v132 : Ref sig .tc := ⟨.hbm, 227, rfl⟩
abbrev main_v133 : Ref sig .tc := ⟨.hbm, 228, rfl⟩
abbrev main_c_38 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_c_39 : Ref sig .tc := ⟨.hbm, 236, rfl⟩
abbrev main_v140 : Ref sig .tc := ⟨.hbm, 237, rfl⟩
abbrev main_v141 : Ref sig .tc := ⟨.hbm, 238, rfl⟩
abbrev main_c_40 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_cst_41 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  concatenates_S1000000x64_S1000000x64_S1000000x128_d1 : Shape.Concatenates [S1000000x64, S1000000x64] S1000000x128 1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  shapeCasts_S1000000x1_S1000000 : S1000000x1.ShapeCasts S1000000
  bcast_S_S150000 : S_.BroadcastsInDim S150000 (![] : Fin 0 → Fin S150000.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  gather_S150000x64_S1000000x1_S1000000x64_1_0_n_n_0_1_164_wf : GatherDims.WF S150000x64 S1000000x1 S1000000x64 [1] [0] [] [0] [] 1 ![1, 64]
  dot_S1000000x64_S64x64_S1000000x64_1_0_0_1_n_n_wf : DotDims.WF S1000000x64 S64x64 S1000000x64 [1] [0] [0] [1] [] []
  dot_S1000000x128_S128x1_S1000000x1_1_0_0_1_n_n_wf : DotDims.WF S1000000x128 S128x1 S1000000x1 [1] [0] [0] [1] [] []
  scatter_S150000_S1000000x1_S1000000_n_0_0_1_wf : ScatterDims.WF S150000 S1000000x1 S1000000 [] [0] [0] 1
  gather_S150000_S1000000x1_S1000000_n_0_n_n_0_1_1_wf : GatherDims.WF S150000 S1000000x1 S1000000 [] [0] [] [0] [] 1 ![1]
  scatter_S150000x64_S1000000x1_S1000000x64_1_0_0_1_wf : ScatterDims.WF S150000x64 S1000000x1 S1000000x64 [1] [0] [0] 1

variable [Facts₀]

def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf
def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def gather_S150000_S1000000x1_S1000000_n_0_n_n_0_1_1 : GatherDims S150000 S1000000x1 S1000000 where
  offsetDims := []
  collapsedSliceDims := [0]
  operandBatchingDims := []
  startIndicesBatchingDims := []
  startIndexMap := [0]
  indexVectorDim := 1
  sliceSizes := ![1]
  wf := gather_S150000_S1000000x1_S1000000_n_0_n_n_0_1_1_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf

class Facts : Prop extends Facts₀ where

variable [Facts]
-- ==== Proof.KRun.lean ====
/-
  The idealized kernel's run with its result named: every weakly fair execution of the program terminates without a
  fault, the argument arrays end as launched, and the result array ends at the contents the last stretch of host
  operations leaves in it — the fold of the program's segments (host stretches and the four kernel regions) from the
  launch memory, `Gen.W25`, read at the result's buffer. What that fold holds there is computed in the modules
  that import this one.
-/
import proofs.«129877_j42932493091129_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments with the last thread state read at the result's buffer as well as at the arguments':
    every unscoped buffer ends at the fold's contents, the result's among them. -/
theorem run_value : θ_run defs (onTc (τ := τ) (main (F := F))) ⟨m, fun _ => 0, ρ⟩ (fun r => ∀ c : Dev nD,
      r.2.mem ((c.tc : Thread nD τ).loc main_v139) = W25 m ρ c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v139 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c),
       (h c _ (mem_uc main_arg14 (by decide))).trans (W25_main_arg14 m ρ c),
       (h c _ (mem_uc main_arg15 (by decide))).trans (W25_main_arg15 m ρ c),
       (h c _ (mem_uc main_arg16 (by decide))).trans (W25_main_arg16 m ρ c)⟩)

end Cert.KernelIdeal.ValueRun

end
-- ==== Proof.KChain0.lean ====
/-
  Reading the fold of the program's segments: auxiliary lemmas. A buffer that a kernel region neither reads through a
  window nor writes keeps its contents across the region; `chase` walks a buffer's contents back through the host
  stretches and those regions to the last place it was written.
-/
import proofs.«129877_j42932493091129_2_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Across region 0 a buffer that is none of its arrays keeps its contents. -/
theorem W2_ne' (c : Dev nD) (b : Ref sig .tc) (hb : ∀ w, Pipeline.arrRef spec0 w ≠ b) :
    W2 m ρ c (no_index (Proc.devRef .tc b)) = W1 m ρ c (Proc.devRef .tc b) := W2_of_ne m ρ c b hb
/-- Across region 1 a buffer that is none of its arrays keeps its contents. -/
theorem W10_ne' (c : Dev nD) (b : Ref sig .tc) (hb : ∀ w, Pipeline.arrRef spec1 w ≠ b) :
    W10 m ρ c (no_index (Proc.devRef .tc b)) = W9 m ρ c (Proc.devRef .tc b) := W10_of_ne m ρ c b hb
/-- Across region 2 a buffer that is none of its arrays keeps its contents. -/
theorem W14_ne' (c : Dev nD) (b : Ref sig .tc) (hb : ∀ w, Pipeline.arrRef spec2 w ≠ b) :
    W14 m ρ c (no_index (Proc.devRef .tc b)) = W13 m ρ c (Proc.devRef .tc b) := W14_of_ne m ρ c b hb
/-- Across region 3 a buffer that is none of its arrays keeps its contents. -/
theorem W22_ne' (c : Dev nD) (b : Ref sig .tc) (hb : ∀ w, Pipeline.arrRef spec3 w ≠ b) :
    W22 m ρ c (no_index (Proc.devRef .tc b)) = W21 m ρ c (Proc.devRef .tc b) := W22_of_ne m ρ c b hb

/-- Region 0 only reads the input features: their array is as the region found it. -/
theorem W2_arg0' (c : Dev nD) : W2 m ρ c (no_index (Proc.devRef .tc main_arg0)) = W1 m ρ c (Proc.devRef .tc main_arg0) :=
  (W2_arr m ρ c 0).trans (((dat0 (V1 m ρ) c).arrAt_in 0 rfl _).trans (A_eq0 (V1 m ρ) c 0))
/-- Region 2 only reads the first layer's output: its array is as the region found it. -/
theorem W14_v68' (c : Dev nD) : W14 m ρ c (no_index (Proc.devRef .tc main_v68)) = W13 m ρ c (Proc.devRef .tc main_v68) :=
  (W14_arr m ρ c 0).trans (((dat2 (V13 m ρ) c).arrAt_in 0 rfl _).trans (A_eq2 (V13 m ρ) c 0))

end Cert.KernelIdeal.Chain

/-- Walk a buffer's contents back through host stretches (each operation either wrote it — then it is the operation's
    function of earlier contents — or did not) and through the regions that do not touch it. -/
macro "chase" : tactic =>
  `(tactic| simp (disch := decide) only [Cert.KernelIdeal.Gen.W0, Cert.KernelIdeal.Gen.W1, Cert.KernelIdeal.Gen.W3, Cert.KernelIdeal.Gen.W4, Cert.KernelIdeal.Gen.W5, Cert.KernelIdeal.Gen.W6, Cert.KernelIdeal.Gen.W7, Cert.KernelIdeal.Gen.W8, Cert.KernelIdeal.Gen.W9, Cert.KernelIdeal.Gen.W11, Cert.KernelIdeal.Gen.W12, Cert.KernelIdeal.Gen.W13, Cert.KernelIdeal.Gen.W15, Cert.KernelIdeal.Gen.W16, Cert.KernelIdeal.Gen.W17, Cert.KernelIdeal.Gen.W18, Cert.KernelIdeal.Gen.W19, Cert.KernelIdeal.Gen.W20, Cert.KernelIdeal.Gen.W21, Cert.KernelIdeal.Gen.W23, Cert.KernelIdeal.Gen.W24, Cert.KernelIdeal.Gen.W25, Cert.KernelIdeal.Gen.V1, Cert.KernelIdeal.Gen.V2, Cert.KernelIdeal.Gen.V9, Cert.KernelIdeal.Gen.V10, Cert.KernelIdeal.Gen.V13, Cert.KernelIdeal.Gen.V14, Cert.KernelIdeal.Gen.V21, Cert.KernelIdeal.Gen.V22,
      Cert.KernelIdeal.Gen.hostOps0, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps2, Cert.KernelIdeal.Gen.hostOps2_1, Cert.KernelIdeal.Gen.hostOps2_2, Cert.KernelIdeal.Gen.hostOps3, Cert.KernelIdeal.Gen.hostOps3_1, Cert.KernelIdeal.Gen.hostOps3_2, Cert.KernelIdeal.Gen.hostOps3_3, Cert.KernelIdeal.Gen.hostOps3_4, Cert.KernelIdeal.Gen.hostOps3_5, Cert.KernelIdeal.Gen.hostOps3_6, Cert.KernelIdeal.Gen.hostOps4, Cert.KernelIdeal.Gen.hostOps4_1, Cert.KernelIdeal.Gen.hostOps4_2,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result', Idealize.ShloMosaic.StableHlo.ternary_result', Idealize.ShloMosaic.StableHlo.quaternary_result', Idealize.ShloMosaic.StableHlo.reshape_result',
      Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.quaternary_result_ne', Idealize.ShloMosaic.StableHlo.reshape_result_ne',
      Cert.KernelIdeal.Chain.W2_ne', Cert.KernelIdeal.Chain.W10_ne', Cert.KernelIdeal.Chain.W14_ne', Cert.KernelIdeal.Chain.W22_ne', Cert.KernelIdeal.Chain.W2_arg0', Cert.KernelIdeal.Chain.W14_v68'])

/-- The same walk through the last stretches of host operations only, down to the contents at the last region's exit. -/
macro "chase_last" : tactic =>
  `(tactic| simp (disch := decide) only [Cert.KernelIdeal.Gen.W23, Cert.KernelIdeal.Gen.W24, Cert.KernelIdeal.Gen.W25,
      Cert.KernelIdeal.Gen.hostOps4, Cert.KernelIdeal.Gen.hostOps4_1, Cert.KernelIdeal.Gen.hostOps4_2,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result', Idealize.ShloMosaic.StableHlo.ternary_result', Idealize.ShloMosaic.StableHlo.quaternary_result', Idealize.ShloMosaic.StableHlo.reshape_result',
      Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.quaternary_result_ne', Idealize.ShloMosaic.StableHlo.reshape_result_ne'])

end
-- ==== Proof.KSpec.lean ====
/-
  The kernel program's host-side steps as whole-array functions. Between the kernel regions the program gathers the
  per-node projections at the edges' endpoints (`gatherCol`), lays each per-edge vector out as a 128 × 8192 matrix
  after padding it with zeros to 1048576 entries (`padPrep`), and reads the gate matrix back as a per-edge vector
  (`unprep`); the attention weights are split in two halves and the biases laid out as rows before the node regions.
  After the gates the program continues exactly as the reference does (`tailK`): degree normalisation and the
  weighted sum of source rows into target nodes. The definitions are the program's own operations.
-/
import proofs.«129877_j42932493091129_2_alg».proof.Proof.Gen.KernelIdeal
import Idealize.ShloMosaic.Lib.ValueIdx

set_option maxRecDepth 16384

noncomputable section

namespace Cert.KSpec

open Cert.KernelIdeal Cert.KernelIdeal.Gen Idealize.ShloMosaic Idealize.ShloMosaic.TcCoe Idealize.SL.Sem Idealize.ShloMosaic.StableHlo

variable {F : FTy → Type} [FloatOps F]

/-- An endpoint index as the lookups take it: a negative index counted from the end, as a one-column matrix. -/
def wrapIdx (r : (⟨S1000000, .i32⟩ : BufTy).Contents (Elt F)) : (⟨S1000000x1, .i32⟩ : BufTy).Contents (Elt F) :=
  broadcastInDim S1000000x1 ![0] bcast_S1000000_S1000000x1_0 (select (cmpi .slt r (broadcastInDim S1000000 ![] bcast_S_S1000000 (constantI S_ 32 0#32))) (addi r (broadcastInDim S1000000 ![] bcast_S_S1000000 (constantI S_ 32 150000#32))) r)

/-- A per-node column looked up at every edge's endpoint, as a per-edge vector. -/
def gatherCol (a : (⟨S150000x1, .f32⟩ : BufTy).Contents (Elt F)) (r : (⟨S1000000, .i32⟩ : BufTy).Contents (Elt F)) : (⟨S1000000, .f32⟩ : BufTy).Contents (Elt F) :=
  shapeCast _ (Host.gather gather_S150000x1_S1000000x1_S1000000x1_1_0_n_n_0_1_11 a (wrapIdx r)) shapeCasts_S1000000x1_S1000000

/-- The per-edge noise column as a per-edge vector. -/
def noiseFlat (u : (⟨S1000000x1, .f32⟩ : BufTy).Contents (Elt F)) : (⟨S1000000, .f32⟩ : BufTy).Contents (Elt F) :=
  shapeCast _ u shapeCasts_S1000000x1_S1000000

/-- A per-edge vector padded with zeros to 1048576 entries and laid out as 128 rows of 8192. -/
def padPrep (v : (⟨S1000000, .f32⟩ : BufTy).Contents (Elt F)) : (⟨S128x8192, .f32⟩ : BufTy).Contents (Elt F) :=
  shapeCast _ (pad S1048576 ![0] ![48576] ![0] v (sitofp .f32 (constantI S_ 32 0#32)) pads_S1000000_S1048576_0485760 h_S_) shapeCasts_S1048576_S128x8192

/-- The 128 × 8192 gate matrix read back as the per-edge vector of its first 1000000 entries. -/
def unprep (g : (⟨S128x8192, .f32⟩ : BufTy).Contents (Elt F)) : (⟨S1000000, .f32⟩ : BufTy).Contents (Elt F) :=
  extractStridedSlice S1000000 ![0] (shapeCast _ g shapeCasts_S128x8192_S1048576) slices_S1048576_S1000000_0

/-- The first 64 attention weights. -/
def sliceLo (w : (⟨S128x1, .f32⟩ : BufTy).Contents (Elt F)) : (⟨S64x1, .f32⟩ : BufTy).Contents (Elt F) := extractStridedSlice S64x1 ![0, 0] w slices_S128x1_S64x1_0_0
/-- The last 64 attention weights. -/
def sliceHi (w : (⟨S128x1, .f32⟩ : BufTy).Contents (Elt F)) : (⟨S64x1, .f32⟩ : BufTy).Contents (Elt F) := extractStridedSlice S64x1 ![64, 0] w slices_S128x1_S64x1_64_0
/-- A bias vector as one row. -/
def rowOf (b : (⟨S64, .f32⟩ : BufTy).Contents (Elt F)) : (⟨S1x64, .f32⟩ : BufTy).Contents (Elt F) := shapeCast _ b shapeCasts_S64_S1x64
/-- The attention bias as a 1 × 1 matrix. -/
def oneOf (b : (⟨S1, .f32⟩ : BufTy).Contents (Elt F)) : (⟨S1x1, .f32⟩ : BufTy).Contents (Elt F) := shapeCast _ b shapeCasts_S1_S1x1

/-- From the gates to the layer's output: normalise by the gated in-degree of both endpoints and sum the weighted
    source rows into their target nodes. -/
def tailK (mask : (⟨S1000000, .f32⟩ : BufTy).Contents (Elt F)) (x : (⟨S150000x64, .f32⟩ : BufTy).Contents (Elt F)) (row col : (⟨S1000000, .i32⟩ : BufTy).Contents (Elt F)) : (⟨S150000x64, .f32⟩ : BufTy).Contents (Elt F) :=
  (Host.scatterAdd scatter_S150000x64_S1000000x1_S1000000x64_1_0_0_1 (broadcastInDim S150000x64 ![] bcast_S_S150000x64 (constant S_ .f32 0x00000000#32)) (broadcastInDim S1000000x1 ![0] bcast_S1000000_S1000000x1_0 row) (mulf (broadcastInDim S1000000x64 ![0, 1] bcast_S1000000x1_S1000000x64_0_1 (broadcastInDim S1000000x1 ![0] bcast_S1000000_S1000000x1_0 (mulf (mulf mask (Host.gather gather_S150000_S1000000x1_S1000000_n_0_n_n_0_1_1 (minimumf (broadcastInDim S150000 ![] bcast_S_S150000 (id (constant S_ .f32 0x41200000#32))) (maximumf (broadcastInDim S150000 ![] bcast_S_S150000 (id (constant S_ .f32 0x00000000#32))) (Host.powf (addf (Host.scatterAdd scatter_S150000_S1000000x1_S1000000_n_0_0_1 (broadcastInDim S150000 ![] bcast_S_S150000 (constant S_ .f32 0x00000000#32)) (broadcastInDim S1000000x1 ![0] bcast_S1000000_S1000000x1_0 row) mask) (broadcastInDim S150000 ![] bcast_S_S150000 (constant S_ .f32 0x358637BD#32))) (broadcastInDim S150000 ![] bcast_S_S150000 (constant S_ .f32 0xBF000000#32))))) (broadcastInDim S1000000x1 ![0] bcast_S1000000_S1000000x1_0 (select (cmpi .slt row (broadcastInDim S1000000 ![] bcast_S_S1000000 (constantI S_ 32 0#32))) (addi row (broadcastInDim S1000000 ![] bcast_S_S1000000 (constantI S_ 32 150000#32))) row)))) (Host.gather gather_S150000_S1000000x1_S1000000_n_0_n_n_0_1_1 (minimumf (broadcastInDim S150000 ![] bcast_S_S150000 (id (constant S_ .f32 0x41200000#32))) (maximumf (broadcastInDim S150000 ![] bcast_S_S150000 (id (constant S_ .f32 0x00000000#32))) (Host.powf (addf (Host.scatterAdd scatter_S150000_S1000000x1_S1000000_n_0_0_1 (broadcastInDim S150000 ![] bcast_S_S150000 (constant S_ .f32 0x00000000#32)) (broadcastInDim S1000000x1 ![0] bcast_S1000000_S1000000x1_0 row) mask) (broadcastInDim S150000 ![] bcast_S_S150000 (constant S_ .f32 0x358637BD#32))) (broadcastInDim S150000 ![] bcast_S_S150000 (constant S_ .f32 0xBF000000#32))))) (broadcastInDim S1000000x1 ![0] bcast_S1000000_S1000000x1_0 (select (cmpi .slt col (broadcastInDim S1000000 ![] bcast_S_S1000000 (constantI S_ 32 0#32))) (addi col (broadcastInDim S1000000 ![] bcast_S_S1000000 (constantI S_ 32 150000#32))) col)))))) (Host.gather gather_S150000x64_S1000000x1_S1000000x64_1_0_n_n_0_1_164 x (broadcastInDim S1000000x1 ![0] bcast_S1000000_S1000000x1_0 (select (cmpi .slt col (broadcastInDim S1000000 ![] bcast_S_S1000000 (constantI S_ 32 0#32))) (addi col (broadcastInDim S1000000 ![] bcast_S_S1000000 (constantI S_ 32 150000#32))) col)))))

end Cert.KSpec

end
-- ==== Proof.KChain1.lean ====
/-
  The contents of the buffers the kernel regions read, at each region's entry, and of the program's result, as
  functions of the launch memory and of the regions' output arrays.
-/
import proofs.«129877_j42932493091129_2_alg».proof.Proof.KChain0
import proofs.«129877_j42932493091129_2_alg».proof.Proof.KSpec

set_option maxRecDepth 16384

noncomputable section

namespace Cert.KernelIdeal.Chain

open Cert.KernelIdeal Cert.KernelIdeal.Gen Cert.KSpec
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Region 0 (the first layer's node projections): entry and exit -/

theorem E0_arg0 (c : Dev nD) : W1 m ρ c (Proc.devRef .tc main_arg0) = (m ((c.tc : Thread nD τ).loc main_arg0)) := by chase <;> rfl
theorem E0_arg5 (c : Dev nD) : W1 m ρ c (Proc.devRef .tc main_arg5) = (m ((c.tc : Thread nD τ).loc main_arg5)) := by chase <;> rfl
theorem E0_arg7 (c : Dev nD) : W1 m ρ c (Proc.devRef .tc main_arg7) = (m ((c.tc : Thread nD τ).loc main_arg7)) := by chase <;> rfl
theorem E0_v0 (c : Dev nD) : W1 m ρ c (Proc.devRef .tc main_v0) = sliceLo (m ((c.tc : Thread nD τ).loc main_arg9)) := by chase <;> rfl
theorem E0_v1 (c : Dev nD) : W1 m ρ c (Proc.devRef .tc main_v1) = sliceHi (m ((c.tc : Thread nD τ).loc main_arg9)) := by chase <;> rfl
theorem E0_v2 (c : Dev nD) : W1 m ρ c (Proc.devRef .tc main_v2) = rowOf (m ((c.tc : Thread nD τ).loc main_arg6)) := by chase <;> rfl
theorem E0_v3 (c : Dev nD) : W1 m ρ c (Proc.devRef .tc main_v3) = rowOf (m ((c.tc : Thread nD τ).loc main_arg8)) := by chase <;> rfl
theorem E0_v4 (c : Dev nD) : W1 m ρ c (Proc.devRef .tc main_v4) = oneOf (m ((c.tc : Thread nD τ).loc main_arg10)) := by chase <;> rfl

theorem X0_a1 (c : Dev nD) : W2 m ρ c (Proc.devRef .tc main_v5_0) = (dat0 (V1 m ρ) c).arrAt 8 cfg0.N := W2_arr m ρ c 8
theorem X0_a2 (c : Dev nD) : W2 m ρ c (Proc.devRef .tc main_v5_1) = (dat0 (V1 m ρ) c).arrAt 9 cfg0.N := W2_arr m ρ c 9

/-! ## Region 1 (the first layer's gates): entry and exit -/

theorem E1_v24 (c : Dev nD) : W9 m ρ c (Proc.devRef .tc main_v24) = padPrep (gatherCol (W2 m ρ c (Proc.devRef .tc main_v5_0)) (m ((c.tc : Thread nD τ).loc main_arg1))) := by
  chase <;> rfl
theorem E1_v26 (c : Dev nD) : W9 m ρ c (Proc.devRef .tc main_v26) = padPrep (gatherCol (W2 m ρ c (Proc.devRef .tc main_v5_1)) (m ((c.tc : Thread nD τ).loc main_arg2))) := by
  chase <;> rfl
theorem E1_v28 (c : Dev nD) : W9 m ρ c (Proc.devRef .tc main_v28) = padPrep (noiseFlat (m ((c.tc : Thread nD τ).loc main_arg3))) := by
  chase <;> rfl

theorem X1_g (c : Dev nD) : W10 m ρ c (Proc.devRef .tc main_v29) = (dat1 (V9 m ρ) c).arrAt 3 cfg1.N := W10_arr m ρ c 3

/-! ## Region 2 (the second layer's node projections): entry and exit -/

theorem E2_v68 (c : Dev nD) : W13 m ρ c (Proc.devRef .tc main_v68) = (tailK (unprep (W10 m ρ c (Proc.devRef .tc main_v29))) (m ((c.tc : Thread nD τ).loc main_arg0)) (m ((c.tc : Thread nD τ).loc main_arg1)) (m ((c.tc : Thread nD τ).loc main_arg2))) := by
  chase <;> rfl
theorem E2_arg11 (c : Dev nD) : W13 m ρ c (Proc.devRef .tc main_arg11) = (m ((c.tc : Thread nD τ).loc main_arg11)) := by chase <;> rfl
theorem E2_arg13 (c : Dev nD) : W13 m ρ c (Proc.devRef .tc main_arg13) = (m ((c.tc : Thread nD τ).loc main_arg13)) := by chase <;> rfl
theorem E2_v69 (c : Dev nD) : W13 m ρ c (Proc.devRef .tc main_v69) = sliceLo (m ((c.tc : Thread nD τ).loc main_arg15)) := by chase <;> rfl
theorem E2_v70 (c : Dev nD) : W13 m ρ c (Proc.devRef .tc main_v70) = sliceHi (m ((c.tc : Thread nD τ).loc main_arg15)) := by chase <;> rfl
theorem E2_v71 (c : Dev nD) : W13 m ρ c (Proc.devRef .tc main_v71) = rowOf (m ((c.tc : Thread nD τ).loc main_arg12)) := by chase <;> rfl
theorem E2_v72 (c : Dev nD) : W13 m ρ c (Proc.devRef .tc main_v72) = rowOf (m ((c.tc : Thread nD τ).loc main_arg14)) := by chase <;> rfl
theorem E2_v73 (c : Dev nD) : W13 m ρ c (Proc.devRef .tc main_v73) = oneOf (m ((c.tc : Thread nD τ).loc main_arg16)) := by chase <;> rfl

theorem X2_a1 (c : Dev nD) : W14 m ρ c (Proc.devRef .tc main_v74_0) = (dat2 (V13 m ρ) c).arrAt 8 cfg2.N := W14_arr m ρ c 8
theorem X2_a2 (c : Dev nD) : W14 m ρ c (Proc.devRef .tc main_v74_1) = (dat2 (V13 m ρ) c).arrAt 9 cfg2.N := W14_arr m ρ c 9

/-! ## Region 3 (the second layer's gates): entry and exit -/

theorem E3_v93 (c : Dev nD) : W21 m ρ c (Proc.devRef .tc main_v93) = padPrep (gatherCol (W14 m ρ c (Proc.devRef .tc main_v74_0)) (m ((c.tc : Thread nD τ).loc main_arg1))) := by
  chase <;> rfl
theorem E3_v95 (c : Dev nD) : W21 m ρ c (Proc.devRef .tc main_v95) = padPrep (gatherCol (W14 m ρ c (Proc.devRef .tc main_v74_1)) (m ((c.tc : Thread nD τ).loc main_arg2))) := by
  chase <;> rfl
theorem E3_v97 (c : Dev nD) : W21 m ρ c (Proc.devRef .tc main_v97) = padPrep (noiseFlat (m ((c.tc : Thread nD τ).loc main_arg4))) := by
  chase <;> rfl

theorem X3_g (c : Dev nD) : W22 m ρ c (Proc.devRef .tc main_v98) = (dat3 (V21 m ρ) c).arrAt 3 cfg3.N := W22_arr m ρ c 3

/-! ## The result: the input features plus the two layers' outputs -/

theorem T3_arg0 (c : Dev nD) : W22 m ρ c (Proc.devRef .tc main_arg0) = (m ((c.tc : Thread nD τ).loc main_arg0)) := by chase <;> rfl
theorem T3_arg1 (c : Dev nD) : W22 m ρ c (Proc.devRef .tc main_arg1) = (m ((c.tc : Thread nD τ).loc main_arg1)) := by chase <;> rfl
theorem T3_arg2 (c : Dev nD) : W22 m ρ c (Proc.devRef .tc main_arg2) = (m ((c.tc : Thread nD τ).loc main_arg2)) := by chase <;> rfl
/-- The first layer's output is still in its buffer when the last region ends. -/
theorem T3_v68 (c : Dev nD) : W22 m ρ c (Proc.devRef .tc main_v68) = W13 m ρ c (Proc.devRef .tc main_v68) := by chase <;> rfl

/-- The result from the contents at the last region's exit. -/
theorem result_last (c : Dev nD) : W25 m ρ c (Proc.devRef .tc main_v139)
    = addf (addf (W22 m ρ c (Proc.devRef .tc main_arg0)) (W22 m ρ c (Proc.devRef .tc main_v68)))
        (tailK (unprep (W22 m ρ c (Proc.devRef .tc main_v98))) (W22 m ρ c (Proc.devRef .tc main_v68)) (W22 m ρ c (Proc.devRef .tc main_arg1)) (W22 m ρ c (Proc.devRef .tc main_arg2))) := by
  chase_last <;> rfl

theorem result_v139 (c : Dev nD) : W25 m ρ c (Proc.devRef .tc main_v139)
    = addf (addf (m ((c.tc : Thread nD τ).loc main_arg0)) (tailK (unprep (W10 m ρ c (Proc.devRef .tc main_v29))) (m ((c.tc : Thread nD τ).loc main_arg0)) (m ((c.tc : Thread nD τ).loc main_arg1)) (m ((c.tc : Thread nD τ).loc main_arg2))))
        (tailK (unprep (W22 m ρ c (Proc.devRef .tc main_v98))) (tailK (unprep (W10 m ρ c (Proc.devRef .tc main_v29))) (m ((c.tc : Thread nD τ).loc main_arg0)) (m ((c.tc : Thread nD τ).loc main_arg1)) (m ((c.tc : Thread nD τ).loc main_arg2))) (m ((c.tc : Thread nD τ).loc main_arg1)) (m ((c.tc : Thread nD τ).loc main_arg2))) := by
  rw [result_last, T3_arg0, T3_arg1, T3_arg2, T3_v68, E2_v68]

end Cert.KernelIdeal.Chain

end
-- ==== Proof.GateValue.lean ====
/- The elementwise gate kernel, read as one function of its three argument arrays.

   The kernel's body is a tree of pointwise operations on three whole [16, 8192] blocks: the two gathered
   projections are added; the noise is clamped into [1e-7, 1 - 2⁻²³] and its logit log ū - log1p (0 - ū) is
   added to that sum; the logistic of the total is stretched by 1.5, shifted by -0.45 and clamped into [0, 1].
   `gateS` is that arithmetic on ONE element. Each of the grid's 8 points reads block (t, 0) of every argument
   array and writes block (t, 0) of the result array, and the 8 blocks tile the [128, 8192] arrays exactly, so
   after the region the result array holds `gateS` of the three argument arrays as the region found them, index
   by index (`final1` for the first gate call, `final3` for the second). -/
import proofs.«129877_j42932493091129_2_alg».proof.Proof.Gen.KernelIdeal.Frame
import Idealize.ShloMosaic.Lib.Pipeline.Value

noncomputable section

namespace Cert.KernelIdeal.GateValue

open Cert.KernelIdeal Cert.KernelIdeal.Gen Idealize.ShloMosaic Idealize.ShloMosaic.TcCoe Idealize.SL.Sem
open Idealize.ShloMosaic.Pipeline (Dat)

variable {F : FTy → Type} [FloatOps F]

/-! ## The gate on one element -/

/-- The gate's arithmetic on one element: `a`, `b` the two gathered projections, `u` the noise.
    With ū = min (1 - 2⁻²³) (max 1e-7 u) the clamped noise, the value is
    min 1 (max 0 (logistic ((log ū - log1p (0 - ū)) + (a + b)) · 1.5 + (-0.45))). -/
def gateS (a b u : F .f32) : F .f32 :=
  FloatOps.minimumf (Scalar.ofBits .f32 0x3F800000#32)
    (FloatOps.maximumf (Scalar.ofBits .f32 0x00000000#32)
      (FloatOps.addf
        (FloatOps.mulf
          (FloatOps.logistic
            (FloatOps.addf
              (FloatOps.subf
                (FloatOps.log
                  (FloatOps.minimumf (Scalar.ofBits .f32 0x3F7FFFFE#32) (FloatOps.maximumf (Scalar.ofBits .f32 0x33D6BF95#32) u)))
                (FloatOps.log1p
                  (FloatOps.subf (Scalar.ofBits .f32 0x00000000#32)
                    (FloatOps.minimumf (Scalar.ofBits .f32 0x3F7FFFFE#32) (FloatOps.maximumf (Scalar.ofBits .f32 0x33D6BF95#32) u)))))
              (FloatOps.addf a b)))
          (Scalar.ofBits .f32 0x3FC00000#32))
        (Scalar.ofBits .f32 0xBEE66666#32)))

/-- The gate of three arrays, index by index. -/
abbrev gateArr (a0 a1 a2 : S128x8192.Idx → Elt F .f32) : S128x8192.Idx → Elt F .f32 :=
  fun i => gateS (a0 i) (a1 i) (a2 i)

/-- Every block sits at offset zero of its staging buffer. -/
theorem zero_off : (![0, 0] : Fin 2 → Nat) = fun _ => 0 := funext fun a => by fin_cases a <;> rfl

/-! ## From blocks to arrays -/

section Arrays
-- the buffer contents when a region is entered
variable (V : (c : Dev nD) → (b : Ref sig .tc) → Buf (Elt F) ((c : Thread nD τ).loc b))

/-! ## The first gate call -/

/-- The payload, read at an index: the gate of its three blocks' elements there (the shape casts to the
    same shape are the identity, every other operation is pointwise). -/
theorem pay1_apply (x0 x1 x2 : Vec F S16x8192 .f32) (j : S16x8192.Idx) :
    k1_pay1 x0 x1 x2 j = gateS (x0 j) (x1 j) (x2 j) := by
  unfold k1_pay1
  simp only [shapeCast_self]
  rfl

/-- The printed index maps, decided over the grid's 8 points: every argument window moves with the result
    window, whose block index at point `t` is (t, 0). -/
theorem idx_facts1 : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = win1_3.index t (0 : Fin 2) ∧ win1_2.index t (1 : Fin 2) = win1_3.index t (1 : Fin 2)
    ∧ win1_3.index t (0 : Fin 2) = t.val ∧ win1_3.index t (1 : Fin 2) = 0 :=
  (by decide +kernel : ∀ t : Fin grid1.N, _)

/-- What point `t` writes back is block `t` of the gate of the argument arrays as the region finds them. -/
theorem flushed1_eq (c : Dev nD) (t : Fin cfg1.N) :
    (dat1 V c).flushed 3 t
      = ((cfg1.win 3).blk t).view.read (Elt F) (gateArr (V c main_v24) (V c main_v26) (V c main_v28)) := by
  show (cfg1.win 3).cut (grid1.coords t) ((dat1 V c).after 3 t) = _
  rw [after1_3]
  unfold out1_3
  rw [View.canon_unit_zero zero_off]
  simp only [View.ld_unit_zero (S := S16x8192) zero_off]
  obtain ⟨e00, e01, e10, e11, e20, e21, -, -⟩ := idx_facts1 t
  funext j
  refine (pay1_apply _ _ _ j).trans ?_
  show gateS (V c main_v24 (((cfg1.win 0).blk t).view.emb j)) (V c main_v26 (((cfg1.win 1).blk t).view.emb j))
      (V c main_v28 (((cfg1.win 2).blk t).view.emb j))
    = gateS (V c main_v24 (((cfg1.win 3).blk t).view.emb j)) (V c main_v26 (((cfg1.win 3).blk t).view.emb j))
      (V c main_v28 (((cfg1.win 3).blk t).view.emb j))
  have h0 : ((cfg1.win 0).blk t).view.emb j = ((cfg1.win 3).blk t).view.emb j := by
    funext a; apply Fin.ext
    match a with
    | ⟨0, _⟩ => show win1_0.index t (0 : Fin 2) * 16 + 1 * (j 0).val = win1_3.index t (0 : Fin 2) * 16 + 1 * (j 0).val; omega
    | ⟨1, _⟩ => show win1_0.index t (1 : Fin 2) * 8192 + 1 * (j 1).val = win1_3.index t (1 : Fin 2) * 8192 + 1 * (j 1).val; omega
  have h1 : ((cfg1.win 1).blk t).view.emb j = ((cfg1.win 3).blk t).view.emb j := by
    funext a; apply Fin.ext
    match a with
    | ⟨0, _⟩ => show win1_1.index t (0 : Fin 2) * 16 + 1 * (j 0).val = win1_3.index t (0 : Fin 2) * 16 + 1 * (j 0).val; omega
    | ⟨1, _⟩ => show win1_1.index t (1 : Fin 2) * 8192 + 1 * (j 1).val = win1_3.index t (1 : Fin 2) * 8192 + 1 * (j 1).val; omega
  have h2 : ((cfg1.win 2).blk t).view.emb j = ((cfg1.win 3).blk t).view.emb j := by
    funext a; apply Fin.ext
    match a with
    | ⟨0, _⟩ => show win1_2.index t (0 : Fin 2) * 16 + 1 * (j 0).val = win1_3.index t (0 : Fin 2) * 16 + 1 * (j 0).val; omega
    | ⟨1, _⟩ => show win1_2.index t (1 : Fin 2) * 8192 + 1 * (j 1).val = win1_3.index t (1 : Fin 2) * 8192 + 1 * (j 1).val; omega
  rw [h0, h1, h2]

/-- An index of the result array is in point `t`'s block iff each coordinate is in the block's range on its axis. -/
theorem mem_blk1 (t : Fin cfg1.N) (i : S128x8192.Idx) :
    i ∈ ((cfg1.win 3).blk t).view.set
      ↔ ∀ a : Fin 2, win1_3.index t a * S16x8192.size a ≤ (i a).val
          ∧ (i a).val < win1_3.index t a * S16x8192.size a + S16x8192.size a := by
  show i ∈ ((View.whole main_v29).slice (win1_3.rect t)).set ↔ _
  rw [View.set_slice_whole, Rect.mem_set_unit]
  exact Iff.rfl

/-- The 8 blocks of 16 rows tile the 128 rows: row `r` is in the block of point `r / 16`. -/
theorem cover1 (i : S128x8192.Idx) :
    ∃ t : Fin cfg1.N, (cfg1.win 3).flush t = true ∧ i ∈ ((cfg1.win 3).blk t).view.set := by
  have hi0 : (i 0).val < 128 := (i 0).isLt
  have hi1 : (i 1).val < 8192 := (i 1).isLt
  have hN : cfg1.N = 8 := N_1
  let t : Fin cfg1.N := ⟨(i 0).val / 16, by rw [hN]; omega⟩
  have ht : t.val = (i 0).val / 16 := rfl
  obtain ⟨-, -, -, -, -, -, q0, q1⟩ := idx_facts1 t
  refine ⟨t, flush1_3 t, ?_⟩
  rw [mem_blk1]
  intro a
  match a with
  | ⟨0, _⟩ => show win1_3.index t (0 : Fin 2) * 16 ≤ (i 0).val ∧ (i 0).val < win1_3.index t (0 : Fin 2) * 16 + 16; omega
  | ⟨1, _⟩ => show win1_3.index t (1 : Fin 2) * 8192 ≤ (i 1).val ∧ (i 1).val < win1_3.index t (1 : Fin 2) * 8192 + 8192; omega

/-- The result array after the region: the gate of the three argument arrays as the region found them. -/
theorem final1 (c : Dev nD) :
    (dat1 (F := F) V c).arrAt 3 cfg1.N = fun i => gateS (V c main_v24 i) (V c main_v26 i) (V c main_v28 i) :=
  (dat1 V c).arrAt_eq_of_cover 3 (gateArr (V c main_v24) (V c main_v26) (V c main_v28))
    (fun t _ => flushed1_eq V c t) (cover1)

/-! ## The second gate call -/

/-- The payload, read at an index: the gate of its three blocks' elements there (the shape casts to the
    same shape are the identity, every other operation is pointwise). -/
theorem pay3_apply (x0 x1 x2 : Vec F S16x8192 .f32) (j : S16x8192.Idx) :
    k3_pay1 x0 x1 x2 j = gateS (x0 j) (x1 j) (x2 j) := by
  unfold k3_pay1
  simp only [shapeCast_self]
  rfl

/-- The printed index maps, decided over the grid's 8 points: every argument window moves with the result
    window, whose block index at point `t` is (t, 0). -/
theorem idx_facts3 : ∀ t : Fin cfg3.N,
    win3_0.index t (0 : Fin 2) = win3_3.index t (0 : Fin 2) ∧ win3_0.index t (1 : Fin 2) = win3_3.index t (1 : Fin 2)
    ∧ win3_1.index t (0 : Fin 2) = win3_3.index t (0 : Fin 2) ∧ win3_1.index t (1 : Fin 2) = win3_3.index t (1 : Fin 2)
    ∧ win3_2.index t (0 : Fin 2) = win3_3.index t (0 : Fin 2) ∧ win3_2.index t (1 : Fin 2) = win3_3.index t (1 : Fin 2)
    ∧ win3_3.index t (0 : Fin 2) = t.val ∧ win3_3.index t (1 : Fin 2) = 0 :=
  (by decide +kernel : ∀ t : Fin grid3.N, _)

/-- What point `t` writes back is block `t` of the gate of the argument arrays as the region finds them. -/
theorem flushed3_eq (c : Dev nD) (t : Fin cfg3.N) :
    (dat3 V c).flushed 3 t
      = ((cfg3.win 3).blk t).view.read (Elt F) (gateArr (V c main_v93) (V c main_v95) (V c main_v97)) := by
  show (cfg3.win 3).cut (grid3.coords t) ((dat3 V c).after 3 t) = _
  rw [after3_3]
  unfold out3_3
  rw [View.canon_unit_zero zero_off]
  simp only [View.ld_unit_zero (S := S16x8192) zero_off]
  obtain ⟨e00, e01, e10, e11, e20, e21, -, -⟩ := idx_facts3 t
  funext j
  refine (pay3_apply _ _ _ j).trans ?_
  show gateS (V c main_v93 (((cfg3.win 0).blk t).view.emb j)) (V c main_v95 (((cfg3.win 1).blk t).view.emb j))
      (V c main_v97 (((cfg3.win 2).blk t).view.emb j))
    = gateS (V c main_v93 (((cfg3.win 3).blk t).view.emb j)) (V c main_v95 (((cfg3.win 3).blk t).view.emb j))
      (V c main_v97 (((cfg3.win 3).blk t).view.emb j))
  have h0 : ((cfg3.win 0).blk t).view.emb j = ((cfg3.win 3).blk t).view.emb j := by
    funext a; apply Fin.ext
    match a with
    | ⟨0, _⟩ => show win3_0.index t (0 : Fin 2) * 16 + 1 * (j 0).val = win3_3.index t (0 : Fin 2) * 16 + 1 * (j 0).val; omega
    | ⟨1, _⟩ => show win3_0.index t (1 : Fin 2) * 8192 + 1 * (j 1).val = win3_3.index t (1 : Fin 2) * 8192 + 1 * (j 1).val; omega
  have h1 : ((cfg3.win 1).blk t).view.emb j = ((cfg3.win 3).blk t).view.emb j := by
    funext a; apply Fin.ext
    match a with
    | ⟨0, _⟩ => show win3_1.index t (0 : Fin 2) * 16 + 1 * (j 0).val = win3_3.index t (0 : Fin 2) * 16 + 1 * (j 0).val; omega
    | ⟨1, _⟩ => show win3_1.index t (1 : Fin 2) * 8192 + 1 * (j 1).val = win3_3.index t (1 : Fin 2) * 8192 + 1 * (j 1).val; omega
  have h2 : ((cfg3.win 2).blk t).view.emb j = ((cfg3.win 3).blk t).view.emb j := by
    funext a; apply Fin.ext
    match a with
    | ⟨0, _⟩ => show win3_2.index t (0 : Fin 2) * 16 + 1 * (j 0).val = win3_3.index t (0 : Fin 2) * 16 + 1 * (j 0).val; omega
    | ⟨1, _⟩ => show win3_2.index t (1 : Fin 2) * 8192 + 1 * (j 1).val = win3_3.index t (1 : Fin 2) * 8192 + 1 * (j 1).val; omega
  rw [h0, h1, h2]

/-- An index of the result array is in point `t`'s block iff each coordinate is in the block's range on its axis. -/
theorem mem_blk3 (t : Fin cfg3.N) (i : S128x8192.Idx) :
    i ∈ ((cfg3.win 3).blk t).view.set
      ↔ ∀ a : Fin 2, win3_3.index t a * S16x8192.size a ≤ (i a).val
          ∧ (i a).val < win3_3.index t a * S16x8192.size a + S16x8192.size a := by
  show i ∈ ((View.whole main_v98).slice (win3_3.rect t)).set ↔ _
  rw [View.set_slice_whole, Rect.mem_set_unit]
  exact Iff.rfl

/-- The 8 blocks of 16 rows tile the 128 rows: row `r` is in the block of point `r / 16`. -/
theorem cover3 (i : S128x8192.Idx) :
    ∃ t : Fin cfg3.N, (cfg3.win 3).flush t = true ∧ i ∈ ((cfg3.win 3).blk t).view.set := by
  have hi0 : (i 0).val < 128 := (i 0).isLt
  have hi1 : (i 1).val < 8192 := (i 1).isLt
  have hN : cfg3.N = 8 := N_3
  let t : Fin cfg3.N := ⟨(i 0).val / 16, by rw [hN]; omega⟩
  have ht : t.val = (i 0).val / 16 := rfl
  obtain ⟨-, -, -, -, -, -, q0, q1⟩ := idx_facts3 t
  refine ⟨t, flush3_3 t, ?_⟩
  rw [mem_blk3]
  intro a
  match a with
  | ⟨0, _⟩ => show win3_3.index t (0 : Fin 2) * 16 ≤ (i 0).val ∧ (i 0).val < win3_3.index t (0 : Fin 2) * 16 + 16; omega
  | ⟨1, _⟩ => show win3_3.index t (1 : Fin 2) * 8192 ≤ (i 1).val ∧ (i 1).val < win3_3.index t (1 : Fin 2) * 8192 + 8192; omega

/-- The result array after the region: the gate of the three argument arrays as the region found them. -/
theorem final3 (c : Dev nD) :
    (dat3 (F := F) V c).arrAt 3 cfg3.N = fun i => gateS (V c main_v93 i) (V c main_v95 i) (V c main_v97 i) :=
  (dat3 V c).arrAt_eq_of_cover 3 (gateArr (V c main_v93) (V c main_v95) (V c main_v97))
    (fun t _ => flushed3_eq V c t) (cover3)

end Arrays

end Cert.KernelIdeal.GateValue

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.NodeValue.lean ====
/-
  The node-attention kernel's two result arrays after a region, index by index.

  The region walks the 150000 node rows in 125 blocks of 1200 rows. At each block the kernel computes, for every row `p` of
  the block `X`, two scores of the same form: a hidden layer `h k = max (∑ j, X (p, j) · W (j, k) + b (0, k)) 0` of 64 units,
  taken against a column `aW`, `∑ k, h k · aW (k, 0)`; the first score also adds the one entry of a `[1, 1]` array. The
  weights, bias rows, columns and that entry are whole arrays, the same at every block. Both matrix products go into a zero
  accumulator and the conversions of their operands to a narrower float format are the identity on extended reals, so at an
  entry each product is the plain sum of products (`Cert.Lib.matmul_plain_zero_apply`).

  `nodeS` is one such score as a function of the whole arrays. For each of the two regions that run this kernel
  (`cfg0`, `cfg2`): the index maps decided over the grid (`idx_facts`), each window's block as a read of its array
  (`blk_0` … `blk_7`), what a point writes back as block `t` of the scores (`flushed_8_eq`, `flushed_9_eq`), the blocks
  tiling the result arrays (`mem_blk`, `covered`), and so the arrays after the region (`final0_8`, `final0_9`,
  `final2_8`, `final2_9`).
-/
import proofs.«129877_j42932493091129_2_alg».proof.Proof.Gen.KernelIdeal.Frame
import proofs.«129877_j42932493091129_2_alg».proof.Proof.LibMatDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.NodeValue

open Cert.KernelIdeal Cert.KernelIdeal.Gen Idealize.ShloMosaic Idealize.ShloMosaic.ValueIdx Idealize.ShloMosaic.TcCoe Idealize.SL.Sem
open Idealize.ShloMosaic.Pipeline (Dat)
open scoped BigOperators

/-- One attention score of node `n`: the hidden layer `max (x W + b) 0` (64 units) against the column `aW`. -/
def nodeS (x : S150000x64.Idx → EReal) (W : S64x64.Idx → EReal) (b : S1x64.Idx → EReal) (aW : S64x1.Idx → EReal)
    (n : Fin 150000) : EReal :=
  ∑ k : Fin 64, max (∑ j : Fin 64, x (ix2 n j) * W (ix2 j k) + b (ix2 0 k)) 0 * aW (ix2 k 0)

/-- The kernels' two dimension records are those of a product of rows with columns. -/
theorem dot_rows_cols_64 : dot_S1200x64_S64x64_S1200x64_1_0_0_1_n_n = Cert.Lib.matDot dot_S1200x64_S64x64_S1200x64_1_0_0_1_n_n_wf := rfl
theorem dot_rows_col : dot_S1200x64_S64x1_S1200x1_1_0_0_1_n_n = Cert.Lib.matDot dot_S1200x64_S64x1_S1200x1_1_0_0_1_n_n_wf := rfl

/-! ## The block kernel of region 0 at an entry -/

/-- The first result at entry `(p, q)` of the block: the hidden layer `max (x0 x1 + x2) 0` of row `p` against the column
    `x5`, plus the entry of `x7`. Both products go into a zero accumulator, and the conversions of their operands to the
    narrower format are the identity on extended reals. -/
theorem k0_pay2_apply (x0 : Vec Ideal S1200x64 .f32) (x1 : Vec Ideal S64x64 .f32) (x5 : Vec Ideal S64x1 .f32)
    (x2 : Vec Ideal S1x64 .f32) (x7 : Vec Ideal S1x1 .f32) (p : Fin 1200) (q : Fin 1) :
    k0_pay2 x0 x1 x5 x2 x7 (ix2 p q)
      = (∑ k : Fin 64, max (∑ j : Fin 64, x0 (ix2 p j) * x1 (ix2 j k) + x2 (ix2 0 k)) 0 * x5 (ix2 k q)) + x7 (ix2 0 q) := by
  unfold k0_pay2 k0_pay1
  dsimp only
  rw [shapeCast_self, shapeCast_self, shapeCast_self, dot_rows_cols_64, dot_rows_col]
  show FloatOps.matmul (F := Ideal) (Cert.Lib.matDot _) none _ _ (constant (F := Ideal) S1200x1 .f32 0x00000000#32) (ix2 p q)
      + broadcastTo S1200x1 x7 broadcasts_S1x1_S1200x1 (ix2 p q) = _
  rw [Cert.Lib.matmul_plain_zero_apply, broadcastTo_1b_ab_apply]
  refine congrArg (· + x7 (ix2 0 q)) (Finset.sum_congr rfl fun k _ => ?_)
  show max (FloatOps.matmul (F := Ideal) (Cert.Lib.matDot _) none _ _ (constant (F := Ideal) S1200x64 .f32 0x00000000#32) (ix2 p k)
      + broadcastTo S1200x64 x2 broadcasts_S1x64_S1200x64 (ix2 p k)) (Ideal.ofBits .f32 0x00000000#32) * x5 (ix2 k q) = _
  rw [Cert.Lib.matmul_plain_zero_apply, broadcastTo_1b_ab_apply, Ideal.ofBits_zero_f32]
  rfl

/-- The same from what the blocks hold: the operand blocks are the whole arrays `W`, `b`, `aW`, `ab`, and row `j 0` of
    the node block is row `n` of the node array `X`. -/
theorem k0_pay2_at (x0 : Vec Ideal S1200x64 .f32) (x1 : Vec Ideal S64x64 .f32) (x5 : Vec Ideal S64x1 .f32)
    (x2 : Vec Ideal S1x64 .f32) (x7 : Vec Ideal S1x1 .f32)
    (X : S150000x64.Idx → EReal) (W : S64x64.Idx → EReal) (b : S1x64.Idx → EReal) (aW : S64x1.Idx → EReal)
    (ab : S1x1.Idx → EReal) (j : S1200x1.Idx) (n : Fin 150000)
    (h0 : ∀ l : Fin 64, x0 (ix2 (j 0) l) = X (ix2 n l)) (h1 : ∀ y, x1 y = W y) (h2 : ∀ y, x2 y = b y)
    (h5 : ∀ y, x5 y = aW y) (h7 : ∀ y, x7 y = ab y) :
    k0_pay2 x0 x1 x5 x2 x7 j = nodeS X W b aW n + ab (ix2 0 0) := by
  obtain ⟨p, q, rfl⟩ : ∃ (p : Fin 1200) (q : Fin 1), j = ix2 p q := ⟨j 0, j 1, eq_ix2 j⟩
  obtain rfl : q = 0 := Subsingleton.elim _ _
  have h0' : ∀ l : Fin 64, x0 (ix2 p l) = X (ix2 n l) := h0
  rw [k0_pay2_apply]
  unfold nodeS
  simp only [h0', h1, h2, h5, h7]

/-- The second result at an entry: the same two layers over the other weights, with no entry added at the end. -/
theorem k0_pay3_apply (x0 : Vec Ideal S1200x64 .f32) (x3 : Vec Ideal S64x64 .f32) (x6 : Vec Ideal S64x1 .f32)
    (x4 : Vec Ideal S1x64 .f32) (p : Fin 1200) (q : Fin 1) :
    k0_pay3 x0 x3 x6 x4 (ix2 p q)
      = ∑ k : Fin 64, max (∑ j : Fin 64, x0 (ix2 p j) * x3 (ix2 j k) + x4 (ix2 0 k)) 0 * x6 (ix2 k q) := by
  unfold k0_pay3 k0_pay1
  dsimp only
  rw [shapeCast_self, shapeCast_self, dot_rows_cols_64, dot_rows_col]
  show FloatOps.matmul (F := Ideal) (Cert.Lib.matDot _) none _ _ (constant (F := Ideal) S1200x1 .f32 0x00000000#32) (ix2 p q) = _
  rw [Cert.Lib.matmul_plain_zero_apply]
  refine Finset.sum_congr rfl fun k _ => ?_
  show max (FloatOps.matmul (F := Ideal) (Cert.Lib.matDot _) none _ _ (constant (F := Ideal) S1200x64 .f32 0x00000000#32) (ix2 p k)
      + broadcastTo S1200x64 x4 broadcasts_S1x64_S1200x64 (ix2 p k)) (Ideal.ofBits .f32 0x00000000#32) * x6 (ix2 k q) = _
  rw [Cert.Lib.matmul_plain_zero_apply, broadcastTo_1b_ab_apply, Ideal.ofBits_zero_f32]
  rfl

theorem k0_pay3_at (x0 : Vec Ideal S1200x64 .f32) (x3 : Vec Ideal S64x64 .f32) (x6 : Vec Ideal S64x1 .f32)
    (x4 : Vec Ideal S1x64 .f32)
    (X : S150000x64.Idx → EReal) (W : S64x64.Idx → EReal) (b : S1x64.Idx → EReal) (aW : S64x1.Idx → EReal)
    (j : S1200x1.Idx) (n : Fin 150000)
    (h0 : ∀ l : Fin 64, x0 (ix2 (j 0) l) = X (ix2 n l)) (h3 : ∀ y, x3 y = W y) (h4 : ∀ y, x4 y = b y)
    (h6 : ∀ y, x6 y = aW y) :
    k0_pay3 x0 x3 x6 x4 j = nodeS X W b aW n := by
  obtain ⟨p, q, rfl⟩ : ∃ (p : Fin 1200) (q : Fin 1), j = ix2 p q := ⟨j 0, j 1, eq_ix2 j⟩
  obtain rfl : q = 0 := Subsingleton.elim _ _
  have h0' : ∀ l : Fin 64, x0 (ix2 p l) = X (ix2 n l) := h0
  rw [k0_pay3_apply]
  unfold nodeS
  simp only [h0', h3, h4, h6]

/-! ## The block kernel of region 2 at an entry -/

/-- The first result at entry `(p, q)` of the block: the hidden layer `max (x0 x1 + x2) 0` of row `p` against the column
    `x5`, plus the entry of `x7`. Both products go into a zero accumulator, and the conversions of their operands to the
    narrower format are the identity on extended reals. -/
theorem k2_pay2_apply (x0 : Vec Ideal S1200x64 .f32) (x1 : Vec Ideal S64x64 .f32) (x5 : Vec Ideal S64x1 .f32)
    (x2 : Vec Ideal S1x64 .f32) (x7 : Vec Ideal S1x1 .f32) (p : Fin 1200) (q : Fin 1) :
    k2_pay2 x0 x1 x5 x2 x7 (ix2 p q)
      = (∑ k : Fin 64, max (∑ j : Fin 64, x0 (ix2 p j) * x1 (ix2 j k) + x2 (ix2 0 k)) 0 * x5 (ix2 k q)) + x7 (ix2 0 q) := by
  unfold k2_pay2 k2_pay1
  dsimp only
  rw [shapeCast_self, shapeCast_self, shapeCast_self, shapeCast_self, dot_rows_cols_64, dot_rows_col]
  show FloatOps.matmul (F := Ideal) (Cert.Lib.matDot _) none _ _ (constant (F := Ideal) S1200x1 .f32 0x00000000#32) (ix2 p q)
      + broadcastTo S1200x1 x7 broadcasts_S1x1_S1200x1 (ix2 p q) = _
  rw [Cert.Lib.matmul_plain_zero_apply, broadcastTo_1b_ab_apply]
  refine congrArg (· + x7 (ix2 0 q)) (Finset.sum_congr rfl fun k _ => ?_)
  show max (FloatOps.matmul (F := Ideal) (Cert.Lib.matDot _) none _ _ (constant (F := Ideal) S1200x64 .f32 0x00000000#32) (ix2 p k)
      + broadcastTo S1200x64 x2 broadcasts_S1x64_S1200x64 (ix2 p k)) (Ideal.ofBits .f32 0x00000000#32) * x5 (ix2 k q) = _
  rw [Cert.Lib.matmul_plain_zero_apply, broadcastTo_1b_ab_apply, Ideal.ofBits_zero_f32]
  rfl

/-- The same from what the blocks hold: the operand blocks are the whole arrays `W`, `b`, `aW`, `ab`, and row `j 0` of
    the node block is row `n` of the node array `X`. -/
theorem k2_pay2_at (x0 : Vec Ideal S1200x64 .f32) (x1 : Vec Ideal S64x64 .f32) (x5 : Vec Ideal S64x1 .f32)
    (x2 : Vec Ideal S1x64 .f32) (x7 : Vec Ideal S1x1 .f32)
    (X : S150000x64.Idx → EReal) (W : S64x64.Idx → EReal) (b : S1x64.Idx → EReal) (aW : S64x1.Idx → EReal)
    (ab : S1x1.Idx → EReal) (j : S1200x1.Idx) (n : Fin 150000)
    (h0 : ∀ l : Fin 64, x0 (ix2 (j 0) l) = X (ix2 n l)) (h1 : ∀ y, x1 y = W y) (h2 : ∀ y, x2 y = b y)
    (h5 : ∀ y, x5 y = aW y) (h7 : ∀ y, x7 y = ab y) :
    k2_pay2 x0 x1 x5 x2 x7 j = nodeS X W b aW n + ab (ix2 0 0) := by
  obtain ⟨p, q, rfl⟩ : ∃ (p : Fin 1200) (q : Fin 1), j = ix2 p q := ⟨j 0, j 1, eq_ix2 j⟩
  obtain rfl : q = 0 := Subsingleton.elim _ _
  have h0' : ∀ l : Fin 64, x0 (ix2 p l) = X (ix2 n l) := h0
  rw [k2_pay2_apply]
  unfold nodeS
  simp only [h0', h1, h2, h5, h7]

/-- The second result at an entry: the same two layers over the other weights, with no entry added at the end. -/
theorem k2_pay3_apply (x0 : Vec Ideal S1200x64 .f32) (x3 : Vec Ideal S64x64 .f32) (x6 : Vec Ideal S64x1 .f32)
    (x4 : Vec Ideal S1x64 .f32) (p : Fin 1200) (q : Fin 1) :
    k2_pay3 x0 x3 x6 x4 (ix2 p q)
      = ∑ k : Fin 64, max (∑ j : Fin 64, x0 (ix2 p j) * x3 (ix2 j k) + x4 (ix2 0 k)) 0 * x6 (ix2 k q) := by
  unfold k2_pay3 k2_pay1
  dsimp only
  rw [shapeCast_self, shapeCast_self, shapeCast_self, dot_rows_cols_64, dot_rows_col]
  show FloatOps.matmul (F := Ideal) (Cert.Lib.matDot _) none _ _ (constant (F := Ideal) S1200x1 .f32 0x00000000#32) (ix2 p q) = _
  rw [Cert.Lib.matmul_plain_zero_apply]
  refine Finset.sum_congr rfl fun k _ => ?_
  show max (FloatOps.matmul (F := Ideal) (Cert.Lib.matDot _) none _ _ (constant (F := Ideal) S1200x64 .f32 0x00000000#32) (ix2 p k)
      + broadcastTo S1200x64 x4 broadcasts_S1x64_S1200x64 (ix2 p k)) (Ideal.ofBits .f32 0x00000000#32) * x6 (ix2 k q) = _
  rw [Cert.Lib.matmul_plain_zero_apply, broadcastTo_1b_ab_apply, Ideal.ofBits_zero_f32]
  rfl

theorem k2_pay3_at (x0 : Vec Ideal S1200x64 .f32) (x3 : Vec Ideal S64x64 .f32) (x6 : Vec Ideal S64x1 .f32)
    (x4 : Vec Ideal S1x64 .f32)
    (X : S150000x64.Idx → EReal) (W : S64x64.Idx → EReal) (b : S1x64.Idx → EReal) (aW : S64x1.Idx → EReal)
    (j : S1200x1.Idx) (n : Fin 150000)
    (h0 : ∀ l : Fin 64, x0 (ix2 (j 0) l) = X (ix2 n l)) (h3 : ∀ y, x3 y = W y) (h4 : ∀ y, x4 y = b y)
    (h6 : ∀ y, x6 y = aW y) :
    k2_pay3 x0 x3 x6 x4 j = nodeS X W b aW n := by
  obtain ⟨p, q, rfl⟩ : ∃ (p : Fin 1200) (q : Fin 1), j = ix2 p q := ⟨j 0, j 1, eq_ix2 j⟩
  obtain rfl : q = 0 := Subsingleton.elim _ _
  have h0' : ∀ l : Fin 64, x0 (ix2 p l) = X (ix2 n l) := h0
  rw [k2_pay3_apply]
  unfold nodeS
  simp only [h0', h3, h4, h6]

/-! ## From blocks to the arrays -/

variable (V : (c : Dev nD) → (b : Ref sig .tc) → Buf (Elt Ideal) ((c : Thread nD τ).loc b))

/-- Every access of the body is the whole block at offset zero. -/
theorem hz : (![0, 0] : Fin 2 → Nat) = fun _ => 0 := funext fun a => by fin_cases a <;> rfl

/-! ## Region 0 -/

/-- The index maps of region 0, decided over its 125 points: the node blocks and both result blocks move with the
    point, every other window is its whole array. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The node block of point `t` is rows `1200 t … 1200 t + 1199` of the node array. -/
theorem blk0_0 (c : Dev nD) (t : Fin cfg0.N) (p : Fin 1200) (l : Fin 64) (i : S150000x64.Idx)
    (hi0 : (i 0).val = t.val * 1200 + p.val) (hi1 : (i 1).val = l.val) :
    (iblk0 V c 0 t : Vec Ideal S1200x64 .f32) (ix2 p l) = (V c main_arg0 : S150000x64.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 1200 + 1 * p.val = (i 0).val; rw [e0, hi0]; omega
  | ⟨1, _⟩ => show win0_0.index t 1 * 64 + 1 * l.val = (i 1).val; rw [e1, hi1]; omega

theorem blk0_1 (c : Dev nD) (t : Fin cfg0.N) (y : S64x64.Idx) :
    (iblk0 V c 1 t : Vec Ideal S64x64 .f32) y = (V c main_arg5 : S64x64.Idx → EReal) y := by
  obtain ⟨-, -, e0, e1, -⟩ := idx_facts0 t
  unfold iblk0
  rw [View.read_apply]
  show V c main_arg5 _ = V c main_arg5 _
  congr 1
  funext a
  apply Fin.ext
  match a with
  | ⟨0, _⟩ => show win0_1.index t 0 * 64 + 1 * (y 0).val = (y 0).val; rw [e0]; omega
  | ⟨1, _⟩ => show win0_1.index t 1 * 64 + 1 * (y 1).val = (y 1).val; rw [e1]; omega

theorem blk0_2 (c : Dev nD) (t : Fin cfg0.N) (y : S1x64.Idx) :
    (iblk0 V c 2 t : Vec Ideal S1x64 .f32) y = (V c main_v2 : S1x64.Idx → EReal) y := by
  obtain ⟨-, -, -, -, e0, e1, -⟩ := idx_facts0 t
  unfold iblk0
  rw [View.read_apply]
  show V c main_v2 _ = V c main_v2 _
  congr 1
  funext a
  apply Fin.ext
  match a with
  | ⟨0, _⟩ => show win0_2.index t 0 * 1 + 1 * (y 0).val = (y 0).val; rw [e0]; omega
  | ⟨1, _⟩ => show win0_2.index t 1 * 64 + 1 * (y 1).val = (y 1).val; rw [e1]; omega

theorem blk0_3 (c : Dev nD) (t : Fin cfg0.N) (y : S64x64.Idx) :
    (iblk0 V c 3 t : Vec Ideal S64x64 .f32) y = (V c main_arg7 : S64x64.Idx → EReal) y := by
  obtain ⟨-, -, -, -, -, -, e0, e1, -⟩ := idx_facts0 t
  unfold iblk0
  rw [View.read_apply]
  show V c main_arg7 _ = V c main_arg7 _
  congr 1
  funext a
  apply Fin.ext
  match a with
  | ⟨0, _⟩ => show win0_3.index t 0 * 64 + 1 * (y 0).val = (y 0).val; rw [e0]; omega
  | ⟨1, _⟩ => show win0_3.index t 1 * 64 + 1 * (y 1).val = (y 1).val; rw [e1]; omega

theorem blk0_4 (c : Dev nD) (t : Fin cfg0.N) (y : S1x64.Idx) :
    (iblk0 V c 4 t : Vec Ideal S1x64 .f32) y = (V c main_v3 : S1x64.Idx → EReal) y := by
  obtain ⟨-, -, -, -, -, -, -, -, e0, e1, -⟩ := idx_facts0 t
  unfold iblk0
  rw [View.read_apply]
  show V c main_v3 _ = V c main_v3 _
  congr 1
  funext a
  apply Fin.ext
  match a with
  | ⟨0, _⟩ => show win0_4.index t 0 * 1 + 1 * (y 0).val = (y 0).val; rw [e0]; omega
  | ⟨1, _⟩ => show win0_4.index t 1 * 64 + 1 * (y 1).val = (y 1).val; rw [e1]; omega

theorem blk0_5 (c : Dev nD) (t : Fin cfg0.N) (y : S64x1.Idx) :
    (iblk0 V c 5 t : Vec Ideal S64x1 .f32) y = (V c main_v0 : S64x1.Idx → EReal) y := by
  obtain ⟨-, -, -, -, -, -, -, -, -, -, e0, e1, -⟩ := idx_facts0 t
  unfold iblk0
  rw [View.read_apply]
  show V c main_v0 _ = V c main_v0 _
  congr 1
  funext a
  apply Fin.ext
  match a with
  | ⟨0, _⟩ => show win0_5.index t 0 * 64 + 1 * (y 0).val = (y 0).val; rw [e0]; omega
  | ⟨1, _⟩ => show win0_5.index t 1 * 1 + 1 * (y 1).val = (y 1).val; rw [e1]; omega

theorem blk0_6 (c : Dev nD) (t : Fin cfg0.N) (y : S64x1.Idx) :
    (iblk0 V c 6 t : Vec Ideal S64x1 .f32) y = (V c main_v1 : S64x1.Idx → EReal) y := by
  obtain ⟨-, -, -, -, -, -, -, -, -, -, -, -, e0, e1, -⟩ := idx_facts0 t
  unfold iblk0
  rw [View.read_apply]
  show V c main_v1 _ = V c main_v1 _
  congr 1
  funext a
  apply Fin.ext
  match a with
  | ⟨0, _⟩ => show win0_6.index t 0 * 64 + 1 * (y 0).val = (y 0).val; rw [e0]; omega
  | ⟨1, _⟩ => show win0_6.index t 1 * 1 + 1 * (y 1).val = (y 1).val; rw [e1]; omega

theorem blk0_7 (c : Dev nD) (t : Fin cfg0.N) (y : S1x1.Idx) :
    (iblk0 V c 7 t : Vec Ideal S1x1 .f32) y = (V c main_v4 : S1x1.Idx → EReal) y := by
  obtain ⟨-, -, -, -, -, -, -, -, -, -, -, -, -, -, e0, e1, -⟩ := idx_facts0 t
  unfold iblk0
  rw [View.read_apply]
  show V c main_v4 _ = V c main_v4 _
  congr 1
  funext a
  apply Fin.ext
  match a with
  | ⟨0, _⟩ => show win0_7.index t 0 * 1 + 1 * (y 0).val = (y 0).val; rw [e0]; omega
  | ⟨1, _⟩ => show win0_7.index t 1 * 1 + 1 * (y 1).val = (y 1).val; rw [e1]; omega

/-- What output window 8 ends holding: the first score of every node, plus the bias entry. -/
abbrev score0_8 (c : Dev nD) : S150000x1.Idx → EReal :=
  fun i => nodeS (V c main_arg0) (V c main_arg5) (V c main_v2) (V c main_v0) (i 0) + V c main_v4 (ix2 0 0)

/-- What output window 9 ends holding: the second score of every node. -/
abbrev score0_9 (c : Dev nD) : S150000x1.Idx → EReal :=
  fun i => nodeS (V c main_arg0) (V c main_arg7) (V c main_v3) (V c main_v1) (i 0)

/-- What point `t` writes back to output window 8 is block `t` of those scores. -/
theorem flushed0_8_eq (c : Dev nD) (t : Fin cfg0.N) :
    (dat0 V c).flushed 8 t = ((cfg0.win 8).blk t).view.read (Elt Ideal) (score0_8 V c) := by
  obtain ⟨-, -, -, -, -, -, -, -, -, -, -, -, -, -, -, -, e0, e1, -⟩ := idx_facts0 t
  show (cfg0.win 8).cut (grid0.coords t) ((dat0 V c).after 8 t) = _
  rw [after0_8]
  unfold out0_8
  rw [View.canon_unit_zero hz]
  simp only [View.ld_unit_zero (S := S1200x64) hz, View.ld_unit_zero (S := S64x64) hz, View.ld_unit_zero (S := S64x1) hz,
    View.ld_unit_zero (S := S1x64) hz, View.ld_unit_zero (S := S1x1) hz]
  funext j
  show k0_pay2 (iblk0 V c 0 t) (iblk0 V c 1 t) (iblk0 V c 5 t) (iblk0 V c 2 t) (iblk0 V c 7 t) j
    = score0_8 V c (((cfg0.win 8).blk t).view.emb j)
  refine k0_pay2_at _ _ _ _ _ (V c main_arg0) (V c main_arg5) (V c main_v2) (V c main_v0) (V c main_v4) j _
    (fun l => ?_) (blk0_1 V c t) (blk0_2 V c t) (blk0_5 V c t) (blk0_7 V c t)
  refine blk0_0 V c t _ l _ ?_ rfl
  show win0_8.index t 0 * 1200 + 1 * (j 0).val = t.val * 1200 + (j 0).val
  rw [e0]; omega

/-- An index of the result array is in point `t`'s block iff each coordinate is in the block's range on its axis. -/
theorem mem_blk0_8 (t : Fin cfg0.N) (i : S150000x1.Idx) :
    i ∈ ((cfg0.win 8).blk t).view.set ↔ ∀ a : Fin 2, win0_8.index t a * S1200x1.size a ≤ (i a).val ∧ (i a).val < win0_8.index t a * S1200x1.size a + S1200x1.size a := by
  show i ∈ ((View.whole main_v5_0).slice (win0_8.rect t)).set ↔ _
  rw [View.set_slice_whole, Rect.mem_set_unit]
  exact Iff.rfl

/-- The 125 blocks of 1200 rows tile the 150000 rows: row `r` is in the block of point `r / 1200`. -/
theorem covered0_8 (i : S150000x1.Idx) :
    ∃ t : Fin cfg0.N, (cfg0.win 8).flush t = true ∧ i ∈ ((cfg0.win 8).blk t).view.set := by
  have hi0 : (i 0).val < 150000 := idx2_lt0 i
  have hi1 : (i 1).val < 1 := idx2_lt1 i
  have hN : cfg0.N = 125 := N_0
  have ht : (i 0).val / 1200 < cfg0.N := by rw [hN]; omega
  obtain ⟨-, -, -, -, -, -, -, -, -, -, -, -, -, -, -, -, e0, e1, -⟩ := idx_facts0 ⟨(i 0).val / 1200, ht⟩
  refine ⟨⟨(i 0).val / 1200, ht⟩, flush0_8 _, ?_⟩
  rw [mem_blk0_8]
  intro a
  match a with
  | ⟨0, _⟩ =>
    show win0_8.index ⟨(i 0).val / 1200, ht⟩ 0 * 1200 ≤ (i 0).val
      ∧ (i 0).val < win0_8.index ⟨(i 0).val / 1200, ht⟩ 0 * 1200 + 1200
    rw [e0]
    show (i 0).val / 1200 * 1200 ≤ (i 0).val ∧ (i 0).val < (i 0).val / 1200 * 1200 + 1200
    omega
  | ⟨1, _⟩ =>
    show win0_8.index ⟨(i 0).val / 1200, ht⟩ 1 * 1 ≤ (i 1).val
      ∧ (i 1).val < win0_8.index ⟨(i 0).val / 1200, ht⟩ 1 * 1 + 1
    rw [e1]
    omega

/-- What point `t` writes back to output window 9 is block `t` of those scores. -/
theorem flushed0_9_eq (c : Dev nD) (t : Fin cfg0.N) :
    (dat0 V c).flushed 9 t = ((cfg0.win 9).blk t).view.read (Elt Ideal) (score0_9 V c) := by
  obtain ⟨-, -, -, -, -, -, -, -, -, -, -, -, -, -, -, -, -, -, e0, e1⟩ := idx_facts0 t
  show (cfg0.win 9).cut (grid0.coords t) ((dat0 V c).after 9 t) = _
  rw [after0_9]
  unfold out0_9
  rw [View.canon_unit_zero hz]
  simp only [View.ld_unit_zero (S := S1200x64) hz, View.ld_unit_zero (S := S64x64) hz, View.ld_unit_zero (S := S64x1) hz,
    View.ld_unit_zero (S := S1x64) hz, View.ld_unit_zero (S := S1x1) hz]
  funext j
  show k0_pay3 (iblk0 V c 0 t) (iblk0 V c 3 t) (iblk0 V c 6 t) (iblk0 V c 4 t) j
    = score0_9 V c (((cfg0.win 9).blk t).view.emb j)
  refine k0_pay3_at _ _ _ _ (V c main_arg0) (V c main_arg7) (V c main_v3) (V c main_v1) j _
    (fun l => ?_) (blk0_3 V c t) (blk0_4 V c t) (blk0_6 V c t)
  refine blk0_0 V c t _ l _ ?_ rfl
  show win0_9.index t 0 * 1200 + 1 * (j 0).val = t.val * 1200 + (j 0).val
  rw [e0]; omega

/-- An index of the result array is in point `t`'s block iff each coordinate is in the block's range on its axis. -/
theorem mem_blk0_9 (t : Fin cfg0.N) (i : S150000x1.Idx) :
    i ∈ ((cfg0.win 9).blk t).view.set ↔ ∀ a : Fin 2, win0_9.index t a * S1200x1.size a ≤ (i a).val ∧ (i a).val < win0_9.index t a * S1200x1.size a + S1200x1.size a := by
  show i ∈ ((View.whole main_v5_1).slice (win0_9.rect t)).set ↔ _
  rw [View.set_slice_whole, Rect.mem_set_unit]
  exact Iff.rfl

/-- The 125 blocks of 1200 rows tile the 150000 rows: row `r` is in the block of point `r / 1200`. -/
theorem covered0_9 (i : S150000x1.Idx) :
    ∃ t : Fin cfg0.N, (cfg0.win 9).flush t = true ∧ i ∈ ((cfg0.win 9).blk t).view.set := by
  have hi0 : (i 0).val < 150000 := idx2_lt0 i
  have hi1 : (i 1).val < 1 := idx2_lt1 i
  have hN : cfg0.N = 125 := N_0
  have ht : (i 0).val / 1200 < cfg0.N := by rw [hN]; omega
  obtain ⟨-, -, -, -, -, -, -, -, -, -, -, -, -, -, -, -, -, -, e0, e1⟩ := idx_facts0 ⟨(i 0).val / 1200, ht⟩
  refine ⟨⟨(i 0).val / 1200, ht⟩, flush0_9 _, ?_⟩
  rw [mem_blk0_9]
  intro a
  match a with
  | ⟨0, _⟩ =>
    show win0_9.index ⟨(i 0).val / 1200, ht⟩ 0 * 1200 ≤ (i 0).val
      ∧ (i 0).val < win0_9.index ⟨(i 0).val / 1200, ht⟩ 0 * 1200 + 1200
    rw [e0]
    show (i 0).val / 1200 * 1200 ≤ (i 0).val ∧ (i 0).val < (i 0).val / 1200 * 1200 + 1200
    omega
  | ⟨1, _⟩ =>
    show win0_9.index ⟨(i 0).val / 1200, ht⟩ 1 * 1 ≤ (i 1).val
      ∧ (i 1).val < win0_9.index ⟨(i 0).val / 1200, ht⟩ 1 * 1 + 1
    rw [e1]
    omega

/-- Output window 8's array after region 0: the first score of every node, plus the bias entry. -/
theorem final0_8 (c : Dev nD) : (dat0 (F := Ideal) V c).arrAt 8 cfg0.N
    = fun i => nodeS (V c main_arg0) (V c main_arg5) (V c main_v2) (V c main_v0) (i 0) + V c main_v4 (ix2 0 0) :=
  (dat0 V c).arrAt_eq_of_cover 8 (score0_8 V c) (fun t _ => flushed0_8_eq V c t) covered0_8

/-- Output window 9's array after region 0: the second score of every node. -/
theorem final0_9 (c : Dev nD) : (dat0 (F := Ideal) V c).arrAt 9 cfg0.N
    = fun i => nodeS (V c main_arg0) (V c main_arg7) (V c main_v3) (V c main_v1) (i 0) :=
  (dat0 V c).arrAt_eq_of_cover 9 (score0_9 V c) (fun t _ => flushed0_9_eq V c t) covered0_9

/-! ## Region 2 -/

/-- The index maps of region 2, decided over its 125 points: the node blocks and both result blocks move with the
    point, every other window is its whole array. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

/-- The node block of point `t` is rows `1200 t … 1200 t + 1199` of the node array. -/
theorem blk2_0 (c : Dev nD) (t : Fin cfg2.N) (p : Fin 1200) (l : Fin 64) (i : S150000x64.Idx)
    (hi0 : (i 0).val = t.val * 1200 + p.val) (hi1 : (i 1).val = l.val) :
    (iblk2 V c 0 t : Vec Ideal S1200x64 .f32) (ix2 p l) = (V c main_v68 : S150000x64.Idx → EReal) i := by
  obtain ⟨e0, e1, -⟩ := idx_facts2 t
  unfold iblk2
  rw [View.read_apply]
  show V c main_v68 _ = V c main_v68 _
  congr 1
  funext a
  apply Fin.ext
  match a with
  | ⟨0, _⟩ => show win2_0.index t 0 * 1200 + 1 * p.val = (i 0).val; rw [e0, hi0]; omega
  | ⟨1, _⟩ => show win2_0.index t 1 * 64 + 1 * l.val = (i 1).val; rw [e1, hi1]; omega

theorem blk2_1 (c : Dev nD) (t : Fin cfg2.N) (y : S64x64.Idx) :
    (iblk2 V c 1 t : Vec Ideal S64x64 .f32) y = (V c main_arg11 : S64x64.Idx → EReal) y := by
  obtain ⟨-, -, e0, e1, -⟩ := idx_facts2 t
  unfold iblk2
  rw [View.read_apply]
  show V c main_arg11 _ = V c main_arg11 _
  congr 1
  funext a
  apply Fin.ext
  match a with
  | ⟨0, _⟩ => show win2_1.index t 0 * 64 + 1 * (y 0).val = (y 0).val; rw [e0]; omega
  | ⟨1, _⟩ => show win2_1.index t 1 * 64 + 1 * (y 1).val = (y 1).val; rw [e1]; omega

theorem blk2_2 (c : Dev nD) (t : Fin cfg2.N) (y : S1x64.Idx) :
    (iblk2 V c 2 t : Vec Ideal S1x64 .f32) y = (V c main_v71 : S1x64.Idx → EReal) y := by
  obtain ⟨-, -, -, -, e0, e1, -⟩ := idx_facts2 t
  unfold iblk2
  rw [View.read_apply]
  show V c main_v71 _ = V c main_v71 _
  congr 1
  funext a
  apply Fin.ext
  match a with
  | ⟨0, _⟩ => show win2_2.index t 0 * 1 + 1 * (y 0).val = (y 0).val; rw [e0]; omega
  | ⟨1, _⟩ => show win2_2.index t 1 * 64 + 1 * (y 1).val = (y 1).val; rw [e1]; omega

theorem blk2_3 (c : Dev nD) (t : Fin cfg2.N) (y : S64x64.Idx) :
    (iblk2 V c 3 t : Vec Ideal S64x64 .f32) y = (V c main_arg13 : S64x64.Idx → EReal) y := by
  obtain ⟨-, -, -, -, -, -, e0, e1, -⟩ := idx_facts2 t
  unfold iblk2
  rw [View.read_apply]
  show V c main_arg13 _ = V c main_arg13 _
  congr 1
  funext a
  apply Fin.ext
  match a with
  | ⟨0, _⟩ => show win2_3.index t 0 * 64 + 1 * (y 0).val = (y 0).val; rw [e0]; omega
  | ⟨1, _⟩ => show win2_3.index t 1 * 64 + 1 * (y 1).val = (y 1).val; rw [e1]; omega

theorem blk2_4 (c : Dev nD) (t : Fin cfg2.N) (y : S1x64.Idx) :
    (iblk2 V c 4 t : Vec Ideal S1x64 .f32) y = (V c main_v72 : S1x64.Idx → EReal) y := by
  obtain ⟨-, -, -, -, -, -, -, -, e0, e1, -⟩ := idx_facts2 t
  unfold iblk2
  rw [View.read_apply]
  show V c main_v72 _ = V c main_v72 _
  congr 1
  funext a
  apply Fin.ext
  match a with
  | ⟨0, _⟩ => show win2_4.index t 0 * 1 + 1 * (y 0).val = (y 0).val; rw [e0]; omega
  | ⟨1, _⟩ => show win2_4.index t 1 * 64 + 1 * (y 1).val = (y 1).val; rw [e1]; omega

theorem blk2_5 (c : Dev nD) (t : Fin cfg2.N) (y : S64x1.Idx) :
    (iblk2 V c 5 t : Vec Ideal S64x1 .f32) y = (V c main_v69 : S64x1.Idx → EReal) y := by
  obtain ⟨-, -, -, -, -, -, -, -, -, -, e0, e1, -⟩ := idx_facts2 t
  unfold iblk2
  rw [View.read_apply]
  show V c main_v69 _ = V c main_v69 _
  congr 1
  funext a
  apply Fin.ext
  match a with
  | ⟨0, _⟩ => show win2_5.index t 0 * 64 + 1 * (y 0).val = (y 0).val; rw [e0]; omega
  | ⟨1, _⟩ => show win2_5.index t 1 * 1 + 1 * (y 1).val = (y 1).val; rw [e1]; omega

theorem blk2_6 (c : Dev nD) (t : Fin cfg2.N) (y : S64x1.Idx) :
    (iblk2 V c 6 t : Vec Ideal S64x1 .f32) y = (V c main_v70 : S64x1.Idx → EReal) y := by
  obtain ⟨-, -, -, -, -, -, -, -, -, -, -, -, e0, e1, -⟩ := idx_facts2 t
  unfold iblk2
  rw [View.read_apply]
  show V c main_v70 _ = V c main_v70 _
  congr 1
  funext a
  apply Fin.ext
  match a with
  | ⟨0, _⟩ => show win2_6.index t 0 * 64 + 1 * (y 0).val = (y 0).val; rw [e0]; omega
  | ⟨1, _⟩ => show win2_6.index t 1 * 1 + 1 * (y 1).val = (y 1).val; rw [e1]; omega

theorem blk2_7 (c : Dev nD) (t : Fin cfg2.N) (y : S1x1.Idx) :
    (iblk2 V c 7 t : Vec Ideal S1x1 .f32) y = (V c main_v73 : S1x1.Idx → EReal) y := by
  obtain ⟨-, -, -, -, -, -, -, -, -, -, -, -, -, -, e0, e1, -⟩ := idx_facts2 t
  unfold iblk2
  rw [View.read_apply]
  show V c main_v73 _ = V c main_v73 _
  congr 1
  funext a
  apply Fin.ext
  match a with
  | ⟨0, _⟩ => show win2_7.index t 0 * 1 + 1 * (y 0).val = (y 0).val; rw [e0]; omega
  | ⟨1, _⟩ => show win2_7.index t 1 * 1 + 1 * (y 1).val = (y 1).val; rw [e1]; omega

/-- What output window 8 ends holding: the first score of every node, plus the bias entry. -/
abbrev score2_8 (c : Dev nD) : S150000x1.Idx → EReal :=
  fun i => nodeS (V c main_v68) (V c main_arg11) (V c main_v71) (V c main_v69) (i 0) + V c main_v73 (ix2 0 0)

/-- What output window 9 ends holding: the second score of every node. -/
abbrev score2_9 (c : Dev nD) : S150000x1.Idx → EReal :=
  fun i => nodeS (V c main_v68) (V c main_arg13) (V c main_v72) (V c main_v70) (i 0)

/-- What point `t` writes back to output window 8 is block `t` of those scores. -/
theorem flushed2_8_eq (c : Dev nD) (t : Fin cfg2.N) :
    (dat2 V c).flushed 8 t = ((cfg2.win 8).blk t).view.read (Elt Ideal) (score2_8 V c) := by
  obtain ⟨-, -, -, -, -, -, -, -, -, -, -, -, -, -, -, -, e0, e1, -⟩ := idx_facts2 t
  show (cfg2.win 8).cut (grid2.coords t) ((dat2 V c).after 8 t) = _
  rw [after2_8]
  unfold out2_8
  rw [View.canon_unit_zero hz]
  simp only [View.ld_unit_zero (S := S1200x64) hz, View.ld_unit_zero (S := S64x64) hz, View.ld_unit_zero (S := S64x1) hz,
    View.ld_unit_zero (S := S1x64) hz, View.ld_unit_zero (S := S1x1) hz]
  funext j
  show k2_pay2 (iblk2 V c 0 t) (iblk2 V c 1 t) (iblk2 V c 5 t) (iblk2 V c 2 t) (iblk2 V c 7 t) j
    = score2_8 V c (((cfg2.win 8).blk t).view.emb j)
  refine k2_pay2_at _ _ _ _ _ (V c main_v68) (V c main_arg11) (V c main_v71) (V c main_v69) (V c main_v73) j _
    (fun l => ?_) (blk2_1 V c t) (blk2_2 V c t) (blk2_5 V c t) (blk2_7 V c t)
  refine blk2_0 V c t _ l _ ?_ rfl
  show win2_8.index t 0 * 1200 + 1 * (j 0).val = t.val * 1200 + (j 0).val
  rw [e0]; omega

/-- An index of the result array is in point `t`'s block iff each coordinate is in the block's range on its axis. -/
theorem mem_blk2_8 (t : Fin cfg2.N) (i : S150000x1.Idx) :
    i ∈ ((cfg2.win 8).blk t).view.set ↔ ∀ a : Fin 2, win2_8.index t a * S1200x1.size a ≤ (i a).val ∧ (i a).val < win2_8.index t a * S1200x1.size a + S1200x1.size a := by
  show i ∈ ((View.whole main_v74_0).slice (win2_8.rect t)).set ↔ _
  rw [View.set_slice_whole, Rect.mem_set_unit]
  exact Iff.rfl

/-- The 125 blocks of 1200 rows tile the 150000 rows: row `r` is in the block of point `r / 1200`. -/
theorem covered2_8 (i : S150000x1.Idx) :
    ∃ t : Fin cfg2.N, (cfg2.win 8).flush t = true ∧ i ∈ ((cfg2.win 8).blk t).view.set := by
  have hi0 : (i 0).val < 150000 := idx2_lt0 i
  have hi1 : (i 1).val < 1 := idx2_lt1 i
  have hN : cfg2.N = 125 := N_2
  have ht : (i 0).val / 1200 < cfg2.N := by rw [hN]; omega
  obtain ⟨-, -, -, -, -, -, -, -, -, -, -, -, -, -, -, -, e0, e1, -⟩ := idx_facts2 ⟨(i 0).val / 1200, ht⟩
  refine ⟨⟨(i 0).val / 1200, ht⟩, flush2_8 _, ?_⟩
  rw [mem_blk2_8]
  intro a
  match a with
  | ⟨0, _⟩ =>
    show win2_8.index ⟨(i 0).val / 1200, ht⟩ 0 * 1200 ≤ (i 0).val
      ∧ (i 0).val < win2_8.index ⟨(i 0).val / 1200, ht⟩ 0 * 1200 + 1200
    rw [e0]
    show (i 0).val / 1200 * 1200 ≤ (i 0).val ∧ (i 0).val < (i 0).val / 1200 * 1200 + 1200
    omega
  | ⟨1, _⟩ =>
    show win2_8.index ⟨(i 0).val / 1200, ht⟩ 1 * 1 ≤ (i 1).val
      ∧ (i 1).val < win2_8.index ⟨(i 0).val / 1200, ht⟩ 1 * 1 + 1
    rw [e1]
    omega

/-- What point `t` writes back to output window 9 is block `t` of those scores. -/
theorem flushed2_9_eq (c : Dev nD) (t : Fin cfg2.N) :
    (dat2 V c).flushed 9 t = ((cfg2.win 9).blk t).view.read (Elt Ideal) (score2_9 V c) := by
  obtain ⟨-, -, -, -, -, -, -, -, -, -, -, -, -, -, -, -, -, -, e0, e1⟩ := idx_facts2 t
  show (cfg2.win 9).cut (grid2.coords t) ((dat2 V c).after 9 t) = _
  rw [after2_9]
  unfold out2_9
  rw [View.canon_unit_zero hz]
  simp only [View.ld_unit_zero (S := S1200x64) hz, View.ld_unit_zero (S := S64x64) hz, View.ld_unit_zero (S := S64x1) hz,
    View.ld_unit_zero (S := S1x64) hz, View.ld_unit_zero (S := S1x1) hz]
  funext j
  show k2_pay3 (iblk2 V c 0 t) (iblk2 V c 3 t) (iblk2 V c 6 t) (iblk2 V c 4 t) j
    = score2_9 V c (((cfg2.win 9).blk t).view.emb j)
  refine k2_pay3_at _ _ _ _ (V c main_v68) (V c main_arg13) (V c main_v72) (V c main_v70) j _
    (fun l => ?_) (blk2_3 V c t) (blk2_4 V c t) (blk2_6 V c t)
  refine blk2_0 V c t _ l _ ?_ rfl
  show win2_9.index t 0 * 1200 + 1 * (j 0).val = t.val * 1200 + (j 0).val
  rw [e0]; omega

/-- An index of the result array is in point `t`'s block iff each coordinate is in the block's range on its axis. -/
theorem mem_blk2_9 (t : Fin cfg2.N) (i : S150000x1.Idx) :
    i ∈ ((cfg2.win 9).blk t).view.set ↔ ∀ a : Fin 2, win2_9.index t a * S1200x1.size a ≤ (i a).val ∧ (i a).val < win2_9.index t a * S1200x1.size a + S1200x1.size a := by
  show i ∈ ((View.whole main_v74_1).slice (win2_9.rect t)).set ↔ _
  rw [View.set_slice_whole, Rect.mem_set_unit]
  exact Iff.rfl

/-- The 125 blocks of 1200 rows tile the 150000 rows: row `r` is in the block of point `r / 1200`. -/
theorem covered2_9 (i : S150000x1.Idx) :
    ∃ t : Fin cfg2.N, (cfg2.win 9).flush t = true ∧ i ∈ ((cfg2.win 9).blk t).view.set := by
  have hi0 : (i 0).val < 150000 := idx2_lt0 i
  have hi1 : (i 1).val < 1 := idx2_lt1 i
  have hN : cfg2.N = 125 := N_2
  have ht : (i 0).val / 1200 < cfg2.N := by rw [hN]; omega
  obtain ⟨-, -, -, -, -, -, -, -, -, -, -, -, -, -, -, -, -, -, e0, e1⟩ := idx_facts2 ⟨(i 0).val / 1200, ht⟩
  refine ⟨⟨(i 0).val / 1200, ht⟩, flush2_9 _, ?_⟩
  rw [mem_blk2_9]
  intro a
  match a with
  | ⟨0, _⟩ =>
    show win2_9.index ⟨(i 0).val / 1200, ht⟩ 0 * 1200 ≤ (i 0).val
      ∧ (i 0).val < win2_9.index ⟨(i 0).val / 1200, ht⟩ 0 * 1200 + 1200
    rw [e0]
    show (i 0).val / 1200 * 1200 ≤ (i 0).val ∧ (i 0).val < (i 0).val / 1200 * 1200 + 1200
    omega
  | ⟨1, _⟩ =>
    show win2_9.index ⟨(i 0).val / 1200, ht⟩ 1 * 1 ≤ (i 1).val
      ∧ (i 1).val < win2_9.index ⟨(i 0).val / 1200, ht⟩ 1 * 1 + 1
    rw [e1]
    omega

/-- Output window 8's array after region 2: the first score of every node, plus the bias entry. -/
theorem final2_8 (c : Dev nD) : (dat2 (F := Ideal) V c).arrAt 8 cfg2.N
    = fun i => nodeS (V c main_v68) (V c main_arg11) (V c main_v71) (V c main_v69) (i 0) + V c main_v73 (ix2 0 0) :=
  (dat2 V c).arrAt_eq_of_cover 8 (score2_8 V c) (fun t _ => flushed2_8_eq V c t) covered2_8

/-- Output window 9's array after region 2: the second score of every node. -/
theorem final2_9 (c : Dev nD) : (dat2 (F := Ideal) V c).arrAt 9 cfg2.N
    = fun i => nodeS (V c main_v68) (V c main_arg13) (V c main_v72) (V c main_v70) (i 0) :=
  (dat2 V c).arrAt_eq_of_cover 9 (score2_9 V c) (fun t _ => flushed2_9_eq V c t) covered2_9

end Cert.KernelIdeal.NodeValue

end
-- ==== Proof.KMask.lean ====
/-
  The idealized kernel program's result as one function of its arguments. Per layer: the node regions leave, for
  every node n, a1(n) = Σ_k max(Σ_j x(n, j) · W(j, k) + b(k), 0) · aW(k) + ab with the first half of the attention
  weights, and a2(n) likewise with the other branch's weights and the second half, no bias; the gate region applies
  the scalar gate map to a1 at the edge's first endpoint, a2 at its second endpoint and the edge's noise, on the
  padded 128 × 8192 layout; the per-edge gates are read back and the layer finishes as in the reference.
-/
import proofs.«129877_j42932493091129_2_alg».proof.Proof.KChain1
import proofs.«129877_j42932493091129_2_alg».proof.Proof.GateValue
import proofs.«129877_j42932493091129_2_alg».proof.Proof.NodeValue

set_option maxRecDepth 16384

noncomputable section

namespace Cert.KSpec

open Cert.KernelIdeal Cert.KernelIdeal.Gen Cert.KernelIdeal.Chain Cert.KernelIdeal.NodeValue Cert.KernelIdeal.GateValue
open Idealize.ShloMosaic Idealize.ShloMosaic.TcCoe Idealize.SL.Sem Idealize.ShloMosaic.StableHlo Idealize.ShloMosaic.ValueIdx

/-- The first branch's projection of every node, with the attention bias. -/
def a1K (x : (⟨S150000x64, .f32⟩ : BufTy).Contents (Elt Ideal)) (nbW : (⟨S64x64, .f32⟩ : BufTy).Contents (Elt Ideal)) (nbb : (⟨S64, .f32⟩ : BufTy).Contents (Elt Ideal)) (attW : (⟨S128x1, .f32⟩ : BufTy).Contents (Elt Ideal)) (attb : (⟨S1, .f32⟩ : BufTy).Contents (Elt Ideal)) : (⟨S150000x1, .f32⟩ : BufTy).Contents (Elt Ideal) :=
  fun i => nodeS x nbW (rowOf nbb) (sliceLo attW) (i 0) + oneOf attb (ix2 0 0)

/-- The second branch's projection of every node. -/
def a2K (x : (⟨S150000x64, .f32⟩ : BufTy).Contents (Elt Ideal)) (selfW : (⟨S64x64, .f32⟩ : BufTy).Contents (Elt Ideal)) (selfb : (⟨S64, .f32⟩ : BufTy).Contents (Elt Ideal)) (attW : (⟨S128x1, .f32⟩ : BufTy).Contents (Elt Ideal)) : (⟨S150000x1, .f32⟩ : BufTy).Contents (Elt Ideal) :=
  fun i => nodeS x selfW (rowOf selfb) (sliceHi attW) (i 0)

/-- The gate of every edge as the kernel program computes it. -/
def maskK (x : (⟨S150000x64, .f32⟩ : BufTy).Contents (Elt Ideal)) (row col : (⟨S1000000, .i32⟩ : BufTy).Contents (Elt Ideal)) (noise : (⟨S1000000x1, .f32⟩ : BufTy).Contents (Elt Ideal))
    (nbW : (⟨S64x64, .f32⟩ : BufTy).Contents (Elt Ideal)) (nbb : (⟨S64, .f32⟩ : BufTy).Contents (Elt Ideal)) (selfW : (⟨S64x64, .f32⟩ : BufTy).Contents (Elt Ideal)) (selfb : (⟨S64, .f32⟩ : BufTy).Contents (Elt Ideal))
    (attW : (⟨S128x1, .f32⟩ : BufTy).Contents (Elt Ideal)) (attb : (⟨S1, .f32⟩ : BufTy).Contents (Elt Ideal)) : (⟨S1000000, .f32⟩ : BufTy).Contents (Elt Ideal) :=
  unprep (fun i => gateS (padPrep (gatherCol (a1K x nbW nbb attW attb) row) i) (padPrep (gatherCol (a2K x selfW selfb attW) col) i) (padPrep (noiseFlat noise) i))

/-- One layer of the kernel program. -/
def layerK (x : (⟨S150000x64, .f32⟩ : BufTy).Contents (Elt Ideal)) (row col : (⟨S1000000, .i32⟩ : BufTy).Contents (Elt Ideal)) (noise : (⟨S1000000x1, .f32⟩ : BufTy).Contents (Elt Ideal))
    (nbW : (⟨S64x64, .f32⟩ : BufTy).Contents (Elt Ideal)) (nbb : (⟨S64, .f32⟩ : BufTy).Contents (Elt Ideal)) (selfW : (⟨S64x64, .f32⟩ : BufTy).Contents (Elt Ideal)) (selfb : (⟨S64, .f32⟩ : BufTy).Contents (Elt Ideal))
    (attW : (⟨S128x1, .f32⟩ : BufTy).Contents (Elt Ideal)) (attb : (⟨S1, .f32⟩ : BufTy).Contents (Elt Ideal)) : (⟨S150000x64, .f32⟩ : BufTy).Contents (Elt Ideal) :=
  tailK (maskK x row col noise nbW nbb selfW selfb attW attb) x row col

/-- The whole kernel program: the input features plus the two layers' outputs. -/
def wholeK (x0 : (⟨S150000x64, .f32⟩ : BufTy).Contents (Elt Ideal)) (row col : (⟨S1000000, .i32⟩ : BufTy).Contents (Elt Ideal)) (noise0 noise1 : (⟨S1000000x1, .f32⟩ : BufTy).Contents (Elt Ideal))
    (nbW0 : (⟨S64x64, .f32⟩ : BufTy).Contents (Elt Ideal)) (nbb0 : (⟨S64, .f32⟩ : BufTy).Contents (Elt Ideal)) (selfW0 : (⟨S64x64, .f32⟩ : BufTy).Contents (Elt Ideal)) (selfb0 : (⟨S64, .f32⟩ : BufTy).Contents (Elt Ideal))
    (attW0 : (⟨S128x1, .f32⟩ : BufTy).Contents (Elt Ideal)) (attb0 : (⟨S1, .f32⟩ : BufTy).Contents (Elt Ideal))
    (nbW1 : (⟨S64x64, .f32⟩ : BufTy).Contents (Elt Ideal)) (nbb1 : (⟨S64, .f32⟩ : BufTy).Contents (Elt Ideal)) (selfW1 : (⟨S64x64, .f32⟩ : BufTy).Contents (Elt Ideal)) (selfb1 : (⟨S64, .f32⟩ : BufTy).Contents (Elt Ideal))
    (attW1 : (⟨S128x1, .f32⟩ : BufTy).Contents (Elt Ideal)) (attb1 : (⟨S1, .f32⟩ : BufTy).Contents (Elt Ideal)) : (⟨S150000x64, .f32⟩ : BufTy).Contents (Elt Ideal) :=
  addf (F := Ideal) (s := S150000x64) (φ := .f32)
    (addf (F := Ideal) (s := S150000x64) (φ := .f32) x0 (layerK x0 row col noise0 nbW0 nbb0 selfW0 selfb0 attW0 attb0))
    (layerK (layerK x0 row col noise0 nbW0 nbb0 selfW0 selfb0 attW0 attb0) row col noise1 nbW1 nbb1 selfW1 selfb1 attW1 attb1)

variable (m : (ℓ : Loc nD τ sig) → Buf (Elt Ideal) ℓ) (ρ : Dev nD → PrngReg)

/-- The first layer's gate matrix. -/
theorem gates0 (c : Dev nD) : W10 m ρ c (Proc.devRef .tc main_v29)
    = fun i => gateS (padPrep (gatherCol (a1K (m ((c.tc : Thread nD τ).loc main_arg0)) (m ((c.tc : Thread nD τ).loc main_arg5)) (m ((c.tc : Thread nD τ).loc main_arg6)) (m ((c.tc : Thread nD τ).loc main_arg9)) (m ((c.tc : Thread nD τ).loc main_arg10))) (m ((c.tc : Thread nD τ).loc main_arg1))) i)
        (padPrep (gatherCol (a2K (m ((c.tc : Thread nD τ).loc main_arg0)) (m ((c.tc : Thread nD τ).loc main_arg7)) (m ((c.tc : Thread nD τ).loc main_arg8)) (m ((c.tc : Thread nD τ).loc main_arg9))) (m ((c.tc : Thread nD τ).loc main_arg2))) i) (padPrep (noiseFlat (m ((c.tc : Thread nD τ).loc main_arg3))) i) := by
  rw [X1_g, GateValue.final1 (V9 m ρ) c]
  dsimp only [V9]
  rw [E1_v24, E1_v26, E1_v28, X0_a1, X0_a2, NodeValue.final0_8 (V1 m ρ) c, NodeValue.final0_9 (V1 m ρ) c]
  dsimp only [V1]
  rw [E0_arg0, E0_arg5, E0_arg7, E0_v0, E0_v1, E0_v2, E0_v3, E0_v4]
  rfl

/-- The first layer's output. -/
theorem layer0 (c : Dev nD) : W13 m ρ c (Proc.devRef .tc main_v68) = layerK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [E2_v68, gates0]
  rfl

/-- The gate matrix from the node regions' inputs, whatever buffers hold them. -/
theorem gates_of (x1 X : (⟨S150000x64, .f32⟩ : BufTy).Contents (Elt Ideal)) (w1 nbW w2 selfW : (⟨S64x64, .f32⟩ : BufTy).Contents (Elt Ideal)) (b1 b2 : (⟨S1x64, .f32⟩ : BufTy).Contents (Elt Ideal))
    (nbb selfb : (⟨S64, .f32⟩ : BufTy).Contents (Elt Ideal)) (a1 a2 : (⟨S64x1, .f32⟩ : BufTy).Contents (Elt Ideal)) (attW : (⟨S128x1, .f32⟩ : BufTy).Contents (Elt Ideal)) (ab : (⟨S1x1, .f32⟩ : BufTy).Contents (Elt Ideal)) (attb : (⟨S1, .f32⟩ : BufTy).Contents (Elt Ideal))
    (r q : (⟨S1000000, .i32⟩ : BufTy).Contents (Elt Ideal)) (nz : (⟨S1000000x1, .f32⟩ : BufTy).Contents (Elt Ideal))
    (hx : x1 = X) (hw1 : w1 = nbW) (hw2 : w2 = selfW) (hb1 : b1 = rowOf nbb) (hb2 : b2 = rowOf selfb)
    (ha1 : a1 = sliceLo attW) (ha2 : a2 = sliceHi attW) (hab : ab = oneOf attb) :
    (fun i => gateS (F := Ideal) (padPrep (gatherCol (fun i => nodeS x1 w1 b1 a1 (i 0) + ab (ix2 0 0)) r) i)
        (padPrep (gatherCol (fun i => nodeS x1 w2 b2 a2 (i 0)) q) i) (padPrep (noiseFlat nz) i))
      = fun i => gateS (padPrep (gatherCol (a1K X nbW nbb attW attb) r) i) (padPrep (gatherCol (a2K X selfW selfb attW) q) i) (padPrep (noiseFlat nz) i) := by
  subst hx hw1 hw2 hb1 hb2 ha1 ha2 hab
  rfl

/-- The second layer's gate matrix. -/
theorem gates1 (c : Dev nD) : W22 m ρ c (Proc.devRef .tc main_v98)
    = fun i => gateS (padPrep (gatherCol (a1K (layerK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg12)) (m ((c.tc : Thread nD τ).loc main_arg15)) (m ((c.tc : Thread nD τ).loc main_arg16))) (m ((c.tc : Thread nD τ).loc main_arg1))) i)
        (padPrep (gatherCol (a2K (layerK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg13)) (m ((c.tc : Thread nD τ).loc main_arg14)) (m ((c.tc : Thread nD τ).loc main_arg15))) (m ((c.tc : Thread nD τ).loc main_arg2))) i) (padPrep (noiseFlat (m ((c.tc : Thread nD τ).loc main_arg4))) i) := by
  rw [X3_g, GateValue.final3 (V21 m ρ) c]
  dsimp only [V21]
  rw [E3_v93, E3_v95, E3_v97, X2_a1, X2_a2, NodeValue.final2_8 (V13 m ρ) c, NodeValue.final2_9 (V13 m ρ) c]
  dsimp only [V13]
  exact gates_of _ _ _ _ _ _ _ _ _ _ _ _ _ _ _ _ _ _ (layer0 m ρ c) (E2_arg11 m ρ c) (E2_arg13 m ρ c) (E2_v71 m ρ c) (E2_v72 m ρ c)
    (E2_v69 m ρ c) (E2_v70 m ρ c) (E2_v73 m ρ c)

/-- The kernel program's result is `wholeK` of the argument arrays. -/
theorem kernel_result (c : Dev nD) : W25 m ρ c (Proc.devRef .tc main_v139)
    = wholeK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [result_v139, gates1, gates0]
  rfl

end Cert.KSpec

end
-- ==== Proof.LibPadZero.lean ====
/-
  A zero-origin pad read at an index. A `stablehlo.pad` with no low padding and no interior padding keeps the operand in
  the leading corner of the result and fills the rest with the padding value: at an index inside the operand's extents on
  every axis it is the operand's entry, and at an index at or beyond the operand's extent on some axis it is the padding
  value. Stated for rank 2 and rank 1, at any extents and any high padding; the result's extents are tied to the operand's
  by the shape fact the operation carries.
-/
import Idealize.ShloMosaic.Lib.KernelVsHost

namespace Cert.Lib

open Idealize.ShloMosaic Idealize.ShloMosaic.ValueIdx

variable {α : Type}

/-- The scalar shape has one index: the first index of a rank-zero array is that index. -/
theorem first_scalar (hu : 0 < (⟨0, ![]⟩ : Shape).numel) : Shape.Idx.first hu = ix0 :=
  funext fun a => a.elim0

section Rank2
variable {a b A B h0 h1 : Nat}

/-- Rank 2, inside: at `(p, q)` with `p < a` and `q < b` the padded array is the operand's entry `(p, q)`. -/
theorem pad2_zero_apply_inside (x : (⟨2, ![a, b]⟩ : Shape).Idx → α) {u : Shape} (v : u.Idx → α)
    (hp : (⟨2, ![a, b]⟩ : Shape).Pads (![0, 0] : Fin 2 → Nat) ![h0, h1] ![0, 0] ⟨2, ![A, B]⟩) (hu : 0 < u.numel)
    (p : Fin A) (q : Fin B) (hpa : p.val < a) (hqb : q.val < b) :
    pad ⟨2, ![A, B]⟩ ![0, 0] ![h0, h1] ![0, 0] x v hp hu (ix2 p q) = x (ix2 ⟨p.val, hpa⟩ ⟨q.val, hqb⟩) :=
  pad_apply_of_inside _ _ _ x v hp hu _ (ix2 (⟨p.val, hpa⟩ : Fin a) (⟨q.val, hqb⟩ : Fin b)) (by
    intro c
    match c with
    | ⟨0, _⟩ => show p.val = 0 + p.val * (0 + 1); omega
    | ⟨1, _⟩ => show q.val = 0 + q.val * (0 + 1); omega)

/-- Rank 2, outside: at `(p, q)` with `p ≥ a` or `q ≥ b` the padded array is the padding value. -/
theorem pad2_zero_apply_outside (x : (⟨2, ![a, b]⟩ : Shape).Idx → α) {u : Shape} (v : u.Idx → α)
    (hp : (⟨2, ![a, b]⟩ : Shape).Pads (![0, 0] : Fin 2 → Nat) ![h0, h1] ![0, 0] ⟨2, ![A, B]⟩) (hu : 0 < u.numel)
    (p : Fin A) (q : Fin B) (ho : a ≤ p.val ∨ b ≤ q.val) :
    pad ⟨2, ![A, B]⟩ ![0, 0] ![h0, h1] ![0, 0] x v hp hu (ix2 p q) = v (Shape.Idx.first hu) := by
  rcases ho with ho | ho
  · exact pad_apply_of_not_inside _ _ _ x v hp hu _ (0 : Fin 2) (by
      intro hin
      have e : (p.val - 0) / (0 + 1) < a := hin.2.2
      omega)
  · exact pad_apply_of_not_inside _ _ _ x v hp hu _ (1 : Fin 2) (by
      intro hin
      have e : (q.val - 0) / (0 + 1) < b := hin.2.2
      omega)

/-- Rank 2, both cases in one: the operand's entry inside its extents, the padding value elsewhere. -/
theorem pad2_zero_apply (x : (⟨2, ![a, b]⟩ : Shape).Idx → α) {u : Shape} (v : u.Idx → α)
    (hp : (⟨2, ![a, b]⟩ : Shape).Pads (![0, 0] : Fin 2 → Nat) ![h0, h1] ![0, 0] ⟨2, ![A, B]⟩) (hu : 0 < u.numel)
    (p : Fin A) (q : Fin B) :
    pad ⟨2, ![A, B]⟩ ![0, 0] ![h0, h1] ![0, 0] x v hp hu (ix2 p q)
      = if h : p.val < a ∧ q.val < b then x (ix2 ⟨p.val, h.1⟩ ⟨q.val, h.2⟩) else v (Shape.Idx.first hu) := by
  by_cases h : p.val < a ∧ q.val < b
  · rw [dif_pos h]; exact pad2_zero_apply_inside x v hp hu p q h.1 h.2
  · rw [dif_neg h]; exact pad2_zero_apply_outside x v hp hu p q (by omega)

/-- Rank 2, outside, with a scalar padding array: the padding value is the scalar's one entry. -/
theorem pad2_zero_apply_outside_scalar (x : (⟨2, ![a, b]⟩ : Shape).Idx → α) (v : (⟨0, ![]⟩ : Shape).Idx → α)
    (hp : (⟨2, ![a, b]⟩ : Shape).Pads (![0, 0] : Fin 2 → Nat) ![h0, h1] ![0, 0] ⟨2, ![A, B]⟩)
    (hu : 0 < (⟨0, ![]⟩ : Shape).numel) (p : Fin A) (q : Fin B) (ho : a ≤ p.val ∨ b ≤ q.val) :
    pad ⟨2, ![A, B]⟩ ![0, 0] ![h0, h1] ![0, 0] x v hp hu (ix2 p q) = v ix0 := by
  rw [pad2_zero_apply_outside x v hp hu p q ho, first_scalar]

end Rank2

section Rank1
variable {a A h0 : Nat}

/-- Rank 1, inside: at `p < a` the padded vector is the operand's entry `p`. -/
theorem pad1_zero_apply_inside (x : (⟨1, ![a]⟩ : Shape).Idx → α) {u : Shape} (v : u.Idx → α)
    (hp : (⟨1, ![a]⟩ : Shape).Pads (![0] : Fin 1 → Nat) ![h0] ![0] ⟨1, ![A]⟩) (hu : 0 < u.numel)
    (p : Fin A) (hpa : p.val < a) :
    pad ⟨1, ![A]⟩ ![0] ![h0] ![0] x v hp hu (ix1 p) = x (ix1 ⟨p.val, hpa⟩) :=
  pad_apply_of_inside _ _ _ x v hp hu _ (ix1 (⟨p.val, hpa⟩ : Fin a)) (by
    intro c
    match c with
    | ⟨0, _⟩ => show p.val = 0 + p.val * (0 + 1); omega)

/-- Rank 1, outside: at `p ≥ a` the padded vector is the padding value. -/
theorem pad1_zero_apply_outside (x : (⟨1, ![a]⟩ : Shape).Idx → α) {u : Shape} (v : u.Idx → α)
    (hp : (⟨1, ![a]⟩ : Shape).Pads (![0] : Fin 1 → Nat) ![h0] ![0] ⟨1, ![A]⟩) (hu : 0 < u.numel)
    (p : Fin A) (ho : a ≤ p.val) :
    pad ⟨1, ![A]⟩ ![0] ![h0] ![0] x v hp hu (ix1 p) = v (Shape.Idx.first hu) :=
  pad_apply_of_not_inside _ _ _ x v hp hu _ (0 : Fin 1) (by
    intro hin
    have e : (p.val - 0) / (0 + 1) < a := hin.2.2
    omega)

/-- Rank 1, both cases in one: the operand's entry inside its extent, the padding value elsewhere. -/
theorem pad1_zero_apply (x : (⟨1, ![a]⟩ : Shape).Idx → α) {u : Shape} (v : u.Idx → α)
    (hp : (⟨1, ![a]⟩ : Shape).Pads (![0] : Fin 1 → Nat) ![h0] ![0] ⟨1, ![A]⟩) (hu : 0 < u.numel) (p : Fin A) :
    pad ⟨1, ![A]⟩ ![0] ![h0] ![0] x v hp hu (ix1 p)
      = if h : p.val < a then x (ix1 ⟨p.val, h⟩) else v (Shape.Idx.first hu) := by
  by_cases h : p.val < a
  · rw [dif_pos h]; exact pad1_zero_apply_inside x v hp hu p h
  · rw [dif_neg h]; exact pad1_zero_apply_outside x v hp hu p (by omega)

/-- Rank 1, outside, with a scalar padding array: the padding value is the scalar's one entry. -/
theorem pad1_zero_apply_outside_scalar (x : (⟨1, ![a]⟩ : Shape).Idx → α) (v : (⟨0, ![]⟩ : Shape).Idx → α)
    (hp : (⟨1, ![a]⟩ : Shape).Pads (![0] : Fin 1 → Nat) ![h0] ![0] ⟨1, ![A]⟩)
    (hu : 0 < (⟨0, ![]⟩ : Shape).numel) (p : Fin A) (ho : a ≤ p.val) :
    pad ⟨1, ![A]⟩ ![0] ![h0] ![0] x v hp hu (ix1 p) = v ix0 := by
  rw [pad1_zero_apply_outside x v hp hu p ho, first_scalar]

end Rank1

end Cert.Lib
-- ==== Proof.LibGatherRows.lean ====
/-
  A lookup of rows along axis 0, read at an index.

  What `v[idx]` lowers to when `idx` is a vector of `R` start indices carried as an `[R, 1]` array (the index vector
  on axis 1): for a flat operand `[N]` the result is `[R]`, its entry `r` the operand at start index `idx(r, 0)`; for
  a one-column operand `[N, 1]` (the column an offset axis of size one) the result is `[R, 1]`, its entry `(r, 0)` the
  operand at `(idx(r, 0), 0)`. In both the start index is read as a signed integer and clamped into `[0, N − 1]`.
-/
import Idealize.ShloMosaic.Lib.ValueIdx

noncomputable section

namespace Cert.Lib

open Idealize.ShloMosaic Idealize.ShloMosaic.ValueIdx

variable {α : Type}

/-- The dimension numbers of `v[idx]` for `v : [N]`, `idx : [R, 1]`, result `[R]`. -/
abbrev flatTake (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The flat lookup at `r`: the operand at start index `idx(r, 0)`, signed and clamped. -/
theorem gather_flatTake_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatTake N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (flatTake N R wf).start (ix1 r) idx 0 + (flatTake N R wf).batchCoord (ix1 r) 0
    + (flatTake N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatTake N R wf).startIndexMap from List.mem_singleton.mpr rfl)]
  have hsi : (flatTake N R wf).siIdx (ix1 r) ⟨List.idxOf (0 : Fin 1) (flatTake N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The dimension numbers of `v[idx]` for a one-column `v : [N, 1]`, `idx : [R, 1]`, result `[R, 1]`. -/
abbrev colTake (N R : Nat) (wf : GatherDims.WF ⟨2, ![N, 1]⟩ ⟨2, ![R, 1]⟩ ⟨2, ![R, 1]⟩ [1] [0] [] [0] [] 1 ![1, 1]) :
    GatherDims ⟨2, ![N, 1]⟩ ⟨2, ![R, 1]⟩ ⟨2, ![R, 1]⟩ where
  offsetDims := [1]
  collapsedSliceDims := [0]
  operandBatchingDims := []
  startIndicesBatchingDims := []
  startIndexMap := [0]
  indexVectorDim := 1
  sliceSizes := ![1, 1]
  wf := wf

/-- The one-column lookup at `(r, u)`: the operand at `(idx(r, 0), 0)`, the start index signed and clamped. -/
theorem gather_colTake_apply {N R w : Nat} (hN : 0 < N)
    (wf : GatherDims.WF ⟨2, ![N, 1]⟩ ⟨2, ![R, 1]⟩ ⟨2, ![R, 1]⟩ [1] [0] [] [0] [] 1 ![1, 1])
    (x : (⟨2, ![N, 1]⟩ : Shape).Idx → α) (idx : IVec ⟨2, ![R, 1]⟩ w) (r : Fin R) (u : Fin 1) :
    Host.gather (colTake N R wf) x idx (ix2 r u)
      = x (ix2 (⟨min (idx (ix2 r (0 : Fin 1))).toInt.toNat (N - 1), by omega⟩ : Fin N) (0 : Fin 1)) := by
  unfold Host.gather
  congr 1
  funext a
  refine Fin.ext ?_
  match a with
  | ⟨0, _⟩ =>
    show (colTake N R wf).start (ix2 r u) idx 0 + (colTake N R wf).batchCoord (ix2 r u) 0
      + (colTake N R wf).offCoord (ix2 r u) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colTake N R wf).startIndexMap from List.mem_singleton.mpr rfl)]
    have hsi : (colTake N R wf).siIdx (ix2 r u) ⟨List.idxOf (0 : Fin 2) (colTake N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have h : (colTake N R wf).start (ix2 r u) idx 1 + (colTake N R wf).batchCoord (ix2 r u) 1
        + (colTake N R wf).offCoord (ix2 r u) 1 < 1 := (colTake N R wf).lt (ix2 r u) idx 1
    show (colTake N R wf).start (ix2 r u) idx 1 + (colTake N R wf).batchCoord (ix2 r u) 1
      + (colTake N R wf).offCoord (ix2 r u) 1 = 0
    omega

end Cert.Lib

end
-- ==== Proof.LibColumnBack.lean ====
/-
  A column read back as a vector.

  An `[a, 1]` column reshaped to a vector of `a` entries reads, at `i`, the column's entry `(i, 0)`: the inverse of laying
  a vector as a column.
-/
import Idealize.ShloMosaic.Lib.ValueIdx
import Idealize.ShloMosaic.Lib.Pipeline.Value

noncomputable section

namespace Cert.Lib

open Idealize.ShloMosaic Idealize.ShloMosaic.ValueIdx

variable {α : Type}

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.KLayout.lean ====
/-
  The kernel program's re-layouts read at an index. Padding a per-edge vector to 1048576 entries and laying it out as
  128 rows of 8192, and reading the first 1000000 entries of such a matrix back, undo each other: entry e of the vector
  sits at row e / 8192, column e % 8192. A per-node column looked up at an edge's endpoint is the column's entry at
  the endpoint's node: the endpoint index wrapped if negative, read signed and clamped into the node range. The two
  halves of the attention weights and the biases laid out as rows are read at their entries.
-/
import proofs.«129877_j42932493091129_2_alg».proof.Proof.KSpec
import proofs.«129877_j42932493091129_2_alg».proof.Proof.LibPadZero
import proofs.«129877_j42932493091129_2_alg».proof.Proof.LibGatherRows
import proofs.«129877_j42932493091129_2_alg».proof.Proof.LibColumnBack
import Idealize.ShloMosaic.Lib.Pipeline.Value

set_option maxRecDepth 16384

noncomputable section

namespace Cert.KSpec

open Cert.KernelIdeal Cert.KernelIdeal.Gen Idealize.ShloMosaic Idealize.ShloMosaic.TcCoe Idealize.SL.Sem Idealize.ShloMosaic.ValueIdx

variable {F : FTy → Type} [FloatOps F]

/-- The node an edge endpoint names: the wrapped index read signed and clamped into the node range. -/
def nodeOf (r : (⟨S1000000, .i32⟩ : BufTy).Contents (Elt F)) (e : Fin 1000000) : Fin 150000 :=
  ⟨min ((wrapIdx r) (ix2 e (0 : Fin 1))).toInt.toNat (150000 - 1), by omega⟩

/-- Entry `e` of a per-edge vector sits at row `e / 8192`, column `e % 8192` of its padded layout. -/
theorem padPrep_apply (v : (⟨S1000000, .f32⟩ : BufTy).Contents (Elt F)) (e : Fin 1000000) (r : Fin 128) (q : Fin 8192)
    (h : r.val * 8192 + q.val = e.val) : padPrep v (ix2 r q) = v (ix1 e) := by
  unfold padPrep
  have he : e.val < 1048576 := by have := e.isLt; omega
  rw [shapeCast_apply _ shapeCasts_S1048576_S128x8192 (ix2 r q) (ix1 (⟨e.val, he⟩ : Fin 1048576)) (by
        rw [Shape.rowMajor_val_one, Shape.rowMajor_val_two]
        show e.val = r.val * 8192 + q.val
        omega)]
  exact Cert.Lib.pad1_zero_apply_inside v _ pads_S1000000_S1048576_0485760 h_S_ (⟨e.val, he⟩ : Fin 1048576) e.isLt

/-- Reading the matrix back: entry `e` of the per-edge vector is the matrix's entry at row `e / 8192`, column `e % 8192`. -/
theorem unprep_apply (g : (⟨S128x8192, .f32⟩ : BufTy).Contents (Elt F)) (e : Fin 1000000) (r : Fin 128) (q : Fin 8192)
    (h : r.val * 8192 + q.val = e.val) : unprep g (ix1 e) = g (ix2 r q) := by
  unfold unprep
  have he : e.val < 1048576 := by have := e.isLt; omega
  rw [extractStridedSlice_apply ![0] _ slices_S1048576_S1000000_0 (ix1 e) (ix1 (⟨e.val, he⟩ : Fin 1048576)) (by
        intro a
        match a with
        | ⟨0, _⟩ => show e.val = 0 + e.val; omega)]
  exact shapeCast_apply g shapeCasts_S128x8192_S1048576 _ (ix2 r q) (by
    rw [Shape.rowMajor_val_two, Shape.rowMajor_val_one]
    show r.val * 8192 + q.val = e.val
    exact h)

/-- A per-node column looked up at an edge's endpoint is the column's entry at the endpoint's node. -/
theorem gatherCol_apply (a : (⟨S150000x1, .f32⟩ : BufTy).Contents (Elt F)) (r : (⟨S1000000, .i32⟩ : BufTy).Contents (Elt F)) (e : Fin 1000000) :
    gatherCol a r (ix1 e) = a (ix2 (nodeOf r e) (0 : Fin 1)) := by
  unfold gatherCol
  rw [Cert.Lib.shapeCast_a1_a_apply]
  exact Cert.Lib.gather_colTake_apply (N := 150000) (R := 1000000) (by decide)
    gather_S150000x1_S1000000x1_S1000000x1_1_0_n_n_0_1_11_wf a (wrapIdx r) e (0 : Fin 1)

/-- The noise column as a vector. -/
theorem noiseFlat_apply (u : (⟨S1000000x1, .f32⟩ : BufTy).Contents (Elt F)) (e : Fin 1000000) : noiseFlat u (ix1 e) = u (ix2 e (0 : Fin 1)) := by
  unfold noiseFlat
  exact Cert.Lib.shapeCast_a1_a_apply u _ e

/-- The first half of the attention weights. -/
theorem sliceLo_apply (w : (⟨S128x1, .f32⟩ : BufTy).Contents (Elt F)) (k : Fin 64) :
    sliceLo w (ix2 k (0 : Fin 1)) = w (ix2 (⟨k.val, by have := k.isLt; omega⟩ : Fin 128) (0 : Fin 1)) := by
  unfold sliceLo
  exact extractStridedSlice_apply _ w slices_S128x1_S64x1_0_0 _ _ (by
    intro a
    match a with
    | ⟨0, _⟩ => show k.val = 0 + k.val; omega
    | ⟨1, _⟩ => rfl)

/-- The second half of the attention weights. -/
theorem sliceHi_apply (w : (⟨S128x1, .f32⟩ : BufTy).Contents (Elt F)) (k : Fin 64) :
    sliceHi w (ix2 k (0 : Fin 1)) = w (ix2 (⟨64 + k.val, by have := k.isLt; omega⟩ : Fin 128) (0 : Fin 1)) := by
  unfold sliceHi
  exact extractStridedSlice_apply _ w slices_S128x1_S64x1_64_0 _ _ (by
    intro a
    match a with
    | ⟨0, _⟩ => rfl
    | ⟨1, _⟩ => rfl)

/-- A bias laid out as a row. -/
theorem rowOf_apply (b : (⟨S64, .f32⟩ : BufTy).Contents (Elt F)) (k : Fin 64) : rowOf b (ix2 (0 : Fin 1) k) = b (ix1 k) := by
  unfold rowOf
  exact shapeCast_apply b shapeCasts_S64_S1x64 _ _ (by
    rw [Shape.rowMajor_val_one, Shape.rowMajor_val_two]
    show k.val = 0 * 64 + k.val
    omega)

/-- The attention bias as a 1 × 1 matrix. -/
theorem oneOf_apply (b : (⟨S1, .f32⟩ : BufTy).Contents (Elt F)) : oneOf b (ix2 (0 : Fin 1) (0 : Fin 1)) = b (ix1 (0 : Fin 1)) := by
  unfold oneOf
  exact shapeCast_apply b shapeCasts_S1_S1x1 _ _ (by
    rw [Shape.rowMajor_val_one, Shape.rowMajor_val_two]
    rfl)

end Cert.KSpec

end
-- ==== Proof.RefSpec.lean ====
/-
  The reference, layer by layer. One graph layer of the reference is a function of the node features `x`, the edge
  endpoints `row`, `col`, the noise and the layer's weights: first the per-edge gate `maskRef` — the two dense
  branches `denseR` (a product with a 64 × 64 weight, a bias row, max with 0) on the rows gathered at the two
  endpoints, joined side by side and projected to one logit per edge (`logitR`), pushed through the hard-concrete
  map and clipped to [0, 1] (`gateR`) —, then `tailRef`: the degree normalisation (the gates summed per target
  node, plus a small constant, to the power -1/2, clipped to [0, 10]), the per-edge weight gate · d[row] · d[col], and
  the weighted sum of the source rows into the target nodes. The whole program is x + layer₀ x + layer₁ (layer₀ x).
  The definitions below are the program's own operations, so that the run's result term is this composition by
  unfolding.
-/
import proofs.«129877_j42932493091129_2_alg».proof.Proof.Gen.ReferenceIdeal.Run

set_option maxRecDepth 16384

noncomputable section

namespace Cert.RefSpec

open Cert.ReferenceIdeal Cert.ReferenceIdeal.Gen Idealize.ShloMosaic Idealize.ShloMosaic.TcCoe Idealize.SL.Sem Idealize.ShloMosaic.StableHlo

variable {F : FTy → Type} [FloatOps F]

/-- An endpoint index as the lookups take it: a negative index counted from the end, as a one-column matrix. -/
def wrapR (r : (⟨S1000000, .i32⟩ : BufTy).Contents (Elt F)) : (⟨S1000000x1, .i32⟩ : BufTy).Contents (Elt F) :=
  (broadcastInDim S1000000x1 ![0] bcast_S1000000_S1000000x1_0 (select (cmpi .slt r (broadcastInDim S1000000 ![] bcast_S_S1000000 (constantI S_ 32 0#32))) (addi r (broadcastInDim S1000000 ![] bcast_S_S1000000 (constantI S_ 32 150000#32))) r))

/-- One dense branch on the gathered rows: the product with the weights, plus the bias on every row, max with 0. -/
def denseR (f : (⟨S1000000x64, .f32⟩ : BufTy).Contents (Elt F)) (W : (⟨S64x64, .f32⟩ : BufTy).Contents (Elt F)) (b : (⟨S64, .f32⟩ : BufTy).Contents (Elt F)) : (⟨S1000000x64, .f32⟩ : BufTy).Contents (Elt F) :=
  (maximumf (addf (Host.dotGeneral dot_S1000000x64_S64x64_S1000000x64_1_0_0_1_n_n none f W) (broadcastInDim S1000000x64 ![0, 1] bcast_S1x64_S1000000x64_0_1 (broadcastInDim S1x64 ![1] bcast_S64_S1x64_1 b))) (broadcastInDim S1000000x64 ![] bcast_S_S1000000x64 (constant S_ .f32 0x00000000#32)))

/-- The logit of every edge: the two branches side by side, times the attention weights, plus the attention bias. -/
def logitR (h1 h2 : (⟨S1000000x64, .f32⟩ : BufTy).Contents (Elt F)) (attW : (⟨S128x1, .f32⟩ : BufTy).Contents (Elt F)) (attb : (⟨S1, .f32⟩ : BufTy).Contents (Elt F)) : (⟨S1000000x1, .f32⟩ : BufTy).Contents (Elt F) :=
  (addf (Host.dotGeneral dot_S1000000x128_S128x1_S1000000x1_1_0_0_1_n_n none (concatenate S1000000x128 1 [⟨S1000000x64, h1⟩, ⟨S1000000x64, h2⟩] concatenates_S1000000x64_S1000000x64_S1000000x128_d1) attW) (broadcastInDim S1000000x1 ![0, 1] bcast_S1x1_S1000000x1_0_1 (broadcastInDim S1x1 ![1] bcast_S1_S1x1_1 attb)))

/-- The hard-concrete map of the clipped noise and the logit, clipped to [0, 1]. -/
def gateR (noise la : (⟨S1000000x1, .f32⟩ : BufTy).Contents (Elt F)) : (⟨S1000000x1, .f32⟩ : BufTy).Contents (Elt F) :=
  (minimumf (broadcastInDim S1000000x1 ![] bcast_S_S1000000x1 (id (constant S_ .f32 0x3F800000#32))) (maximumf (broadcastInDim S1000000x1 ![] bcast_S_S1000000x1 (id (constant S_ .f32 0x00000000#32))) (addf (mulf (Host.divf (broadcastInDim S1000000x1 ![] bcast_S_S1000000x1 (constant S_ .f32 0x3F800000#32)) (addf (broadcastInDim S1000000x1 ![] bcast_S_S1000000x1 (constant S_ .f32 0x3F800000#32)) (Host.exp (Host.negf (addf (subf (Host.log (minimumf (broadcastInDim S1000000x1 ![] bcast_S_S1000000x1 (id (constant S_ .f32 0x3F7FFFFE#32))) (maximumf (broadcastInDim S1000000x1 ![] bcast_S_S1000000x1 (id (constant S_ .f32 0x33D6BF95#32))) noise))) (Host.log1p (Host.negf (minimumf (broadcastInDim S1000000x1 ![] bcast_S_S1000000x1 (id (constant S_ .f32 0x3F7FFFFE#32))) (maximumf (broadcastInDim S1000000x1 ![] bcast_S_S1000000x1 (id (constant S_ .f32 0x33D6BF95#32))) noise))))) la))))) (broadcastInDim S1000000x1 ![] bcast_S_S1000000x1 (constant S_ .f32 0x3FC00000#32))) (broadcastInDim S1000000x1 ![] bcast_S_S1000000x1 (constant S_ .f32 0xBEE66666#32)))))

/-- The gate of every edge: a value in [0, 1] per edge, from the features of the edge's two endpoints. -/
def maskRef (x : (⟨S150000x64, .f32⟩ : BufTy).Contents (Elt F)) (row col : (⟨S1000000, .i32⟩ : BufTy).Contents (Elt F)) (noise : (⟨S1000000x1, .f32⟩ : BufTy).Contents (Elt F))
    (nbW : (⟨S64x64, .f32⟩ : BufTy).Contents (Elt F)) (nbb : (⟨S64, .f32⟩ : BufTy).Contents (Elt F)) (selfW : (⟨S64x64, .f32⟩ : BufTy).Contents (Elt F)) (selfb : (⟨S64, .f32⟩ : BufTy).Contents (Elt F))
    (attW : (⟨S128x1, .f32⟩ : BufTy).Contents (Elt F)) (attb : (⟨S1, .f32⟩ : BufTy).Contents (Elt F)) : (⟨S1000000, .f32⟩ : BufTy).Contents (Elt F) :=
  shapeCast _ (gateR noise (logitR (denseR (Host.gather gather_S150000x64_S1000000x1_S1000000x64_1_0_n_n_0_1_164 x (wrapR row)) nbW nbb) (denseR (Host.gather gather_S150000x64_S1000000x1_S1000000x64_1_0_n_n_0_1_164 x (wrapR col)) selfW selfb) attW attb)) shapeCasts_S1000000x1_S1000000

/-- From the gates to the layer's output: normalise by the gated in-degree of both endpoints and sum the weighted
    source rows into their target nodes. -/
def tailRef (mask : (⟨S1000000, .f32⟩ : BufTy).Contents (Elt F)) (x : (⟨S150000x64, .f32⟩ : BufTy).Contents (Elt F)) (row col : (⟨S1000000, .i32⟩ : BufTy).Contents (Elt F)) : (⟨S150000x64, .f32⟩ : BufTy).Contents (Elt F) :=
  (Host.scatterAdd scatter_S150000x64_S1000000x1_S1000000x64_1_0_0_1 (broadcastInDim S150000x64 ![] bcast_S_S150000x64 (constant S_ .f32 0x00000000#32)) (broadcastInDim S1000000x1 ![0] bcast_S1000000_S1000000x1_0 row) (mulf (broadcastInDim S1000000x64 ![0, 1] bcast_S1000000x1_S1000000x64_0_1 (broadcastInDim S1000000x1 ![0] bcast_S1000000_S1000000x1_0 (mulf (mulf mask (Host.gather gather_S150000_S1000000x1_S1000000_n_0_n_n_0_1_1 (minimumf (broadcastInDim S150000 ![] bcast_S_S150000 (id (constant S_ .f32 0x41200000#32))) (maximumf (broadcastInDim S150000 ![] bcast_S_S150000 (id (constant S_ .f32 0x00000000#32))) (Host.powf (addf (Host.scatterAdd scatter_S150000_S1000000x1_S1000000_n_0_0_1 (broadcastInDim S150000 ![] bcast_S_S150000 (constant S_ .f32 0x00000000#32)) (broadcastInDim S1000000x1 ![0] bcast_S1000000_S1000000x1_0 row) mask) (broadcastInDim S150000 ![] bcast_S_S150000 (constant S_ .f32 0x358637BD#32))) (broadcastInDim S150000 ![] bcast_S_S150000 (constant S_ .f32 0xBF000000#32))))) (broadcastInDim S1000000x1 ![0] bcast_S1000000_S1000000x1_0 (select (cmpi .slt row (broadcastInDim S1000000 ![] bcast_S_S1000000 (constantI S_ 32 0#32))) (addi row (broadcastInDim S1000000 ![] bcast_S_S1000000 (constantI S_ 32 150000#32))) row)))) (Host.gather gather_S150000_S1000000x1_S1000000_n_0_n_n_0_1_1 (minimumf (broadcastInDim S150000 ![] bcast_S_S150000 (id (constant S_ .f32 0x41200000#32))) (maximumf (broadcastInDim S150000 ![] bcast_S_S150000 (id (constant S_ .f32 0x00000000#32))) (Host.powf (addf (Host.scatterAdd scatter_S150000_S1000000x1_S1000000_n_0_0_1 (broadcastInDim S150000 ![] bcast_S_S150000 (constant S_ .f32 0x00000000#32)) (broadcastInDim S1000000x1 ![0] bcast_S1000000_S1000000x1_0 row) mask) (broadcastInDim S150000 ![] bcast_S_S150000 (constant S_ .f32 0x358637BD#32))) (broadcastInDim S150000 ![] bcast_S_S150000 (constant S_ .f32 0xBF000000#32))))) (broadcastInDim S1000000x1 ![0] bcast_S1000000_S1000000x1_0 (select (cmpi .slt col (broadcastInDim S1000000 ![] bcast_S_S1000000 (constantI S_ 32 0#32))) (addi col (broadcastInDim S1000000 ![] bcast_S_S1000000 (constantI S_ 32 150000#32))) col)))))) (Host.gather gather_S150000x64_S1000000x1_S1000000x64_1_0_n_n_0_1_164 x (broadcastInDim S1000000x1 ![0] bcast_S1000000_S1000000x1_0 (select (cmpi .slt col (broadcastInDim S1000000 ![] bcast_S_S1000000 (constantI S_ 32 0#32))) (addi col (broadcastInDim S1000000 ![] bcast_S_S1000000 (constantI S_ 32 150000#32))) col)))))

/-- One layer. -/
def layerRef (x : (⟨S150000x64, .f32⟩ : BufTy).Contents (Elt F)) (row col : (⟨S1000000, .i32⟩ : BufTy).Contents (Elt F)) (noise : (⟨S1000000x1, .f32⟩ : BufTy).Contents (Elt F))
    (nbW : (⟨S64x64, .f32⟩ : BufTy).Contents (Elt F)) (nbb : (⟨S64, .f32⟩ : BufTy).Contents (Elt F)) (selfW : (⟨S64x64, .f32⟩ : BufTy).Contents (Elt F)) (selfb : (⟨S64, .f32⟩ : BufTy).Contents (Elt F))
    (attW : (⟨S128x1, .f32⟩ : BufTy).Contents (Elt F)) (attb : (⟨S1, .f32⟩ : BufTy).Contents (Elt F)) : (⟨S150000x64, .f32⟩ : BufTy).Contents (Elt F) :=
  tailRef (maskRef x row col noise nbW nbb selfW selfb attW attb) x row col

/-- The whole reference: the input features plus the two layers' outputs, the second layer fed with the first one's. -/
def wholeRef (x0 : (⟨S150000x64, .f32⟩ : BufTy).Contents (Elt F)) (row col : (⟨S1000000, .i32⟩ : BufTy).Contents (Elt F)) (noise0 noise1 : (⟨S1000000x1, .f32⟩ : BufTy).Contents (Elt F))
    (nbW0 : (⟨S64x64, .f32⟩ : BufTy).Contents (Elt F)) (nbb0 : (⟨S64, .f32⟩ : BufTy).Contents (Elt F)) (selfW0 : (⟨S64x64, .f32⟩ : BufTy).Contents (Elt F)) (selfb0 : (⟨S64, .f32⟩ : BufTy).Contents (Elt F))
    (attW0 : (⟨S128x1, .f32⟩ : BufTy).Contents (Elt F)) (attb0 : (⟨S1, .f32⟩ : BufTy).Contents (Elt F))
    (nbW1 : (⟨S64x64, .f32⟩ : BufTy).Contents (Elt F)) (nbb1 : (⟨S64, .f32⟩ : BufTy).Contents (Elt F)) (selfW1 : (⟨S64x64, .f32⟩ : BufTy).Contents (Elt F)) (selfb1 : (⟨S64, .f32⟩ : BufTy).Contents (Elt F))
    (attW1 : (⟨S128x1, .f32⟩ : BufTy).Contents (Elt F)) (attb1 : (⟨S1, .f32⟩ : BufTy).Contents (Elt F)) : (⟨S150000x64, .f32⟩ : BufTy).Contents (Elt F) :=
  addf (addf x0 (layerRef x0 row col noise0 nbW0 nbb0 selfW0 selfb0 attW0 attb0))
    (layerRef (layerRef x0 row col noise0 nbW0 nbb0 selfW0 selfb0 attW0 attb0) row col noise1 nbW1 nbb1 selfW1 selfb1 attW1 attb1)

/-- The result of the reference's run is `wholeRef` of the argument arrays. -/
theorem result_eq (m : (ℓ : Loc nD τ sig) → Buf (Elt F) ℓ) (c : Dev nD) :
    Cert.ReferenceIdeal.Value.res_main_v155 m c
      = wholeRef (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14)) (m ((c.tc : Thread nD τ).loc main_arg15))
          (m ((c.tc : Thread nD τ).loc main_arg16)) := by
  unfold Cert.ReferenceIdeal.Value.res_main_v155 wholeRef layerRef tailRef maskRef gateR logitR denseR wrapR
  rfl

end Cert.RefSpec

end
-- ==== Proof.LibEdgeRows.lean ====
/-
  Rows taken and rows accumulated along axis 0, read at an index.

  A graph layer reads the rows of a matrix `h : [N, D]` named by a column of `R` row numbers `[R, 1]`
  (`h[src]`, result `[R, D]`), and adds `R` update rows `[R, D]` into the rows of an accumulator `[N, D]` named
  by another such column (a segment sum). Both are read here entry by entry.

  The lookup's entry `(e, k)` is the operand at row `idx(e, 0)` and column `k`, the row number read as a signed
  integer and clamped into `[0, N − 1]`. The accumulation's entry `(p, k)` is the operand's entry plus the sum, over the
  update rows `e` whose row number `idx(e, 0)`, read as a signed integer and NOT clamped, is exactly `p`, of the
  update's entry `(e, k)`; an update row whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-! ## Rows taken: `h[idx]` -/

variable {α : Type}

/-- The dimension numbers of the row lookup `h[idx]` for `h : [N, D]`, `idx : [R, 1]`, result `[R, D]`: the row axis
    is collapsed and named by the row number, the column axis is the result's offset axis, a slice is one whole row. -/
abbrev rowsTake (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row lookup at `(e, k)`: the operand at row `idx(e, 0)`, read signed and clamped into `[0, N − 1]`, and
    column `k`. -/
theorem gather_rowsTake_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowsTake N D R wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsTake N D R wf).start (ix2 e k) idx 0 + (rowsTake N D R wf).batchCoord (ix2 e k) 0
      + (rowsTake N D R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake N D R wf).startIndexMap from List.mem_singleton.mpr rfl)]
    have hsi : (rowsTake N D R wf).siIdx (ix2 e k) ⟨List.idxOf (0 : Fin 2) (rowsTake N D R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsTake N D R wf).start (ix2 e k) idx 1 + (rowsTake N D R wf).batchCoord (ix2 e k) 1
      + (rowsTake N D R wf).offCoord (ix2 e k) 1 = k.val
    have hst : (rowsTake N D R wf).start (ix2 e k) idx 1 = 0 := by
      unfold GatherDims.start
      rw [dif_neg (show (1 : Fin 2) ∉ (rowsTake N D R wf).startIndexMap from
        (by decide : (1 : Fin 2) ∉ ([0] : List (Fin 2))))]
    have hoff : (rowsTake N D R wf).offCoord (ix2 e k) 1 = k.val := by
      unfold GatherDims.offCoord
      rw [dif_pos (show (1 : Fin 2) ∈ (rowsTake N D R wf).sKept from
        (by decide : (1 : Fin 2) ∈ (List.finRange 2).filter (· ∉ ([0] ++ [] : List (Fin 2)))))]
      rfl
    rw [GatherDims.batchCoord_eq_zero _ _ _ List.not_mem_nil, hst, hoff]
    omega

/-! ## Rows accumulated: `acc[idx] += upd` -/

/-- The dimension numbers of the row accumulation `acc[idx] += upd` for `acc : [N, D]`, `idx : [R, 1]`,
    `upd : [R, D]`: axis 1 of the updates is the window, axis 0 of the operand is the one the row number names. -/
abbrev rowsScatter (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update index `j` starts at the row number `idx(j₀, 0)`, read signed. -/
theorem start_rowsScatter_zero {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 0 = (idx (ix2 (j 0) (0 : Fin 1))).toInt := by
  unfold ScatterDims.start
  rw [dif_pos (show (0 : Fin 2) ∈ (rowsScatter N D R wf).scatterDimsToOperandDims from List.mem_singleton.mpr rfl)]
  have hsi : (rowsScatter N D R wf).siIdx j ⟨List.idxOf (0 : Fin 2) (rowsScatter N D R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no row number names, the window starts at `0`. -/
theorem start_rowsScatter_one {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 1 = 0 := by
  unfold ScatterDims.start
  rw [dif_neg (show (1 : Fin 2) ∉ (rowsScatter N D R wf).scatterDimsToOperandDims from
    (by decide : (1 : Fin 2) ∉ ([0] : List (Fin 2))))]

/-- The row axis is an inserted one: the window coordinate on it is `0`. -/
theorem window_rowsScatter_zero {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 0 = 0 := by
  unfold ScatterDims.window
  rw [dif_neg (show (0 : Fin 2) ∉ (rowsScatter N D R wf).sKept from
    (by decide : (0 : Fin 2) ∉ (List.finRange 2).filter (· ∉ ([0] : List (Fin 2)))))]

/-- On the column axis the window coordinate of update index `j` is its column `j₁`. -/
theorem window_rowsScatter_one {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 1 = (j 1).val := by
  unfold ScatterDims.window
  rw [dif_pos (show (1 : Fin 2) ∈ (rowsScatter N D R wf).sKept from
    (by decide : (1 : Fin 2) ∈ (List.finRange 2).filter (· ∉ ([0] : List (Fin 2)))))]
  rfl

/-- Update index `j` lands on the operand's entry `(p, k)` exactly when its row number `idx(j₀, 0)`, read signed, is
    `p` and its column is `k`; a row number outside `[0, N)` lands on no entry. -/
theorem resultIdx_rowsScatter {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) (p : Fin N) (k : Fin D) :
    (rowsScatter N D R wf).resultIdx? j idx = some (ix2 p k)
      ↔ (idx (ix2 (j 0) (0 : Fin 1))).toInt = (p.val : ℤ) ∧ j 1 = k := by
  have hs0 := start_rowsScatter_zero wf j idx
  have hs1 := start_rowsScatter_one wf j idx
  have hw0 := window_rowsScatter_zero wf j
  have hw1 := window_rowsScatter_one wf j
  have hj1 : (j 1).val < D := idx2_lt1 j
  have hpN : p.val < N := p.isLt
  unfold ScatterDims.resultIdx?
  split
  · rename_i h
    rw [Option.some.injEq]
    constructor
    · intro hf
      have h0 : ((rowsScatter N D R wf).start j idx 0 + ((rowsScatter N D R wf).window j 0 : ℤ)).toNat = p.val :=
        congrArg Fin.val (congrFun hf 0)
      have h1 : ((rowsScatter N D R wf).start j idx 1 + ((rowsScatter N D R wf).window j 1 : ℤ)).toNat = k.val :=
        congrArg Fin.val (congrFun hf 1)
      have hh0 := (h 0).1
      rw [hs0, hw0] at h0 hh0
      rw [hs1, hw1] at h1
      refine ⟨by omega, Fin.ext (by omega)⟩
    · rintro ⟨hp, hk⟩
      funext a
      refine Fin.ext ?_
      match a with
      | ⟨0, _⟩ =>
        show ((rowsScatter N D R wf).start j idx 0 + ((rowsScatter N D R wf).window j 0 : ℤ)).toNat = p.val
        rw [hs0, hw0, hp]; omega
      | ⟨1, _⟩ =>
        show ((rowsScatter N D R wf).start j idx 1 + ((rowsScatter N D R wf).window j 1 : ℤ)).toNat = k.val
        rw [hs1, hw1, hk]; omega
  · rename_i h
    constructor
    · intro hf; cases hf
    · rintro ⟨hp, hk⟩
      exfalso; apply h
      intro a
      match a with
      | ⟨0, _⟩ =>
        show 0 ≤ (rowsScatter N D R wf).start j idx 0 + ((rowsScatter N D R wf).window j 0 : ℤ)
          ∧ (rowsScatter N D R wf).start j idx 0 + ((rowsScatter N D R wf).window j 0 : ℤ) < (N : ℤ)
        rw [hs0, hw0, hp]; omega
      | ⟨1, _⟩ =>
        show 0 ≤ (rowsScatter N D R wf).start j idx 1 + ((rowsScatter N D R wf).window j 1 : ℤ)
          ∧ (rowsScatter N D R wf).start j idx 1 + ((rowsScatter N D R wf).window j 1 : ℤ) < (D : ℤ)
        rw [hs1, hw1]; omega

/-- The row accumulation at `(p, k)`: the operand's entry plus the sum of the updates' entries `(e, k)` over the
    update rows `e` whose row number `idx(e, 0)`, read signed and not clamped, is `p`. -/
theorem scatterAdd_rowsScatter_apply {N D R w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w)
    (upd : (⟨2, ![R, D]⟩ : Shape).Idx → EReal) (p : Fin N) (k : Fin D) :
    Host.scatterAdd (F := Ideal) (φ := .f32) (rowsScatter N D R wf) x idx upd (ix2 p k)
      = x (ix2 p k)
        + ∑ e ∈ Finset.univ.filter (fun e : Fin R => (idx (ix2 e (0 : Fin 1))).toInt = (p.val : ℤ)),
            upd (ix2 e k) := by
  show x (ix2 p k) + ∑ j ∈ Finset.univ.filter
      (fun j => (rowsScatter N D R wf).resultIdx? j idx = some (ix2 p k)), upd j = _
  congr 1
  symm
  refine Finset.sum_bij (fun e _ => ix2 e k) ?_ ?_ ?_ ?_
  · intro e he
    rw [Finset.mem_filter] at he ⊢
    exact ⟨Finset.mem_univ _, (resultIdx_rowsScatter wf (ix2 e k) idx p k).mpr ⟨he.2, rfl⟩⟩
  · intro e₁ _ e₂ _ h
    exact congrFun h 0
  · intro j hj
    rw [Finset.mem_filter] at hj
    have hj' := (resultIdx_rowsScatter wf j idx p k).mp hj.2
    refine ⟨j 0, Finset.mem_filter.mpr ⟨Finset.mem_univ _, hj'.1⟩, ?_⟩
    rw [← hj'.2]
    exact (eq_ix2 j).symm
  · intro e _
    rfl

end Cert.Lib

end
-- ==== Proof.LibPair.lean ====
/-
  Two arrays joined, read at an index; a scalar repeated, read at an index.

  Joining two arrays along an axis gives an array whose coordinate on that axis runs first through the first piece and
  then through the second: a coordinate below the first piece's extent reads the first piece at the same index, a
  coordinate `n₁ + j` reads the second piece with `j` on that axis. Stated for two matrices side by side (columns), two
  matrices one above the other (rows), and two vectors end to end. A scalar repeated over any shape reads the scalar
  everywhere.
-/
import Idealize.ShloMosaic.Lib.Pipeline.Value
import Idealize.ShloMosaic.Lib.ValueIdx

noncomputable section

namespace Cert.Lib

open Idealize.ShloMosaic Idealize.ShloMosaic.ValueIdx

variable {α : Type}

/-- A scalar repeated over a shape reads the scalar at every index. -/
theorem splat_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 fun a => a.elim0

/-- Two matrices side by side: a column of the first. -/
theorem pair_cols_left {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₁) (hj : j.val < C) :
    concatenate ⟨2, ![R, C]⟩ 1 [⟨⟨2, ![R, n₁]⟩, x₁⟩, ⟨⟨2, ![R, n₂]⟩, x₂⟩] h (ix2 r ⟨j.val, hj⟩) = x₁ (ix2 r j) :=
  concatenate_pair_apply_left 1 x₁ x₂ h _ rfl (ix2 r j) (fun b => match b with | ⟨0, _⟩ => rfl | ⟨1, _⟩ => rfl)

/-- Two matrices side by side: a column of the second. -/
theorem pair_cols_right {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₂) (hj : n₁ + j.val < C) :
    concatenate ⟨2, ![R, C]⟩ 1 [⟨⟨2, ![R, n₁]⟩, x₁⟩, ⟨⟨2, ![R, n₂]⟩, x₂⟩] h (ix2 r ⟨n₁ + j.val, hj⟩) = x₂ (ix2 r j) :=
  concatenate_pair_apply_right 1 x₁ x₂ h _ rfl rfl (ix2 r j)
    (fun b hb => match b with | ⟨0, _⟩ => rfl | ⟨1, _⟩ => absurd rfl hb)
    (by show j.val + n₁ = n₁ + j.val; omega)

/-- Two matrices one above the other: a row of the first. -/
theorem pair_rows_top {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₁) (c : Fin C) (hi : i.val < A) :
    concatenate ⟨2, ![A, C]⟩ 0 [⟨⟨2, ![a₁, C]⟩, x₁⟩, ⟨⟨2, ![a₂, C]⟩, x₂⟩] h (ix2 ⟨i.val, hi⟩ c) = x₁ (ix2 i c) :=
  concatenate_pair_apply_left 0 x₁ x₂ h _ rfl (ix2 i c) (fun b => match b with | ⟨0, _⟩ => rfl | ⟨1, _⟩ => rfl)

/-- Two matrices one above the other: a row of the second. -/
theorem pair_rows_bottom {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₂) (c : Fin C) (hi : a₁ + i.val < A) :
    concatenate ⟨2, ![A, C]⟩ 0 [⟨⟨2, ![a₁, C]⟩, x₁⟩, ⟨⟨2, ![a₂, C]⟩, x₂⟩] h (ix2 ⟨a₁ + i.val, hi⟩ c) = x₂ (ix2 i c) :=
  concatenate_pair_apply_right 0 x₁ x₂ h _ rfl rfl (ix2 i c)
    (fun b hb => match b with | ⟨0, _⟩ => absurd rfl hb | ⟨1, _⟩ => rfl)
    (by show i.val + a₁ = a₁ + i.val; omega)

/-- Two vectors end to end: an entry of the first. -/
theorem pair_vec_left {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₁) (hj : j.val < N) :
    concatenate ⟨1, ![N]⟩ 0 [⟨⟨1, ![n₁]⟩, x₁⟩, ⟨⟨1, ![n₂]⟩, x₂⟩] h (ix1 ⟨j.val, hj⟩) = x₁ (ix1 j) :=
  concatenate_pair_apply_left 0 x₁ x₂ h _ rfl (ix1 j) (fun b => match b with | ⟨0, _⟩ => rfl)

/-- Two vectors end to end: an entry of the second. -/
theorem pair_vec_right {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₂) (hj : n₁ + j.val < N) :
    concatenate ⟨1, ![N]⟩ 0 [⟨⟨1, ![n₁]⟩, x₁⟩, ⟨⟨1, ![n₂]⟩, x₂⟩] h (ix1 ⟨n₁ + j.val, hj⟩) = x₂ (ix1 j) :=
  concatenate_pair_apply_right 0 x₁ x₂ h _ rfl rfl (ix1 j)
    (fun b hb => match b with | ⟨0, _⟩ => absurd rfl hb)
    (by show j.val + n₁ = n₁ + j.val; omega)

end Cert.Lib

end
-- ==== Proof.LibJoinCols.lean ====
/-
  Two matrices side by side, read at any column.

  Joining `[R, n₁]` and `[R, n₂]` along the column axis gives `[R, C]` with `C = n₁ + n₂`: a column `l < n₁` reads the
  first matrix at column `l`, a column `l ≥ n₁` reads the second at column `l - n₁`. As a row: row `r` of the join is the
  row of the first followed by the row of the second (`Cert.Lib.rowJoin`).
-/
import proofs.«129877_j42932493091129_2_alg».proof.Proof.LibPair

noncomputable section

namespace Cert.Lib

open Idealize.ShloMosaic Idealize.ShloMosaic.ValueIdx

variable {α : Type}

/-- A row of `n₁` entries followed by a row of `n₂` entries, as one row of `C = n₁ + n₂` entries. -/
def rowJoin (n₁ : ℕ) {n₂ C : ℕ} (hC : C = n₁ + n₂) (u : Fin n₁ → α) (v : Fin n₂ → α) : Fin C → α :=
  fun l => if h : l.val < n₁ then u ⟨l.val, h⟩ else v ⟨l.val - n₁, by have := l.isLt; omega⟩

/-- Row `r` of two matrices joined side by side is the join of their rows `r`. -/
theorem pair_cols_apply {R n₁ n₂ C : ℕ} (hC : C = n₁ + n₂) (x₁ : (⟨2, ![R, n₁]⟩ : Shape).Idx → α)
    (x₂ : (⟨2, ![R, n₂]⟩ : Shape).Idx → α)
    (h : Shape.Concatenates [⟨2, ![R, n₁]⟩, ⟨2, ![R, n₂]⟩] ⟨2, ![R, C]⟩ 1) (r : Fin R) (l : Fin C) :
    concatenate ⟨2, ![R, C]⟩ 1 [⟨⟨2, ![R, n₁]⟩, x₁⟩, ⟨⟨2, ![R, n₂]⟩, x₂⟩] h (ix2 r l)
      = rowJoin n₁ hC (fun k => x₁ (ix2 r k)) (fun k => x₂ (ix2 r k)) l := by
  unfold rowJoin
  by_cases hl : l.val < n₁
  · rw [dif_pos hl]
    exact pair_cols_left x₁ x₂ h r ⟨l.val, hl⟩ l.isLt
  · rw [dif_neg hl]
    have hlt : l.val - n₁ < n₂ := by have := l.isLt; omega
    have e : l = ⟨n₁ + (l.val - n₁), by have := l.isLt; omega⟩ := Fin.ext (by show l.val = n₁ + (l.val - n₁); omega)
    have hr := pair_cols_right x₁ x₂ h r ⟨l.val - n₁, hlt⟩ (by show n₁ + (l.val - n₁) < C; have := l.isLt; omega)
    exact (congrArg (fun z => concatenate ⟨2, ![R, C]⟩ 1 [⟨⟨2, ![R, n₁]⟩, x₁⟩, ⟨⟨2, ![R, n₂]⟩, x₂⟩] h (ix2 r z)) e).trans hr

end Cert.Lib

end
-- ==== Proof.RefMask.lean ====
/-
  The reference's gate of an edge, read at the edge. At the extended reals the gate of edge e is the scalar map
  `gateSR` of the edge's noise and its logit; the logit is the sum over the 128 joined branch entries times the
  attention weights, plus the attention bias; a branch entry is max(Σ_j x(n, j) · W(j, k) + b(k), 0) at the node n
  the edge's endpoint names.
-/
import proofs.«129877_j42932493091129_2_alg».proof.Proof.RefSpec
import proofs.«129877_j42932493091129_2_alg».proof.Proof.LibMatDot
import proofs.«129877_j42932493091129_2_alg».proof.Proof.LibEdgeRows
import proofs.«129877_j42932493091129_2_alg».proof.Proof.LibJoinCols
import proofs.«129877_j42932493091129_2_alg».proof.Proof.LibColumnBack
import Idealize.ShloMosaic.Lib.Pipeline.Value
import Idealize.ShloMosaic.Lib.IdealHost

set_option maxRecDepth 16384

noncomputable section

namespace Cert.RefSpec

open Cert.ReferenceIdeal Cert.ReferenceIdeal.Gen Idealize.ShloMosaic Idealize.ShloMosaic.TcCoe Idealize.SL.Sem Idealize.ShloMosaic.ValueIdx
open scoped BigOperators

section Layout
variable {F : FTy → Type} [FloatOps F]

/-- The node an edge endpoint names: the wrapped index read signed and clamped into the node range. -/
def nodeOfR (r : (⟨S1000000, .i32⟩ : BufTy).Contents (Elt F)) (e : Fin 1000000) : Fin 150000 :=
  ⟨min ((wrapR r) (ix2 e (0 : Fin 1))).toInt.toNat (150000 - 1), by omega⟩

/-- A gathered row is the row of the endpoint's node. -/
theorem gatherR_apply {α : Type} (x : S150000x64.Idx → α) (r : (⟨S1000000, .i32⟩ : BufTy).Contents (Elt F)) (e : Fin 1000000) (j : Fin 64) :
    Host.gather gather_S150000x64_S1000000x1_S1000000x64_1_0_n_n_0_1_164 x (wrapR r) (ix2 e j) = x (ix2 (nodeOfR r e) j) :=
  Cert.Lib.gather_rowsTake_apply (N := 150000) (D := 64) (R := 1000000) (by decide)
    gather_S150000x64_S1000000x1_S1000000x64_1_0_n_n_0_1_164_wf x (wrapR r) e j

/-- A bias added to every row. -/
theorem biasRows_apply {α : Type} (b : S64.Idx → α) (e : Fin 1000000) (k : Fin 64) :
    broadcastInDim S1000000x64 ![0, 1] bcast_S1x64_S1000000x64_0_1 (broadcastInDim S1x64 ![1] bcast_S64_S1x64_1 b) (ix2 e k) = b (ix1 k) := by
  rw [broadcastInDim_apply _ bcast_S1x64_S1000000x64_0_1 _ (ix2 e k) (ix2 (0 : Fin 1) k) (by
        intro a
        match a with
        | ⟨0, _⟩ => rfl
        | ⟨1, _⟩ => rfl)]
  exact broadcastInDim_apply _ bcast_S64_S1x64_1 b (ix2 (0 : Fin 1) k) (ix1 k) (by
    intro a
    match a with
    | ⟨0, _⟩ => rfl)

/-- The attention bias added to every edge's logit. -/
theorem biasOne_apply {α : Type} (b : S1.Idx → α) (e : Fin 1000000) :
    broadcastInDim S1000000x1 ![0, 1] bcast_S1x1_S1000000x1_0_1 (broadcastInDim S1x1 ![1] bcast_S1_S1x1_1 b) (ix2 e (0 : Fin 1)) = b (ix1 (0 : Fin 1)) := by
  rw [broadcastInDim_apply _ bcast_S1x1_S1000000x1_0_1 _ (ix2 e (0 : Fin 1)) (ix2 (0 : Fin 1) (0 : Fin 1)) (by
        intro a
        match a with
        | ⟨0, _⟩ => rfl
        | ⟨1, _⟩ => rfl)]
  exact broadcastInDim_apply _ bcast_S1_S1x1_1 b (ix2 (0 : Fin 1) (0 : Fin 1)) (ix1 (0 : Fin 1)) (by
    intro a
    match a with
    | ⟨0, _⟩ => rfl)

end Layout

/-- One branch entry: max(Σ_j f(e, j) · W(j, k) + b(k), 0). -/
theorem denseR_apply (f : FVec Ideal S1000000x64 .f32) (W : FVec Ideal S64x64 .f32) (b : FVec Ideal S64 .f32)
    (e : Fin 1000000) (k : Fin 64) :
    denseR (F := Ideal) f W b (ix2 e k) = max (∑ j : Fin 64, f (ix2 e j) * W (ix2 j k) + b (ix1 k)) 0 := by
  unfold denseR
  rw [maximumf_apply, addf_apply, biasRows_apply]
  have hd : Host.dotGeneral dot_S1000000x64_S64x64_S1000000x64_1_0_0_1_n_n none f W (ix2 e k) = ∑ j : Fin 64, f (ix2 e j) * W (ix2 j k) :=
    Cert.Lib.dotGeneral_plain_apply (wf := dot_S1000000x64_S64x64_S1000000x64_1_0_0_1_n_n_wf) none .single f W e k
  rw [hd]
  have hz : broadcastInDim S1000000x64 ![] bcast_S_S1000000x64 (constant (F := Ideal) S_ .f32 0x00000000#32) (ix2 e k) = 0 := by
    rw [broadcastInDim_apply _ bcast_S_S1000000x64 _ (ix2 e k) ix0 (fun a => a.elim0), constant_apply, Ideal.ofBits_zero_f32]
  rw [hz]

/-- An edge's logit: the joined branches times the attention weights, plus the attention bias. -/
theorem logitR_apply (h1 h2 : FVec Ideal S1000000x64 .f32) (attW : FVec Ideal S128x1 .f32) (attb : FVec Ideal S1 .f32) (e : Fin 1000000) :
    logitR (F := Ideal) h1 h2 attW attb (ix2 e (0 : Fin 1))
      = (∑ k : Fin 128, Cert.Lib.rowJoin 64 (show 128 = 64 + 64 from rfl) (fun k => h1 (ix2 e k)) (fun k => h2 (ix2 e k)) k * attW (ix2 k (0 : Fin 1)))
        + attb (ix1 (0 : Fin 1)) := by
  unfold logitR
  rw [addf_apply, biasOne_apply]
  have hd := Cert.Lib.dotGeneral_plain_apply (φ₁ := .f32) (φ₂ := .f32) (wf := dot_S1000000x128_S128x1_S1000000x1_1_0_0_1_n_n_wf) none .single
    (concatenate S1000000x128 1 [⟨S1000000x64, h1⟩, ⟨S1000000x64, h2⟩] concatenates_S1000000x64_S1000000x64_S1000000x128_d1) attW e (0 : Fin 1)
  refine congrArg (· + attb (ix1 (0 : Fin 1))) (hd.trans (Finset.sum_congr rfl fun k _ => ?_))
  rw [Cert.Lib.pair_cols_apply (show 128 = 64 + 64 from rfl) h1 h2 concatenates_S1000000x64_S1000000x64_S1000000x128_d1 e k]

/-- The hard-concrete map on one edge: the noise clipped into [lo, hi], its logit log u − log(1 − u) shifted by the
    edge's logit, the logistic function, stretched by 3/2 and shifted by −0.45 (as the program's words), clipped to [0, 1]. -/
def gateSR (u la : EReal) : EReal :=
  min (1 : EReal) (max (0 : EReal)
    (Ideal.div 1 (1 + Ideal.exp (-((Ideal.log (min (Ideal.ofBits .f32 0x3F7FFFFE#32) (max (Ideal.ofBits .f32 0x33D6BF95#32) u))
          - Ideal.log1p (-(min (Ideal.ofBits .f32 0x3F7FFFFE#32) (max (Ideal.ofBits .f32 0x33D6BF95#32) u)))) + la)))
      * Ideal.ofBits .f32 0x3FC00000#32 + Ideal.ofBits .f32 0xBEE66666#32))

/-- The gate at an index is the scalar map of the noise and the logit there. -/
theorem gateR_apply (noise la : FVec Ideal S1000000x1 .f32) (i : S1000000x1.Idx) :
    gateR (F := Ideal) noise la i = gateSR (noise i) (la i) := by
  unfold gateR gateSR
  simp only [minimumf_apply, maximumf_apply, addf_apply, mulf_apply, subf_apply, Host.divf, Host.exp, Host.negf, Host.log, Host.log1p,
    broadcastInDim_apply _ bcast_S_S1000000x1 _ i ix0 (fun a => a.elim0), constant_apply, id_eq,
    Ideal.hostDivf_def, Ideal.hostUnary_exp_def, Ideal.hostUnary_log_def, Ideal.hostUnary_log1p_def, Ideal.hostNegf_def, Ideal.negf_def,
    Ideal.ofBits_zero_f32, Ideal.ofBits_one_f32]

/-- The reference's gate of edge `e`. -/
theorem maskRef_apply (x : (⟨S150000x64, .f32⟩ : BufTy).Contents (Elt Ideal)) (row col : (⟨S1000000, .i32⟩ : BufTy).Contents (Elt Ideal)) (noise : (⟨S1000000x1, .f32⟩ : BufTy).Contents (Elt Ideal))
    (nbW : (⟨S64x64, .f32⟩ : BufTy).Contents (Elt Ideal)) (nbb : (⟨S64, .f32⟩ : BufTy).Contents (Elt Ideal)) (selfW : (⟨S64x64, .f32⟩ : BufTy).Contents (Elt Ideal)) (selfb : (⟨S64, .f32⟩ : BufTy).Contents (Elt Ideal))
    (attW : (⟨S128x1, .f32⟩ : BufTy).Contents (Elt Ideal)) (attb : (⟨S1, .f32⟩ : BufTy).Contents (Elt Ideal)) (e : Fin 1000000) :
    maskRef (F := Ideal) x row col noise nbW nbb selfW selfb attW attb (ix1 e)
      = gateSR (noise (ix2 e (0 : Fin 1)))
          ((∑ k : Fin 128, Cert.Lib.rowJoin 64 (show 128 = 64 + 64 from rfl)
              (fun k => max (∑ j : Fin 64, x (ix2 (nodeOfR row e) j) * nbW (ix2 j k) + nbb (ix1 k)) 0)
              (fun k => max (∑ j : Fin 64, x (ix2 (nodeOfR col e) j) * selfW (ix2 j k) + selfb (ix1 k)) 0) k * attW (ix2 k (0 : Fin 1)))
            + attb (ix1 (0 : Fin 1))) := by
  unfold maskRef
  rw [Cert.Lib.shapeCast_a1_a_apply, gateR_apply, logitR_apply]
  simp only [denseR_apply]
  simp only [gatherR_apply]

end Cert.RefSpec

end
-- ==== Proof.Bridge.lean ====
/-
  The two programs compute the same gates, hence the same result. At edge e both apply one scalar gate map to the
  edge's noise and a logit. The kernel program's logit is (a1(n₁) + a2(n₂)) with a1(n₁) = Σ_{k<64} h₁(k) · w(k) + β and
  a2(n₂) = Σ_{k<64} h₂(k) · w(64 + k), the two dense branches evaluated at the nodes n₁, n₂ the edge's endpoints name;
  the reference's logit is Σ_{k<128} (h₁ ‖ h₂)(k) · w(k) + β with the same branch entries, since gathering a node's
  row and then applying a row-wise map is applying the map and then gathering. The sum over the 128 joined entries is
  the sum of the two halves, and (A + β) + B = (A + B) + β in the extended reals (addition there is commutative and
  associative; no finiteness is needed). After the gates both programs run the same operations.
-/
import proofs.«129877_j42932493091129_2_alg».proof.Proof.KMask
import proofs.«129877_j42932493091129_2_alg».proof.Proof.KLayout
import proofs.«129877_j42932493091129_2_alg».proof.Proof.RefMask

set_option maxRecDepth 16384

noncomputable section

namespace Cert.Bridge

open Idealize.ShloMosaic Idealize.ShloMosaic.TcCoe Idealize.SL.Sem Idealize.ShloMosaic.ValueIdx
open Cert.KernelIdeal Cert.KernelIdeal.Gen
open scoped BigOperators

/-- The kernel's scalar gate map of the two projections and the noise is the reference's of the noise and their sum:
    the logistic function is 1 / (1 + e^(−z)), and 0 − u = −u. -/
theorem gateS_eq (a b u : EReal) :
    Cert.KernelIdeal.GateValue.gateS (F := Ideal) a b u = Cert.RefSpec.gateSR u (a + b) := by
  unfold Cert.KernelIdeal.GateValue.gateS Cert.RefSpec.gateSR
  simp only [Ideal.minimumf_def, Ideal.maximumf_def, Ideal.addf_def, Ideal.mulf_def, Ideal.subf_def, Ideal.logistic_def,
    Ideal.log_def, Ideal.log1p_def, Ideal.ofBits_def, Ideal.logistic, Ideal.ofBits_zero_f32, Ideal.ofBits_one_f32, zero_sub]

/-- Both programs name an endpoint's node the same way. -/
theorem nodeOf_eq (r : (⟨S1000000, .i32⟩ : BufTy).Contents (Elt Ideal)) (e : Fin 1000000) :
    Cert.KSpec.nodeOf (F := Ideal) r e = Cert.RefSpec.nodeOfR (F := Ideal) r e := rfl

/-- A sum over 128 joined entries is the sum over the first 64 plus the sum over the last 64. -/
theorem sum_join (u v : Fin 64 → EReal) (w : Fin 128 → EReal) :
    ∑ k : Fin 128, Cert.Lib.rowJoin 64 (show 128 = 64 + 64 from rfl) u v k * w k
      = ∑ k : Fin 64, u k * w ⟨k.val, by have := k.isLt; omega⟩ + ∑ k : Fin 64, v k * w ⟨64 + k.val, by have := k.isLt; omega⟩ := by
  have h := Fin.sum_univ_add (M := EReal) (a := 64) (b := 64)
    (fun k : Fin (64 + 64) => Cert.Lib.rowJoin 64 (show 128 = 64 + 64 from rfl) u v k * w k)
  refine h.trans ?_
  congr 1

/-- The gates agree, edge by edge. -/
theorem mask_eq (x : (⟨S150000x64, .f32⟩ : BufTy).Contents (Elt Ideal)) (row col : (⟨S1000000, .i32⟩ : BufTy).Contents (Elt Ideal)) (noise : (⟨S1000000x1, .f32⟩ : BufTy).Contents (Elt Ideal))
    (nbW : (⟨S64x64, .f32⟩ : BufTy).Contents (Elt Ideal)) (nbb : (⟨S64, .f32⟩ : BufTy).Contents (Elt Ideal)) (selfW : (⟨S64x64, .f32⟩ : BufTy).Contents (Elt Ideal)) (selfb : (⟨S64, .f32⟩ : BufTy).Contents (Elt Ideal))
    (attW : (⟨S128x1, .f32⟩ : BufTy).Contents (Elt Ideal)) (attb : (⟨S1, .f32⟩ : BufTy).Contents (Elt Ideal)) :
    Cert.KSpec.maskK x row col noise nbW nbb selfW selfb attW attb
      = Cert.RefSpec.maskRef (F := Ideal) x row col noise nbW nbb selfW selfb attW attb := by
  funext i
  obtain ⟨e, rfl⟩ : ∃ e : Fin 1000000, i = ix1 e := ⟨i 0, eq_ix1 i⟩
  rw [Cert.RefSpec.maskRef_apply]
  have hr : e.val / 8192 < 128 := by have := e.isLt; omega
  have hq : e.val % 8192 < 8192 := Nat.mod_lt _ (by decide)
  have hrq : (⟨e.val / 8192, hr⟩ : Fin 128).val * 8192 + (⟨e.val % 8192, hq⟩ : Fin 8192).val = e.val := by
    show e.val / 8192 * 8192 + e.val % 8192 = e.val
    omega
  unfold Cert.KSpec.maskK
  rw [Cert.KSpec.unprep_apply _ e ⟨e.val / 8192, hr⟩ ⟨e.val % 8192, hq⟩ hrq]
  show Cert.KernelIdeal.GateValue.gateS (Cert.KSpec.padPrep _ _) (Cert.KSpec.padPrep _ _) (Cert.KSpec.padPrep _ _) = _
  rw [Cert.KSpec.padPrep_apply _ e _ _ hrq, Cert.KSpec.padPrep_apply _ e _ _ hrq, Cert.KSpec.padPrep_apply _ e _ _ hrq,
    Cert.KSpec.gatherCol_apply, Cert.KSpec.gatherCol_apply, Cert.KSpec.noiseFlat_apply, gateS_eq]
  refine congrArg (Cert.RefSpec.gateSR (noise (ix2 e (0 : Fin 1)))) ?_
  rw [sum_join]
  unfold Cert.KSpec.a1K Cert.KSpec.a2K Cert.KernelIdeal.NodeValue.nodeS
  simp only [Cert.KSpec.rowOf_apply, Cert.KSpec.sliceLo_apply, Cert.KSpec.sliceHi_apply, Cert.KSpec.oneOf_apply, nodeOf_eq]
  exact add_right_comm _ _ _

/-- After the gates both programs run the same operations. -/
theorem tail_eq (mask : (⟨S1000000, .f32⟩ : BufTy).Contents (Elt Ideal)) (x : (⟨S150000x64, .f32⟩ : BufTy).Contents (Elt Ideal)) (row col : (⟨S1000000, .i32⟩ : BufTy).Contents (Elt Ideal)) :
    Cert.KSpec.tailK (F := Ideal) mask x row col = Cert.RefSpec.tailRef (F := Ideal) mask x row col := rfl

/-- One layer. -/
theorem layer_eq (x : (⟨S150000x64, .f32⟩ : BufTy).Contents (Elt Ideal)) (row col : (⟨S1000000, .i32⟩ : BufTy).Contents (Elt Ideal)) (noise : (⟨S1000000x1, .f32⟩ : BufTy).Contents (Elt Ideal))
    (nbW : (⟨S64x64, .f32⟩ : BufTy).Contents (Elt Ideal)) (nbb : (⟨S64, .f32⟩ : BufTy).Contents (Elt Ideal)) (selfW : (⟨S64x64, .f32⟩ : BufTy).Contents (Elt Ideal)) (selfb : (⟨S64, .f32⟩ : BufTy).Contents (Elt Ideal))
    (attW : (⟨S128x1, .f32⟩ : BufTy).Contents (Elt Ideal)) (attb : (⟨S1, .f32⟩ : BufTy).Contents (Elt Ideal)) :
    Cert.KSpec.layerK x row col noise nbW nbb selfW selfb attW attb
      = Cert.RefSpec.layerRef (F := Ideal) x row col noise nbW nbb selfW selfb attW attb := by
  unfold Cert.KSpec.layerK Cert.RefSpec.layerRef
  rw [mask_eq, tail_eq]

/-- The whole programs. -/
theorem whole_eq (x0 : (⟨S150000x64, .f32⟩ : BufTy).Contents (Elt Ideal)) (row col : (⟨S1000000, .i32⟩ : BufTy).Contents (Elt Ideal)) (noise0 noise1 : (⟨S1000000x1, .f32⟩ : BufTy).Contents (Elt Ideal))
    (nbW0 : (⟨S64x64, .f32⟩ : BufTy).Contents (Elt Ideal)) (nbb0 : (⟨S64, .f32⟩ : BufTy).Contents (Elt Ideal)) (selfW0 : (⟨S64x64, .f32⟩ : BufTy).Contents (Elt Ideal)) (selfb0 : (⟨S64, .f32⟩ : BufTy).Contents (Elt Ideal))
    (attW0 : (⟨S128x1, .f32⟩ : BufTy).Contents (Elt Ideal)) (attb0 : (⟨S1, .f32⟩ : BufTy).Contents (Elt Ideal))
    (nbW1 : (⟨S64x64, .f32⟩ : BufTy).Contents (Elt Ideal)) (nbb1 : (⟨S64, .f32⟩ : BufTy).Contents (Elt Ideal)) (selfW1 : (⟨S64x64, .f32⟩ : BufTy).Contents (Elt Ideal)) (selfb1 : (⟨S64, .f32⟩ : BufTy).Contents (Elt Ideal))
    (attW1 : (⟨S128x1, .f32⟩ : BufTy).Contents (Elt Ideal)) (attb1 : (⟨S1, .f32⟩ : BufTy).Contents (Elt Ideal)) :
    Cert.KSpec.wholeK x0 row col noise0 noise1 nbW0 nbb0 selfW0 selfb0 attW0 attb0 nbW1 nbb1 selfW1 selfb1 attW1 attb1
      = Cert.RefSpec.wholeRef (F := Ideal) x0 row col noise0 noise1 nbW0 nbb0 selfW0 selfb0 attW0 attb0 nbW1 nbb1 selfW1 selfb1 attW1 attb1 := by
  unfold Cert.KSpec.wholeK Cert.RefSpec.wholeRef
  rw [layer_eq, layer_eq]

end Cert.Bridge

end
-- ==== Proof.lean ====
/-
  The certificate: the idealized kernel program and the idealized reference compute the same array.

  Both programs are two graph layers and a final sum x + layer₀ x + layer₁ (layer₀ x). A layer first computes a gate in
  [0, 1] for every edge and then — identically in both programs — normalises by the gated in-degrees and sums the
  weighted source rows into the target nodes. The programs differ in how the gate's logit is computed. The reference
  gathers the feature rows of both endpoints of every edge, runs a dense branch on each (a 64 × 64 product, a bias, max
  with 0), joins the two results and projects them with the 128 attention weights, plus a bias. The kernel program
  runs the two branches and their halves of the projection once per NODE, in a kernel region tiled over the nodes
  (the bias folded into the first projection), gathers the two resulting scalars at the edges' endpoints, and
  applies the gate map in a second kernel region on a padded 128 × 8192 layout of the edges. Because the branches are
  row-wise maps, evaluating them at a gathered row is gathering their value; the 128-term projection splits into its
  two halves; and (A + β) + B = (A + B) + β on the extended reals. No finiteness of the inputs is used: the
  precondition is never opened.

  The frames of the two kernel programs are the generated ones; the reference's frame and value come from its
  generated run; the kernel program's value is read off the run of its segments (Proof/KRun.lean), through the
  contents at each region's entry and exit (Proof/KChain1.lean, Proof/KMask.lean) and the regions' output arrays
  (Proof/NodeValue.lean, Proof/GateValue.lean); Proof/RefSpec.lean and Proof/RefMask.lean read the reference, and
  Proof/Bridge.lean joins the two.
-/
import proofs.«129877_j42932493091129_2_alg».proof.Defs
import proofs.«129877_j42932493091129_2_alg».proof.Proof.Gen.Kernel
import proofs.«129877_j42932493091129_2_alg».proof.Proof.Gen.Kernel.Frame
import proofs.«129877_j42932493091129_2_alg».proof.Proof.Gen.KernelIdeal
import proofs.«129877_j42932493091129_2_alg».proof.Proof.Gen.KernelIdeal.Frame
import proofs.«129877_j42932493091129_2_alg».proof.Proof.Gen.ReferenceIdeal
import proofs.«129877_j42932493091129_2_alg».proof.Proof.Gen.ReferenceIdeal.Run
import proofs.«129877_j42932493091129_2_alg».proof.Proof.Gen.Pre_finite_inputs
import proofs.«129877_j42932493091129_2_alg».proof.Proof.KRun
import proofs.«129877_j42932493091129_2_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the same function of the (agreeing) arguments. -/
theorem algebraic : Cert.algebraic_KernelIdeal_ReferenceIdeal := by
  intro m ρ m' ρ' _ hagree
  refine ⟨fun c => Cert.KSpec.wholeK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KSpec.kernel_result m ρ c), (h c).2⟩)
      (Cert.KernelIdeal.ValueRun.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.RefSpec.result_eq, h0, h1, h2, h3, h4, h5, h6, h7, h8, h9, h10, h11, h12, h13, h14, h15, h16]
    exact (Cert.Bridge.whole_eq _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
